-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x8 : Shape := ⟨2, ![4096, 8]⟩
abbrev S8 : Shape := ⟨1, ![8]⟩
abbrev S1x4096 : Shape := ⟨2, ![1, 4096]⟩
abbrev S1 : Shape := ⟨1, ![1]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x8 : S_.BroadcastsInDim S4096x8 (![] : Fin 0 → Fin S4096x8.rank)
  reducesTo_S4096x8_S_d0_1 : S4096x8.ReducesTo [0, 1] S_
  bcast_S_S8 : S_.BroadcastsInDim S8 (![] : Fin 0 → Fin S8.rank)
  reducesTo_S8_S_d0 : S8.ReducesTo [0] S_
  bcast_S_S1x4096 : S_.BroadcastsInDim S1x4096 (![] : Fin 0 → Fin S1x4096.rank)
  reducesTo_S1x4096_S_d0_1 : S1x4096.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1x4096 .f32) (main_arg5 : FVec F S1 .f32) (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  let main_v19 : FVec F S1x4096 .f32 := Host.absf main_arg4
  let main_cst_6 : FVec F S_ .f32 := constant S_ .f32 0x7F800000#32
  let main_v20 : FVec F S1x4096 .f32 := broadcastInDim S1x4096 ![] bcast_S_S1x4096 main_cst_6
  let main_v21 : IVec S1x4096 1 := cmpf .olt main_v19 main_v20
  let main_c_7 : IVec S_ 1 := constantI S_ 1 1#1
  let main_v22 : IVec S_ 1 := (fun x v => Host.reduce IntOp.andi x v reducesTo_S1x4096_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S4096x4096 .f32) (main_arg1 : FVec F S4096x4096 .f32) (main_arg2 : FVec F S4096x8 .f32) (main_arg3 : FVec F S8 .f32) (main_arg4 : FVec F S1x4096 .f32) (main_arg5 : FVec F S1 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x8 .f32 := Host.absf main_arg2
  let main_cst_2 : FVec F S_ .f32 := constant S_ .f32 0x7F800000#32
  let main_v10 : FVec F S4096x8 .f32 := broadcastInDim S4096x8 ![] bcast_S_S4096x8 main_cst_2
  let main_v11 : IVec S4096x8 1 := cmpf .olt main_v9 main_v10
  let main_c_3 : IVec S_ 1 := constantI S_ 1 1#1
  let main_v12 : IVec S_ 1 := (fun x v => Host.reduce IntOp.andi x v reducesTo_S4096x8_S_d0_1 h_S_) main_v11 main_c_3
  let main_v13 : IVec S_ 1 := andi main_v8 main_v12
  let main_v14 : FVec F S8 .f32 := Host.absf main_arg3
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_arg4 main_arg5 main_v13 main_v16
-- ==== Kernel.lean ====
abbrev S4096x4096 : Shape := ⟨2, ![4096, 4096]⟩
abbrev S4096x8 : Shape := ⟨2, ![4096, 8]⟩
abbrev S8 : Shape := ⟨1, ![8]⟩
abbrev S1x4096 : Shape := ⟨2, ![1, 4096]⟩
abbrev S1 : Shape := ⟨1, ![1]⟩
abbrev S1x8 : Shape := ⟨2, ![1, 8]⟩
abbrev S1x1 : Shape := ⟨2, ![1, 1]⟩
abbrev S256x2048 : Shape := ⟨2, ![256, 2048]⟩
abbrev S2048x256 : Shape := ⟨2, ![2048, 256]⟩
abbrev S512x8 : Shape := ⟨2, ![512, 8]⟩
abbrev S2048x8 : Shape := ⟨2, ![2048, 8]⟩
abbrev S256x8 : Shape := ⟨2, ![256, 8]⟩
abbrev S4096 : Shape := ⟨1, ![4096]⟩
abbrev S4096x1 : Shape := ⟨2, ![4096, 1]⟩

abbrev nBuf : Space → Nat
  | .hbm => 10
  | .vmem => 16
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x8, .f32⟩
  | .hbm, ⟨3, _⟩ => ⟨S8, .f32⟩
  | .hbm, ⟨4, _⟩ => ⟨S1x4096, .f32⟩
  | .hbm, ⟨5, _⟩ => ⟨S1, .f32⟩
  | .hbm, ⟨6, _⟩ => ⟨S1x8, .f32⟩
  | .hbm, ⟨7, _⟩ => ⟨S1x1, .f32⟩
  | .hbm, ⟨8, _⟩ => ⟨S4096x8, .f32⟩
  | .hbm, ⟨9, _⟩ => ⟨S1x8, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S4096x8, .f32⟩
  | .local _ .vmem, ⟨9, _⟩ => ⟨S1x8, .f32⟩
  | .local _ .vmem, ⟨10, _⟩ => ⟨S1x4096, .f32⟩
  | .local _ .vmem, ⟨11, _⟩ => ⟨S1x1, .f32⟩
  | .local _ .vmem, ⟨12, _⟩ => ⟨S4096x8, .f32⟩
  | .local _ .vmem, ⟨13, _⟩ => ⟨S1x8, .f32⟩
  | .local _ .vmem, ⟨14, _⟩ => ⟨S4096x8, .f32⟩
  | .local _ .vmem, ⟨15, _⟩ => ⟨S512x8, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_v0_1 : Ref sig .tc := ⟨.hbm, 8, rfl⟩
abbrev main_v0_0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg0 : BitVec 32 := BitVec.ofNat 32 (i 0).val
  let c2_i32_18 : BitVec 32 := 2#32
  let c0_i32_19 : BitVec 32 := 0#32
  let v38 : BitVec 1 := Scalar.cmpi .eq c2_i32_18 c0_i32_19
  let c1_i32_20 : BitVec 32 := 1#32
  let v39 : BitVec 32 := Scalar.select v38 c1_i32_20 c2_i32_18
  let v40 : BitVec 32 := Scalar.remsi arg0 v39
  let c0_i32_22 : BitVec 32 := 0#32
  let v42 : BitVec 1 := Scalar.cmpi .slt v40 c0_i32_22
  let c0_i32_23 : BitVec 32 := 0#32
  let v43 : BitVec 1 := Scalar.cmpi .slt v39 c0_i32_23
  let v44 : BitVec 1 := Scalar.xori v42 v43
  let c0_i32_21 : BitVec 32 := 0#32
  let v41 : BitVec 1 := Scalar.cmpi .ne v40 c0_i32_21
  let v45 : BitVec 1 := Scalar.andi v44 v41
  let v46 : BitVec 32 := Scalar.addi v40 v39
  let v47 : BitVec 32 := Scalar.select v45 v46 v40
  let c256_i32_24 : BitVec 32 := 256#32
  let v48 : BitVec 32 := Scalar.muli v47 c256_i32_24
  let v49 : Index := Scalar.indexCast v48
  let c0_25 : Index := 0#32
  ![v49.toNat, 0]
def k0_off2 (i : grid0.Coords) : Fin 2 → Nat :=
  let arg0 : BitVec 32 := BitVec.ofNat 32 (i 0).val
  let c1_i32 : BitVec 32 := 1#32
  let v3 : BitVec 32 := Scalar.subi arg0 c1_i32
  let c2_i32 : BitVec 32 := 2#32
  let c0_i32_0 : BitVec 32 := 0#32
  let v4 : BitVec 1 := Scalar.cmpi .eq c2_i32 c0_i32_0
  let c1_i32_1 : BitVec 32 := 1#32
  let v5 : BitVec 32 := Scalar.select v4 c1_i32_1 c2_i32
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c256_i32 : BitVec 32 := 256#32
  let v14 : BitVec 32 := Scalar.muli v13 c256_i32
  let v15 : Index := Scalar.indexCast v14
  let c0 : Index := 0#32
  ![v15.toNat, 0]
def k0_cond4 (i : grid0.Coords) : BitVec 1 :=
  let arg0 : BitVec 32 := BitVec.ofNat 32 (i 0).val
  let c16_i32_9 : BitVec 32 := 16#32
  let v23 : BitVec 1 := Scalar.cmpi .eq arg0 c16_i32_9
  let v24 : BitVec 32 := Scalar.extui v23
  let c0_i32_10 : BitVec 32 := 0#32
  let v25 : BitVec 1 := Scalar.cmpi .ne v24 c0_i32_10
  v25

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c1_i32_0 : BitVec 32 := 1#32
  let c0_i32_1 : BitVec 32 := 0#32
  ![c1_i32_0.toNat, v1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4096x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

class Facts₀ : Prop where
  shapeCasts_S8_S1x8 : S8.ShapeCasts S1x8
  shapeCasts_S1_S1x1 : S1.ShapeCasts S1x1
  inb_S4096x8_S4096x8_0_0 : ∀ a, (![0, 0] : Fin 2 → Nat) a + S4096x8.size a ≤ S4096x8.size a
  h_S4096x8 : 0 < S4096x8.numel
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  slices_S4096x8_o0_0_S2048x8 : S4096x8.Slices ![0, 0] S2048x8
  slices_S4096x8_o2048_0_S2048x8 : S4096x8.Slices ![2048, 0] S2048x8
  h_S256x8 : 0 < S256x8.numel
  shapeCasts_S256x8_S256x8 : S256x8.ShapeCasts S256x8
  inb_S2048x256_S2048x256_0_0 : ∀ a, (![0, 0] : Fin 2 → Nat) a + S2048x256.size a ≤ S2048x256.size a
  h_S2048x256 : 0 < S2048x256.numel
  inb_S4096x8_S2048x8_0_0 : ∀ a, (![0, 0] : Fin 2 → Nat) a + S2048x8.size a ≤ S4096x8.size a
  h_S2048x8 : 0 < S2048x8.numel
  shapeCasts_S2048x8_S2048x8 : S2048x8.ShapeCasts S2048x8
  inb_S4096x8_S2048x8_2048_0 : ∀ a, (![2048, 0] : Fin 2 → Nat) a + S2048x8.size a ≤ S4096x8.size a
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S4096x8 : S1x8.Broadcasts S4096x8
  reduces_S4096x8_S4096 : S4096x8.Reduces [1] S4096
  shapeCasts_S4096_S4096x1 : S4096.ShapeCasts S4096x1
  broadcasts_S4096x1_S4096x8 : S4096x1.Broadcasts S4096x8
  inb_S1x4096_S1x4096_0_0 : ∀ a, (![0, 0] : Fin 2 → Nat) a + S1x4096.size a ≤ S1x4096.size a
  h_S1x4096 : 0 < S1x4096.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x8 : S1x1.Broadcasts S1x8
  dot_S256x2048_S2048x8_S256x8_1_0_0_1_n_n_wf : DotDims.WF S256x2048 S2048x8 S256x8 [1] [0] [0] [1] [] []
  dot_S2048x256_S256x8_S2048x8_1_0_0_1_n_n_wf : DotDims.WF S2048x256 S256x8 S2048x8 [1] [0] [0] [1] [] []
  dot_S1x4096_S4096x8_S1x8_1_0_0_1_n_n_wf : DotDims.WF S1x4096 S4096x8 S1x8 [1] [0] [0] [1] [] []
  hrank0 : 0 < grid0.rank
  k0_off1_inb : ∀ i : grid0.Coords, ∀ (k0_h1 : k0_cond1 i = 1#1), ∀ a, (k0_off1 i) a + S256x8.size a ≤ S512x8.size a
  k0_off1_packedbf16 : ∀ i : grid0.Coords, ∀ (k0_h1 : k0_cond1 i = 1#1), (Rect.unit (s := S512x8) (k0_off1 i) S256x8.size (k0_off1_inb i k0_h1)).PackedRows (EltTy.packing .bf16)
  k0_off2_inb : ∀ i : grid0.Coords, ∀ a, (k0_off2 i) a + S256x8.size a ≤ S512x8.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x4096.size a
  hwx0_0 : ∀ i : grid0.Coords, EltTy.bits .f32 = 32 ∨ (Rect.block (s := S4096x4096) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S4096x4096.size a
  hwx0_1 : ∀ i : grid0.Coords, EltTy.bits .f32 = 32 ∨ (Rect.block (s := S4096x4096) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S4096x4096.size a
  hwx0_2 : ∀ i : grid0.Coords, EltTy.bits .f32 = 32 ∨ (Rect.block (s := S4096x4096) S2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S4096x4096.size a
  hwx0_3 : ∀ i : grid0.Coords, EltTy.bits .f32 = 32 ∨ (Rect.block (s := S4096x4096) S2048x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x8.size a ≤ S4096x8.size a
  hwx0_4 : ∀ i : grid0.Coords, EltTy.bits .f32 = 32 ∨ (Rect.block (s := S4096x8) S4096x8.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x8.size a ≤ S1x8.size a
  hwx0_5 : ∀ i : grid0.Coords, EltTy.bits .f32 = 32 ∨ (Rect.block (s := S1x8) S1x8.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4096.size a ≤ S1x4096.size a
  hwx0_6 : ∀ i : grid0.Coords, EltTy.bits .f32 = 32 ∨ (Rect.block (s := S1x4096) S1x4096.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4096x8.size a ≤ S4096x8.size a
  hwx0_8 : ∀ i : grid0.Coords, EltTy.bits .f32 = 32 ∨ (Rect.block (s := S4096x8) S4096x8.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x8.size a ≤ S1x8.size a
  hwx0_9 : ∀ i : grid0.Coords, EltTy.bits .f32 = 32 ∨ (Rect.block (s := S1x8) S1x8.size (cc0_transform_9 i) (hinb0_9 i)).WholeWords (EltTy.packing .f32)

variable [Facts₀]

def dot_S256x2048_S2048x8_S256x8_1_0_0_1_n_n : DotDims S256x2048 S2048x8 S256x8 where
  lhsContracting := [1]
  rhsContracting := [0]
  lhsNonContracting := [0]
  rhsNonContracting := [1]
  lhsBatch := []
  rhsBatch := []
  wf := dot_S256x2048_S2048x8_S256x8_1_0_0_1_n_n_wf
def dot_S2048x256_S256x8_S2048x8_1_0_0_1_n_n : DotDims S2048x256 S256x8 S2048x8 where
  lhsContracting := [1]
  rhsContracting := [0]
  lhsNonContracting := [0]
  rhsNonContracting := [1]
  lhsBatch := []
  rhsBatch := []
  wf := dot_S2048x256_S256x8_S2048x8_1_0_0_1_n_n_wf
def dot_S1x4096_S4096x8_S1x8_1_0_0_1_n_n : DotDims S1x4096 S4096x8 S1x8 where
  lhsContracting := [1]
  rhsContracting := [0]
  lhsNonContracting := [0]
  rhsNonContracting := [1]
  lhsBatch := []
  rhsBatch := []
  wf := dot_S1x4096_S4096x8_S1x8_1_0_0_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S2048x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S4096x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v0) S1x8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S1x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v1) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0_1) S4096x8.size cc0_transform_8 reads0_8 true true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0_0) S1x8.size cc0_transform_9 reads0_9 true true 1 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun i => !(k0_cond4 i == 1#1) | 9 => fun i => !(k0_cond4 i == 1#1) | ⟨_ + 10, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096x8 : Shape := ⟨2, ![4096, 8]⟩
abbrev S8 : Shape := ⟨1, ![8]⟩
abbrev S1x4096 : Shape := ⟨2, ![1, 4096]⟩
abbrev S1 : Shape := ⟨1, ![1]⟩
abbrev S1x8 : Shape := ⟨2, ![1, 8]⟩
abbrev S_ : Shape := ⟨0, ![]⟩
abbrev S4096 : Shape := ⟨1, ![4096]⟩
abbrev S4096x1 : Shape := ⟨2, ![4096, 1]⟩
abbrev S8x4096 : Shape := ⟨2, ![8, 4096]⟩
abbrev S8x1 : Shape := ⟨2, ![8, 1]⟩
abbrev S1x1 : Shape := ⟨2, ![1, 1]⟩

abbrev nBuf : Space → Nat
  | .hbm => 36
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x8, .f32⟩
  | .hbm, ⟨3, _⟩ => ⟨S8, .f32⟩
  | .hbm, ⟨4, _⟩ => ⟨S1x4096, .f32⟩
  | .hbm, ⟨5, _⟩ => ⟨S1, .f32⟩
  | .hbm, ⟨6, _⟩ => ⟨S4096x8, .f32⟩
  | .hbm, ⟨7, _⟩ => ⟨S4096x8, .f32⟩
  | .hbm, ⟨8, _⟩ => ⟨S1x8, .f32⟩
  | .hbm, ⟨9, _⟩ => ⟨S4096x8, .f32⟩
  | .hbm, ⟨10, _⟩ => ⟨S4096x8, .f32⟩
  | .hbm, ⟨11, _⟩ => ⟨S_, .f32⟩
  | .hbm, ⟨12, _⟩ => ⟨S4096x8, .f32⟩
  | .hbm, ⟨13, _⟩ => ⟨S4096x8, .f32⟩
  | .hbm, ⟨14, _⟩ => ⟨S_, .f32⟩
  | .hbm, ⟨15, _⟩ => ⟨S4096, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S4096x1, .f32⟩
  | .hbm, ⟨20, _⟩ => ⟨S4096x8, .f32⟩
  | .hbm, ⟨21, _⟩ => ⟨S4096x8, .f32⟩
  | .hbm, ⟨22, _⟩ => ⟨S4096x8, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S4096x1, .f32⟩
  | .hbm, ⟨27, _⟩ => ⟨S4096x8, .f32⟩
  | .hbm, ⟨28, _⟩ => ⟨S4096x8, .f32⟩
  | .hbm, ⟨29, _⟩ => ⟨S8x4096, .f32⟩
  | .hbm, ⟨30, _⟩ => ⟨S4096x1, .f32⟩
  | .hbm, ⟨31, _⟩ => ⟨S8x1, .f32⟩
  | .hbm, ⟨32, _⟩ => ⟨S1x1, .f32⟩
  | .hbm, ⟨33, _⟩ => ⟨S8x1, .f32⟩
  | .hbm, ⟨34, _⟩ => ⟨S8x1, .f32⟩
  | .hbm, ⟨35, _⟩ => ⟨S1x8, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_call1_cst : Ref sig .tc := ⟨.hbm, 14, rfl⟩
abbrev main_call1_v0 : Ref sig .tc := ⟨.hbm, 15, rfl⟩
abbrev main_call1_cst_0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_call1_v5 : Ref sig .tc := ⟨.hbm, 21, rfl⟩
abbrev main_call1_v6 : Ref sig .tc := ⟨.hbm, 22, rfl⟩
abbrev main_call1_cst_1 : Ref sig .tc := ⟨.hbm, 23, rfl⟩
abbrev main_call1_v7 : Ref sig .tc := ⟨.hbm, 24, rfl⟩
abbrev main_call1_v8 : Ref sig .tc := ⟨.hbm, 25, rfl⟩
abbrev main_call1_v9 : Ref sig .tc := ⟨.hbm, 26, rfl⟩
abbrev main_call1_v10 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩

abbrev nD : Nat := 1
abbrev τ : Topo := Topo.v7x

variable {F : FTy → Type} [FloatOps F]

class Facts₀ : Prop where
  bcast_S8_S1x8_1 : S8.BroadcastsInDim S1x8 (![1] : Fin 1 → Fin S1x8.rank)
  bcast_S1x8_S4096x8_0_1 : S1x8.BroadcastsInDim S4096x8 (![0, 1] : Fin 2 → Fin S4096x8.rank)
  bcast_S_S4096x8 : S_.BroadcastsInDim S4096x8 (![] : Fin 0 → Fin S4096x8.rank)
  reducesTo_S4096x8_S4096_d1 : S4096x8.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x8_0_1 : S4096x1.BroadcastsInDim S4096x8 (![0, 1] : Fin 2 → Fin S4096x8.rank)
  transposes_S4096x8_S8x4096_1_0 : S4096x8.Transposes [1, 0] S8x4096
  transposes_S1x4096_S4096x1_1_0 : S1x4096.Transposes [1, 0] S4096x1
  bcast_S1_S1x1_1 : S1.BroadcastsInDim S1x1 (![1] : Fin 1 → Fin S1x1.rank)
  bcast_S1x1_S8x1_0_1 : S1x1.BroadcastsInDim S8x1 (![0, 1] : Fin 2 → Fin S8x1.rank)
  transposes_S8x1_S1x8_1_0 : S8x1.Transposes [1, 0] S1x8
  dot_S4096x4096_S4096x8_S4096x8_1_0_0_1_n_n_wf : DotDims.WF S4096x4096 S4096x8 S4096x8 [1] [0] [0] [1] [] []
  dot_S8x4096_S4096x1_S8x1_1_0_0_1_n_n_wf : DotDims.WF S8x4096 S4096x1 S8x1 [1] [0] [0] [1] [] []

variable [Facts₀]

def dot_S4096x4096_S4096x8_S4096x8_1_0_0_1_n_n : DotDims S4096x4096 S4096x8 S4096x8 where
  lhsContracting := [1]
  rhsContracting := [0]
  lhsNonContracting := [0]
  rhsNonContracting := [1]
  lhsBatch := []
  rhsBatch := []
  wf := dot_S4096x4096_S4096x8_S4096x8_1_0_0_1_n_n_wf
def dot_S8x4096_S4096x1_S8x1_1_0_0_1_n_n : DotDims S8x4096 S4096x1 S8x1 where
  lhsContracting := [1]
  rhsContracting := [0]
  lhsNonContracting := [0]
  rhsNonContracting := [1]
  lhsBatch := []
  rhsBatch := []
  wf := dot_S8x4096_S4096x1_S8x1_1_0_0_1_n_n_wf

class Facts : Prop extends Facts₀ where

variable [Facts]
-- ==== Proof.KernSetup.lean ====
/-
  The streaming kernel's launch, common part: the arrays as the region finds them (after the two reshapes of the
  biases), the argument arrays untouched by those reshapes, each window's block at a grid point, the body's four
  branch conditions decided over the 17 grid points (the first holds at points 0–15, the second at point 1, the third
  at points 2–16, the fourth at point 16), where the two result windows are idle, and the region invariant spelt as
  the two scratch buffers and the generator register.
-/
import proofs.«115268_g73873437491479_cont_9to1_m_435_22_alg».proof.Proof.Gen.KernelIdeal.Launch
import proofs.«115268_g73873437491479_cont_9to1_m_435_22_alg».proof.Proof.Gen.KernelIdeal.Skeleton
import proofs.«115268_g73873437491479_cont_9to1_m_435_22_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s buffers when the region is entered: after the two reshapes. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the two reshapes, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's branch conditions, decided over the grid -/

abbrev cond1 (i : grid0.Coords) : Prop := k0_cond1 i = 1#1
abbrev cond2 (i : grid0.Coords) : Prop := (Scalar.cmpi .ne (Scalar.extui (Scalar.cmpi .eq (BitVec.ofNat 32 (i 0).val) 1#32)) 0#32) = 1#1
abbrev cond3 (i : grid0.Coords) : Prop := (Scalar.cmpi .ne (Scalar.extui (Scalar.cmpi .sgt (BitVec.ofNat 32 (i 0).val) 1#32)) 0#32) = 1#1
abbrev cond4 (i : grid0.Coords) : Prop := k0_cond4 i = 1#1

theorem hcond1 : ∀ t : Fin cfg0.N, cond1 (grid0.coords t) ↔ t.val < 16 :=
  (by decide +kernel : ∀ t : Fin grid0.N, cond1 (grid0.coords t) ↔ t.val < 16)
theorem hcond2 : ∀ t : Fin cfg0.N, cond2 (grid0.coords t) ↔ t.val = 1 :=
  (by decide +kernel : ∀ t : Fin grid0.N, cond2 (grid0.coords t) ↔ t.val = 1)
theorem hcond3 : ∀ t : Fin cfg0.N, cond3 (grid0.coords t) ↔ 1 < t.val :=
  (by decide +kernel : ∀ t : Fin grid0.N, cond3 (grid0.coords t) ↔ 1 < t.val)
theorem hcond4 : ∀ t : Fin cfg0.N, cond4 (grid0.coords t) ↔ t.val = 16 :=
  (by decide +kernel : ∀ t : Fin grid0.N, cond4 (grid0.coords t) ↔ t.val = 16)

/-! ## Where the windows are idle -/

theorem liveIn : ∀ (w : Fin cfg0.W) (t : Fin cfg0.N), w.val < 8 → cfg0.idle w (grid0.coords t) = false := by decide +kernel
theorem idleOut8 : ∀ t : Fin cfg0.N, t.val ≠ 16 → cfg0.idle 8 (grid0.coords t) = true := by decide +kernel
theorem idleOut9 : ∀ t : Fin cfg0.N, t.val ≠ 16 → cfg0.idle 9 (grid0.coords t) = true := by decide +kernel
theorem liveOut8 : ∀ t : Fin cfg0.N, t.val = 16 → cfg0.idle 8 (grid0.coords t) = false := by decide +kernel
theorem liveOut9 : ∀ t : Fin cfg0.N, t.val = 16 → cfg0.idle 9 (grid0.coords t) = false := by decide +kernel
theorem noFlush8 : ∀ t : Fin cfg0.N, t.val ≠ 16 → (cfg0.win 8).flush t = false := by decide +kernel
theorem noFlush9 : ∀ t : Fin cfg0.N, t.val ≠ 16 → (cfg0.win 9).flush t = false := by decide +kernel

/-- The slot of the 512 × 8 scratch read at a point is the one written at the point before. -/
theorem off2_succ : ∀ t : Fin cfg0.N, t.val ≠ 0 → ∀ h : t.val - 1 < cfg0.N, k0_off2 (grid0.coords t) = k0_off1 (grid0.coords ⟨t.val - 1, h⟩) := by decide +kernel

/-- The slot of the 512 × 8 scratch written at point `t` starts at row 256 · (t mod 2), -/
theorem off1_eq : ∀ t : Fin cfg0.N, k0_off1 (grid0.coords t) = ![t.val % 2 * 256, 0] :=
  (by decide +kernel : ∀ t : Fin grid0.N, k0_off1 (grid0.coords t) = ![t.val % 2 * 256, 0])
/-- and the slot read there at row 256 · ((t + 1) mod 2): the other one. -/
theorem off2_eq : ∀ t : Fin cfg0.N, k0_off2 (grid0.coords t) = ![(t.val + 1) % 2 * 256, 0] :=
  (by decide +kernel : ∀ t : Fin grid0.N, k0_off2 (grid0.coords t) = ![(t.val + 1) % 2 * 256, 0])

instance closedOff_off1 (t : Fin cfg0.N) : ClosedOff (k0_off1 (grid0.coords t)) := ⟨![t.val % 2 * 256, 0], off1_eq t⟩
instance closedOff_off2 (t : Fin cfg0.N) : ClosedOff (k0_off2 (grid0.coords t)) := ⟨![(t.val + 1) % 2 * 256, 0], off2_eq t⟩

/-! ## The scratch operands and the invariant -/

abbrev scM0 : Memref sig .tc .vmem S4096x8 .f32 := Memref.whole cc0_scratch0
abbrev scM1 : Memref sig .tc .vmem S512x8 .bf16 := Memref.whole cc0_scratch1

/-- The class invariant: the two scratch buffers at some contents, the generator register at some state. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- Each window's current staging memref at point `t`, and its wholeness. -/
abbrev ms0 (t : Fin cfg0.N) : Memref sig .tc .vmem S256x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S4096x8 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x8 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x4096 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S4096x8 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x8 .f32 := win0_9.stage (cfg0.slots t 9)
abbrev hs9 (t : Fin cfg0.N) : (ms9 t).IsWhole := hstage0_9 ((cfg0.slots t 9).cast nbuf0_9)

end Cert.KernelIdeal.Run

end
-- ==== Proof.Spec.lean ====
/-
  What the streaming kernel computes, as ONE recursion over the body's named arithmetic.

  The grid has 17 points. At point k < 16 the body forms the k-th block of 256 rows of `x · W` (the two halves of the
  4096 feature columns multiplied separately and added) and keeps it in one of two slots; at point k ≥ 1 it multiplies
  the (k-1)-th block of 256 columns of `adj` (its upper and lower 2048 rows separately) by the block of `x · W` formed one point
  earlier, starting the accumulator at k = 1 and adding to it afterwards. After the last point the accumulator
  is `adj · (x · W)` summed block by block; the epilogue adds the bias, clamps at zero, and forms the row-wise
  log-softmax contracted with `W_lin`.

  Everything here is stated for any float instance `F`: the blocks are plain restrictions of the argument arrays, and
  the arithmetic is the body's own (`Gen.k0_pay1` … `Gen.k0_pay7`).
-/
import proofs.«115268_g73873437491479_cont_9to1_m_435_22_alg».proof.Proof.Gen.KernelIdeal.Skeleton
import Idealize.ShloMosaic.Lib.ValueIdx

noncomputable section

namespace Cert.KernelIdeal.Spec

open Idealize.ShloMosaic Idealize.ShloMosaic.ValueIdx Cert.KernelIdeal Cert.KernelIdeal.Gen

variable {F : FTy → Type} [FloatOps F]

/-- Rows `256 k … 256 k + 255` and columns `2048 h … 2048 h + 2047` of a 4096 × 4096 array. -/
def rowBlk (x : Vec F S4096x4096 .f32) (k : Fin 16) (h : Fin 2) : Vec F S256x2048 .f32 :=
  fun j => x (ix2 (⟨256 * k.val + (j 0).val, by have := idx2_lt0 j; omega⟩ : Fin 4096)
                  (⟨2048 * h.val + (j 1).val, by have := idx2_lt1 j; omega⟩ : Fin 4096))

/-- Rows `2048 h … 2048 h + 2047` and columns `256 k … 256 k + 255` of a 4096 × 4096 array. -/
def colBlk (a : Vec F S4096x4096 .f32) (h : Fin 2) (k : Fin 16) : Vec F S2048x256 .f32 :=
  fun j => a (ix2 (⟨2048 * h.val + (j 0).val, by have := idx2_lt0 j; omega⟩ : Fin 4096)
                  (⟨256 * k.val + (j 1).val, by have := idx2_lt1 j; omega⟩ : Fin 4096))

/-- The upper 2048 rows of a 4096 × 8 array. -/
def upper (a : Vec F S4096x8 .f32) : Vec F S2048x8 .f32 :=
  fun j => a (ix2 (⟨(j 0).val, by have := idx2_lt0 j; omega⟩ : Fin 4096) (j 1))

/-- The lower 2048 rows of a 4096 × 8 array. -/
def lower (a : Vec F S4096x8 .f32) : Vec F S2048x8 .f32 :=
  fun j => a (ix2 (⟨2048 + (j 0).val, by have := idx2_lt0 j; omega⟩ : Fin 4096) (j 1))

/-- Two 2048 × 8 arrays one above the other. -/
def stack (top bot : Vec F S2048x8 .f32) : Vec F S4096x8 .f32 :=
  fun i => if h : (i 0).val < 2048 then top (ix2 (⟨(i 0).val, h⟩ : Fin 2048) (i 1))
           else bot (ix2 (⟨(i 0).val - 2048, by have := idx2_lt0 i; omega⟩ : Fin 2048) (i 1))

/-- Block `k` of 256 rows of `x · W`, as the body forms it at point `k`. -/
def support (x : Vec F S4096x4096 .f32) (W : Vec F S4096x8 .f32) (k : Fin 16) : Vec F S256x8 .bf16 :=
  k0_pay1 W (rowBlk x k 0) (rowBlk x k 1)

/-- The accumulator after the first `n + 1` column blocks of `adj` have been multiplied in (after point `n + 1`);
    beyond the sixteenth block nothing more is added. -/
def acc (x adj : Vec F S4096x4096 .f32) (W : Vec F S4096x8 .f32) : Nat → Vec F S4096x8 .f32
  | 0 => stack (k0_pay2 (support x W 0) (colBlk adj 0 0)) (k0_pay3 (support x W 0) (colBlk adj 1 0))
  | n + 1 =>
    if h : n + 1 < 16 then
      stack (k0_pay4 (support x W ⟨n + 1, h⟩) (upper (acc x adj W n)) (colBlk adj 0 ⟨n + 1, h⟩))
            (k0_pay5 (support x W ⟨n + 1, h⟩) (lower (acc x adj W n)) (colBlk adj 1 ⟨n + 1, h⟩))
    else acc x adj W n

/-- The first result: the clamped, biased accumulator. -/
def embeddings (x adj : Vec F S4096x4096 .f32) (W : Vec F S4096x8 .f32) (b : Vec F S1x8 .f32) : Vec F S4096x8 .f32 :=
  k0_pay6 (acc x adj W 15) b

/-- The second result: the row-wise log-softmax of the first, contracted with `W_lin`, plus the bias. -/
def readout (x adj : Vec F S4096x4096 .f32) (W : Vec F S4096x8 .f32) (b : Vec F S1x8 .f32)
    (wlin : Vec F S1x4096 .f32) (blin : Vec F S1x1 .f32) : Vec F S1x8 .f32 :=
  k0_pay7 (acc x adj W 15) b wlin blin

end Cert.KernelIdeal.Spec

end
-- ==== Proof.KernData.lean ====
/-
  The proof data of the streaming kernel's pipeline.

  Between grid points the kernel keeps two things in scratch memory: the accumulator (4096 × 8) and the two slots of
  blocks of x · W (512 × 8). Before point t ≥ 2 the accumulator holds the sum of the first t - 1 column blocks of adj
  times the matching blocks of x · W; before point t with 1 ≤ t ≤ 16 the slot (t - 1) mod 2 holds block t - 1 of x · W.
  Both are stated through the one recursion of the specification. The inputs' staging buffers hold their blocks at
  every point; the two result windows are idle until the last point, where they receive the two results.
  The arrays x and adj are each read through two windows, so each is held at two half shares (the split is made at the launch).
-/
import proofs.«115268_g73873437491479_cont_9to1_m_435_22_alg».proof.Proof.KernSetup
import proofs.«115268_g73873437491479_cont_9to1_m_435_22_alg».proof.Proof.Spec

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-! ## The arrays as the region finds them, at their vector types -/

abbrev aX (c : Dev nD) : Vec F S4096x4096 .f32 := V m c main_arg0
abbrev aAdj (c : Dev nD) : Vec F S4096x4096 .f32 := V m c main_arg1
abbrev aW (c : Dev nD) : Vec F S4096x8 .f32 := V m c main_arg2
abbrev aB (c : Dev nD) : Vec F S1x8 .f32 := V m c main_call0_v0
abbrev aWl (c : Dev nD) : Vec F S1x4096 .f32 := V m c main_arg4
abbrev aBl (c : Dev nD) : Vec F S1x1 .f32 := V m c main_call0_v1

/-- Rows `256 p … 256 p + 255` of the 512 × 8 scratch: one of its two slots. -/
def slot (s : Vec F S512x8 .bf16) (p : Fin 2) : Vec F S256x8 .bf16 :=
  fun j => s (ix2 (⟨256 * p.val + (j 0).val, by have := idx2_lt0 j; omega⟩ : Fin 512) (j 1))

/-- What the two scratch buffers hold before point `t`. -/
def Inv (c : Dev nD) (t : ℕ) (a : Vec F S4096x8 .f32) (s : Vec F S512x8 .bf16) : Prop :=
  (2 ≤ t → a = Spec.acc (aX m c) (aAdj m c) (aW m c) (t - 2))
  ∧ (∀ h : 1 ≤ t ∧ t ≤ 16, slot s ⟨(t - 1) % 2, Nat.mod_lt _ (by decide)⟩ = Spec.support (aX m c) (aW m c) ⟨t - 1, by omega⟩)

/-- The region invariant before point `t`: the two scratch buffers at contents the invariant describes. -/
def PhiS (c : Dev nD) (t : ℕ) : sProp 𝕄 :=
  iprop(∃ a s, ⌜Inv m c t a s⌝ ∗ owns (c : Thread nD τ) scM0 fullShare a ∗ owns (c : Thread nD τ) scM1 fullShare s)

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => Spec.embeddings (aX m c) (aAdj m c) (aW m c) (aB m c)
    | ⟨9, _⟩ => Spec.readout (aX m c) (aAdj m c) (aW m c) (aB m c) (aWl m c) (aBl m c)
  Φ t := PhiS m c t.val
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
    | ⟨7, _⟩ => fullShare
    | ⟨8, _⟩ => fullShare
    | ⟨9, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = Spec.embeddings (aX m c) (aAdj m c) (aW m c) (aB m c) := by dsimp only [dats]
theorem after9 (c : Dev nD) (t : Fin cfg0.N) : (dats m 0 c).after 9 t = Spec.readout (aX m c) (aAdj m c) (aW m c) (aB m c) (aWl m c) (aBl m c) := by dsimp only [dats]

/-! ## Each input's staging buffer holds its block at every point, fetched there or not -/

theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d

end Cert.KernelIdeal.Run

end
-- ==== Proof.KernRead.lean ====
/-
  Reading a buffer back, index by index.

  A load through the whole rectangle reads the contents; a load of the upper or lower 2048 rows of a 4096 × 8 buffer
  reads that half; a load of one 256-row slot of a 512 × 8 buffer after a store into the OTHER slot reads the old
  contents there, and the stored slot reads back the stored block; two stores of 2048 rows each, one above the
  other, leave the two blocks stacked; one store through the whole rectangle leaves its block.
-/
import proofs.«115268_g73873437491479_cont_9to1_m_435_22_alg».proof.Proof.KernData
import Idealize.ShloMosaic.Lib.Pipeline.Value
import Idealize.ShloMosaic.Lib.WritesUnit

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

section Read

variable {e : EltTy}

/-- A load through the whole rectangle reads the contents. -/
theorem readAt_whole {S : Shape} (M : Memref sig .tc .vmem S e) (h : M.IsWhole) (x : S.Idx → Elt F e)
    {off : Fin S.rank → Nat} (hz : off = fun _ => 0) (inb : ∀ a, off a + S.size a ≤ S.size a) :
    View.readAt (Elt F) M.view (Rect.unit off S.size inb).toLoadRect (h.unread x) = x := by
  simp only [View.readAt_eq_ld, h.read_unread, View.ld_unit_zero hz]

/-- One store through the whole rectangle leaves its block, whatever was there. -/
theorem read_write_whole {S : Shape} (M : Memref sig .tc .vmem S e) (f : M.view.ty.Contents (Elt F))
    {off : Fin S.rank → Nat} (hz : off = fun _ => 0) (inb : ∀ a, off a + S.size a ≤ S.size a) (w : S.Idx → Elt F e) :
    M.view.read (Elt F) (M.view.writes (Elt F) f [(⟨Rect.unit off S.size inb, w⟩ : View.Piece (Elt F) S e)]) = w := by
  rw [View.read_writes_eq_canon M.view f _ (fun y => ⟨_, List.mem_singleton_self _, View.mem_set_unit_zero hz inb y⟩)]
  exact View.canon_unit_zero hz inb w

end Read

/-! ## The accumulator's halves -/

theorem readAt_upper (M : Memref sig .tc .vmem S4096x8 .f32) (h : M.IsWhole) (x : Vec F S4096x8 .f32)
    (inb : ∀ a, (![0, 0] : Fin 2 → ℕ) a + S2048x8.size a ≤ S4096x8.size a) :
    View.readAt (Elt F) M.view (Rect.unit (s := S4096x8) ![0, 0] S2048x8.size inb).toLoadRect (h.unread x) = Spec.upper x := by
  funext j
  rw [View.readAt_apply, h.read_unread]
  unfold Spec.upper
  refine congrArg x (funext fun a => Fin.ext ?_)
  match a with
  | ⟨0, _⟩ => simp [LoadRect.idx]
  | ⟨1, _⟩ => simp [LoadRect.idx]

theorem readAt_lower (M : Memref sig .tc .vmem S4096x8 .f32) (h : M.IsWhole) (x : Vec F S4096x8 .f32)
    (inb : ∀ a, (![2048, 0] : Fin 2 → ℕ) a + S2048x8.size a ≤ S4096x8.size a) :
    View.readAt (Elt F) M.view (Rect.unit (s := S4096x8) ![2048, 0] S2048x8.size inb).toLoadRect (h.unread x) = Spec.lower x := by
  funext j
  rw [View.readAt_apply, h.read_unread]
  unfold Spec.lower
  refine congrArg x (funext fun a => Fin.ext ?_)
  match a with
  | ⟨0, _⟩ => simp [LoadRect.idx]
  | ⟨1, _⟩ => simp [LoadRect.idx]

/-- Two stores of 2048 rows, the lower one last, leave the two blocks stacked. -/
theorem read_stack {κ : Kind} {sp : Space} (v : View sig κ sp S4096x8 .f32) (f : v.ty.Contents (Elt F))
    (inbU : ∀ a, (![0, 0] : Fin 2 → ℕ) a + S2048x8.size a ≤ S4096x8.size a)
    (inbL : ∀ a, (![2048, 0] : Fin 2 → ℕ) a + S2048x8.size a ≤ S4096x8.size a)
    (wU wL : Vec F S2048x8 .f32) :
    v.read (Elt F) (v.writes (Elt F) f
      [(⟨Rect.unit (s := S4096x8) ![2048, 0] S2048x8.size inbL, wL⟩ : View.Piece (Elt F) S4096x8 .f32),
       (⟨Rect.unit (s := S4096x8) ![0, 0] S2048x8.size inbU, wU⟩ : View.Piece (Elt F) S4096x8 .f32)]) = Spec.stack wU wL := by
  funext i
  unfold Spec.stack
  by_cases hi : (i 0).val < 2048
  · rw [dif_pos hi]
    rw [View.read_writes_cons_rows_of_not_mem v f inbL wL _ i rfl rfl (Or.inl hi)]
    exact View.read_writes_cons_rows_of_mem v f inbU wU [] i (ix2 (⟨(i 0).val, hi⟩ : Fin 2048) (i 1)) rfl (by simp) rfl
  · rw [dif_neg hi]
    exact View.read_writes_cons_rows_of_mem v f inbL wL _ i
      (ix2 (⟨(i 0).val - 2048, by have := idx2_lt0 i; omega⟩ : Fin 2048) (i 1)) rfl (by simp; omega) rfl

/-- The whole accumulator loaded after those two stores is the two blocks stacked. -/
theorem readCov_stack {κ : Kind} {sp : Space} (v : View sig κ sp S4096x8 .f32)
    (inbU : ∀ a, (![0, 0] : Fin 2 → ℕ) a + S2048x8.size a ≤ S4096x8.size a)
    (inbL : ∀ a, (![2048, 0] : Fin 2 → ℕ) a + S2048x8.size a ≤ S4096x8.size a)
    (inbW : ∀ a, (![0, 0] : Fin 2 → ℕ) a + S4096x8.size a ≤ S4096x8.size a)
    (wU wL : Vec F S2048x8 .f32) :
    v.readCov
      [(⟨Rect.unit (s := S4096x8) ![2048, 0] S2048x8.size inbL, wL⟩ : View.Piece (Elt F) S4096x8 .f32),
       (⟨Rect.unit (s := S4096x8) ![0, 0] S2048x8.size inbU, wU⟩ : View.Piece (Elt F) S4096x8 .f32)]
      (Rect.unit (s := S4096x8) ![0, 0] S4096x8.size inbW).toLoadRect = Spec.stack wU wL := by
  unfold View.readCov
  rw [View.readAt_eq_ld, read_stack]
  exact View.ld_unit_zero (by funext a; match a with | ⟨0, _⟩ => rfl | ⟨1, _⟩ => rfl) inbW _

/-! ## The two slots of the 512 × 8 scratch -/

/-- Rows `o … o + 255` of a 512 × 8 array. -/
def rowsAt (s : Vec F S512x8 .bf16) (o : ℕ) (ho : o + 256 ≤ 512) : Vec F S256x8 .bf16 :=
  fun j => s (ix2 (⟨o + (j 0).val, by have := idx2_lt0 j; omega⟩ : Fin 512) (j 1))

theorem rowsAt_eq_slot (s : Vec F S512x8 .bf16) (p : Fin 2) (o : ℕ) (ho : o + 256 ≤ 512) (hp : o = p.val * 256) :
    rowsAt s o ho = slot s p := by
  subst hp; funext j; unfold rowsAt slot
  refine congrArg s (funext fun a => Fin.ext ?_)
  match a with
  | ⟨0, _⟩ => show p.val * 256 + (j 0).val = 256 * p.val + (j 0).val; omega
  | ⟨1, _⟩ => rfl

/-- A load of rows `o₂ …` with nothing stored reads them. -/
theorem readAt_rows (M : Memref sig .tc .vmem S512x8 .bf16) (h : M.IsWhole) (s : Vec F S512x8 .bf16)
    {off2 : Fin 2 → ℕ} {o2 : ℕ} (h2 : off2 = ![o2, 0]) (ho2 : o2 + 256 ≤ 512)
    (inb2 : ∀ a, off2 a + S256x8.size a ≤ S512x8.size a) :
    View.readAt (Elt F) M.view (Rect.unit (s := S512x8) off2 S256x8.size inb2).toLoadRect (h.unread s) = rowsAt s o2 ho2 := by
  subst h2
  funext j
  rw [View.readAt_apply, h.read_unread]
  unfold rowsAt
  refine congrArg s (funext fun a => Fin.ext ?_)
  match a with
  | ⟨0, _⟩ => simp [LoadRect.idx]
  | ⟨1, _⟩ => simp [LoadRect.idx]

/-- A load of rows `o₂ …` after a store into the disjoint rows `o₁ …` reads the old contents. -/
theorem readAt_rows_writes (M : Memref sig .tc .vmem S512x8 .bf16) (h : M.IsWhole) (s : Vec F S512x8 .bf16)
    {off1 off2 : Fin 2 → ℕ} {o1 o2 : ℕ} (h1 : off1 = ![o1, 0]) (h2 : off2 = ![o2, 0]) (ho2 : o2 + 256 ≤ 512)
    (hdis : o2 + 256 ≤ o1 ∨ o1 + 256 ≤ o2)
    (inb1 : ∀ a, off1 a + S256x8.size a ≤ S512x8.size a) (inb2 : ∀ a, off2 a + S256x8.size a ≤ S512x8.size a)
    (w : (Rect.unit (s := S512x8) off1 S256x8.size inb1).shape.Idx → Elt F .bf16) :
    View.readAt (Elt F) M.view (Rect.unit (s := S512x8) off2 S256x8.size inb2).toLoadRect
      (M.view.writes (Elt F) (h.unread s) [(⟨Rect.unit (s := S512x8) off1 S256x8.size inb1, w⟩ : View.Piece (Elt F) S512x8 .bf16)])
      = rowsAt s o2 ho2 := by
  refine Eq.trans ?_ (readAt_rows M h s h2 ho2 inb2)
  subst h2
  funext j
  rw [View.readAt_apply, View.readAt_apply]
  refine (View.read_writes_cons_rows_of_not_mem M.view (h.unread s) inb1 w [] _ h1 rfl ?_)
  have hj := idx2_lt0 j
  simp [LoadRect.idx]
  omega

/-- The rows stored into read back the stored block. -/
theorem rows_read_writes {κ : Kind} {sp : Space} (v : View sig κ sp S512x8 .bf16) (f : v.ty.Contents (Elt F))
    {off1 : Fin 2 → ℕ} {o1 : ℕ} (h1 : off1 = ![o1, 0]) (ho1 : o1 + 256 ≤ 512)
    (inb1 : ∀ a, off1 a + S256x8.size a ≤ S512x8.size a)
    (w : Vec F S256x8 .bf16) :
    rowsAt (v.read (Elt F) (v.writes (Elt F) f [(⟨Rect.unit (s := S512x8) off1 S256x8.size inb1, w⟩ : View.Piece (Elt F) S512x8 .bf16)])) o1 ho1 = w := by
  funext j
  unfold rowsAt
  exact View.read_writes_cons_rows_of_mem v f inb1 w [] _ j h1 rfl rfl

end Cert.KernelIdeal.Run

end
-- ==== Proof.KernRunA.lean ====
/-
  The body at the first grid point: only the first branch is taken. It forms block 0 of x · W and stores it into slot 0 of the 512 × 8 scratch; nothing else is written.
-/
import proofs.«115268_g73873437491479_cont_9to1_m_435_22_alg».proof.Proof.KernSetup

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at grid point `t` on whole memrefs at given contents, in this case of its branches: it runs to the
    continuation with every buffer it only reads as it was and every buffer it stores into with its stores written,
    the stores being the witness the run finds. -/
noncomputable def kernelRunA (c : Dev nD) (t : Fin cfg0.N) (arg1 : Memref sig .tc .vmem S256x2048 .f32) (harg1 : arg1.IsWhole) (arg2 : Memref sig .tc .vmem S256x2048 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S4096x8 .f32) (harg5 : arg5.IsWhole) (arg6 : Memref sig .tc .vmem S1x8 .f32) (harg6 : arg6.IsWhole) (arg7 : Memref sig .tc .vmem S1x4096 .f32) (harg7 : arg7.IsWhole) (arg8 : Memref sig .tc .vmem S1x1 .f32) (harg8 : arg8.IsWhole) (arg9 : Memref sig .tc .vmem S4096x8 .f32) (harg9 : arg9.IsWhole) (arg10 : Memref sig .tc .vmem S1x8 .f32) (harg10 : arg10.IsWhole) (arg11 : Memref sig .tc .vmem S4096x8 .f32) (harg11 : arg11.IsWhole) (arg12 : Memref sig .tc .vmem S512x8 .bf16) (harg12 : arg12.IsWhole) (hc1 : cond1 (grid0.coords t)) (hc2 : ¬cond2 (grid0.coords t)) (hc3 : ¬cond3 (grid0.coords t)) (hc4 : ¬cond4 (grid0.coords t))
    (x1 : Vec F S256x2048 .f32) (x2 : Vec F S256x2048 .f32) (x3 : Vec F S2048x256 .f32) (x4 : Vec F S2048x256 .f32) (x5 : Vec F S4096x8 .f32) (x6 : Vec F S1x8 .f32) (x7 : Vec F S1x4096 .f32) (x8 : Vec F S1x1 .f32) (x9 : Vec F S4096x8 .f32) (x10 : Vec F S1x8 .f32) (x11 : Vec F S4096x8 .f32) (x12 : Vec F S512x8 .bf16) :
    { L12 : List (View.Piece (Elt F) S512x8 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (arg12.view.loc (c : Thread nD τ) ↦[arg12.view.set]{fullShare} arg12.view.writes (Elt F) (harg12.unread x12) L12)) -∗ K ⟨⟩))
          ⊢ wp frame (wpE (defs₀ (F := F)) Variants.none c none) E (cc0__stream_kernel (grid0.coords t) arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__stream_kernel_eq_skeleton]; unfold cc0__stream_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | exact hc1 | exact hc2 | exact hc3 | exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    · iexact H12

end Cert.KernelIdeal.Run

end
-- ==== Proof.KernRunB.lean ====
/-
  The body at grid point 1: the first and second branches are taken. It forms block 1 of x · W into slot 1 of the 512 × 8 scratch, and starts the accumulator: its upper and lower 2048 rows are the two halves of column block 0 of adj times block 0 of x · W.
-/
import proofs.«115268_g73873437491479_cont_9to1_m_435_22_alg».proof.Proof.KernSetup

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at grid point `t` on whole memrefs at given contents, in this case of its branches: it runs to the
    continuation with every buffer it only reads as it was and every buffer it stores into with its stores written,
    the stores being the witness the run finds. -/
noncomputable def kernelRunB (c : Dev nD) (t : Fin cfg0.N) (arg1 : Memref sig .tc .vmem S256x2048 .f32) (harg1 : arg1.IsWhole) (arg2 : Memref sig .tc .vmem S256x2048 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S4096x8 .f32) (harg5 : arg5.IsWhole) (arg6 : Memref sig .tc .vmem S1x8 .f32) (harg6 : arg6.IsWhole) (arg7 : Memref sig .tc .vmem S1x4096 .f32) (harg7 : arg7.IsWhole) (arg8 : Memref sig .tc .vmem S1x1 .f32) (harg8 : arg8.IsWhole) (arg9 : Memref sig .tc .vmem S4096x8 .f32) (harg9 : arg9.IsWhole) (arg10 : Memref sig .tc .vmem S1x8 .f32) (harg10 : arg10.IsWhole) (arg11 : Memref sig .tc .vmem S4096x8 .f32) (harg11 : arg11.IsWhole) (arg12 : Memref sig .tc .vmem S512x8 .bf16) (harg12 : arg12.IsWhole) (hc1 : cond1 (grid0.coords t)) (hc2 : cond2 (grid0.coords t)) (hc3 : ¬cond3 (grid0.coords t)) (hc4 : ¬cond4 (grid0.coords t))
    (x1 : Vec F S256x2048 .f32) (x2 : Vec F S256x2048 .f32) (x3 : Vec F S2048x256 .f32) (x4 : Vec F S2048x256 .f32) (x5 : Vec F S4096x8 .f32) (x6 : Vec F S1x8 .f32) (x7 : Vec F S1x4096 .f32) (x8 : Vec F S1x1 .f32) (x9 : Vec F S4096x8 .f32) (x10 : Vec F S1x8 .f32) (x11 : Vec F S4096x8 .f32) (x12 : Vec F S512x8 .bf16) :
    Σ' (L11 : List (View.Piece (Elt F) S4096x8 .f32)), { L12 : List (View.Piece (Elt F) S512x8 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (arg11.view.loc (c : Thread nD τ) ↦[arg11.view.set]{fullShare} arg11.view.writes (Elt F) (harg11.unread x11) L11) ∗ (arg12.view.loc (c : Thread nD τ) ↦[arg12.view.set]{fullShare} arg12.view.writes (Elt F) (harg12.unread x12) L12)) -∗ K ⟨⟩))
          ⊢ wp frame (wpE (defs₀ (F := F)) Variants.none c none) E (cc0__stream_kernel (grid0.coords t) arg1 harg1 arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__stream_kernel_eq_skeleton]; unfold cc0__stream_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | exact hc1 | exact hc2 | exact hc3 | exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexact H11
    · iexact H12

end Cert.KernelIdeal.Run

end
-- ==== Proof.KernRunC.lean ====
/-
  The body at grid points 2 to 15: the first and third branches are taken. It forms the next block of x · W into the free slot of the 512 × 8 scratch, and adds to each half of the accumulator the matching half of a column block of adj times the block of x · W formed one point earlier.
-/
import proofs.«115268_g73873437491479_cont_9to1_m_435_22_alg».proof.Proof.KernSetup

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at grid point `t` on whole memrefs at given contents, in this case of its branches: it runs to the
    continuation with every buffer it only reads as it was and every buffer it stores into with its stores written,
    the stores being the witness the run finds. -/
noncomputable def kernelRunC (c : Dev nD) (t : Fin cfg0.N) (arg1 : Memref sig .tc .vmem S256x2048 .f32) (harg1 : arg1.IsWhole) (arg2 : Memref sig .tc .vmem S256x2048 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S4096x8 .f32) (harg5 : arg5.IsWhole) (arg6 : Memref sig .tc .vmem S1x8 .f32) (harg6 : arg6.IsWhole) (arg7 : Memref sig .tc .vmem S1x4096 .f32) (harg7 : arg7.IsWhole) (arg8 : Memref sig .tc .vmem S1x1 .f32) (harg8 : arg8.IsWhole) (arg9 : Memref sig .tc .vmem S4096x8 .f32) (harg9 : arg9.IsWhole) (arg10 : Memref sig .tc .vmem S1x8 .f32) (harg10 : arg10.IsWhole) (arg11 : Memref sig .tc .vmem S4096x8 .f32) (harg11 : arg11.IsWhole) (arg12 : Memref sig .tc .vmem S512x8 .bf16) (harg12 : arg12.IsWhole) (hc1 : cond1 (grid0.coords t)) (hc2 : ¬cond2 (grid0.coords t)) (hc3 : cond3 (grid0.coords t)) (hc4 : ¬cond4 (grid0.coords t))
    (x1 : Vec F S256x2048 .f32) (x2 : Vec F S256x2048 .f32) (x3 : Vec F S2048x256 .f32) (x4 : Vec F S2048x256 .f32) (x5 : Vec F S4096x8 .f32) (x6 : Vec F S1x8 .f32) (x7 : Vec F S1x4096 .f32) (x8 : Vec F S1x1 .f32) (x9 : Vec F S4096x8 .f32) (x10 : Vec F S1x8 .f32) (x11 : Vec F S4096x8 .f32) (x12 : Vec F S512x8 .bf16) :
    Σ' (L11 : List (View.Piece (Elt F) S4096x8 .f32)), { L12 : List (View.Piece (Elt F) S512x8 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (arg11.view.loc (c : Thread nD τ) ↦[arg11.view.set]{fullShare} arg11.view.writes (Elt F) (harg11.unread x11) L11) ∗ (arg12.view.loc (c : Thread nD τ) ↦[arg12.view.set]{fullShare} arg12.view.writes (Elt F) (harg12.unread x12) L12)) -∗ K ⟨⟩))
          ⊢ wp frame (wpE (defs₀ (F := F)) Variants.none c none) E (cc0__stream_kernel (grid0.coords t) arg1 harg1 arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__stream_kernel_eq_skeleton]; unfold cc0__stream_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | exact hc1 | exact hc2 | exact hc3 | exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexact H11
    · iexact H12

end Cert.KernelIdeal.Run

end
-- ==== Proof.KernRunD.lean ====
/-
  The body at the last grid point: the third and fourth branches are taken. It adds the last column block's product to the accumulator, then writes the two results: the biased accumulator clamped at zero, and its row-wise log-softmax contracted with W_lin plus the bias.
-/
import proofs.«115268_g73873437491479_cont_9to1_m_435_22_alg».proof.Proof.KernSetup

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at grid point `t` on whole memrefs at given contents, in this case of its branches: it runs to the
    continuation with every buffer it only reads as it was and every buffer it stores into with its stores written,
    the stores being the witness the run finds. -/
noncomputable def kernelRunD (c : Dev nD) (t : Fin cfg0.N) (arg1 : Memref sig .tc .vmem S256x2048 .f32) (harg1 : arg1.IsWhole) (arg2 : Memref sig .tc .vmem S256x2048 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S4096x8 .f32) (harg5 : arg5.IsWhole) (arg6 : Memref sig .tc .vmem S1x8 .f32) (harg6 : arg6.IsWhole) (arg7 : Memref sig .tc .vmem S1x4096 .f32) (harg7 : arg7.IsWhole) (arg8 : Memref sig .tc .vmem S1x1 .f32) (harg8 : arg8.IsWhole) (arg9 : Memref sig .tc .vmem S4096x8 .f32) (harg9 : arg9.IsWhole) (arg10 : Memref sig .tc .vmem S1x8 .f32) (harg10 : arg10.IsWhole) (arg11 : Memref sig .tc .vmem S4096x8 .f32) (harg11 : arg11.IsWhole) (arg12 : Memref sig .tc .vmem S512x8 .bf16) (harg12 : arg12.IsWhole) (hc1 : ¬cond1 (grid0.coords t)) (hc2 : ¬cond2 (grid0.coords t)) (hc3 : cond3 (grid0.coords t)) (hc4 : cond4 (grid0.coords t))
    (x1 : Vec F S256x2048 .f32) (x2 : Vec F S256x2048 .f32) (x3 : Vec F S2048x256 .f32) (x4 : Vec F S2048x256 .f32) (x5 : Vec F S4096x8 .f32) (x6 : Vec F S1x8 .f32) (x7 : Vec F S1x4096 .f32) (x8 : Vec F S1x1 .f32) (x9 : Vec F S4096x8 .f32) (x10 : Vec F S1x8 .f32) (x11 : Vec F S4096x8 .f32) (x12 : Vec F S512x8 .bf16) :
    Σ' (L9 : List (View.Piece (Elt F) S4096x8 .f32)), Σ' (L10 : List (View.Piece (Elt F) S1x8 .f32)), { L11 : List (View.Piece (Elt F) S4096x8 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (arg9.view.loc (c : Thread nD τ) ↦[arg9.view.set]{fullShare} arg9.view.writes (Elt F) (harg9.unread x9) L9) ∗ (arg10.view.loc (c : Thread nD τ) ↦[arg10.view.set]{fullShare} arg10.view.writes (Elt F) (harg10.unread x10) L10) ∗ (arg11.view.loc (c : Thread nD τ) ↦[arg11.view.set]{fullShare} arg11.view.writes (Elt F) (harg11.unread x11) L11) ∗ owns (c : Thread nD τ) arg12 fullShare x12) -∗ K ⟨⟩))
          ⊢ wp frame (wpE (defs₀ (F := F)) Variants.none c none) E (cc0__stream_kernel (grid0.coords t) arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0__stream_kernel_eq_skeleton]; unfold cc0__stream_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | exact hc1 | exact hc2 | exact hc3 | exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexact H9
    isplitl [H10]
    · iexact H10
    isplitl [H11]
    · iexact H11
    · iexists _; isplitr; · ipureintro; exact harg12.read_unread _
      iexact H12

end Cert.KernelIdeal.Run

end
-- ==== Proof.KernStep.lean ====
/-
  What each case of the body leaves, read back through the body's own arithmetic.

  The block of x · W formed at a point lands in rows 256 · (t mod 2) … of the 512 × 8 scratch; the block used at the point is
  the one in the other slot. At point 1 the accumulator becomes the two halves' products stacked; at later points
  each half has its product added; at the last point the two results are formed from the final accumulator.
-/
import proofs.«115268_g73873437491479_cont_9to1_m_435_22_alg».proof.Proof.KernRead
import proofs.«115268_g73873437491479_cont_9to1_m_435_22_alg».proof.Proof.KernRunA
import proofs.«115268_g73873437491479_cont_9to1_m_435_22_alg».proof.Proof.KernRunB
import proofs.«115268_g73873437491479_cont_9to1_m_435_22_alg».proof.Proof.KernRunC
import proofs.«115268_g73873437491479_cont_9to1_m_435_22_alg».proof.Proof.KernRunD

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

theorem off_disj (t : Fin cfg0.N) : ((t.val + 1) % 2 * 256) + 256 ≤ (t.val % 2 * 256) ∨ (t.val % 2 * 256) + 256 ≤ ((t.val + 1) % 2 * 256) := by omega

theorem zz : (![0, 0] : Fin 2 → ℕ) = fun _ => 0 := by
  funext a; match a with | ⟨0, _⟩ => rfl | ⟨1, _⟩ => rfl

/-- A load through the whole rectangle of a rank-two buffer reads the contents. -/
theorem readAt_whole2 {e : EltTy} {d : Fin 2 → ℕ} (M : Memref sig .tc .vmem (⟨2, d⟩ : Shape) e) (h : M.IsWhole)
    (x : (⟨2, d⟩ : Shape).Idx → Elt F e) (inb : ∀ a, (![0, 0] : Fin 2 → ℕ) a + d a ≤ d a) :
    View.readAt (Elt F) M.view (Rect.unit (s := (⟨2, d⟩ : Shape)) ![0, 0] d inb).toLoadRect (h.unread x) = x :=
  readAt_whole M h x zz inb

/-- One store through the whole rectangle of a rank-two buffer leaves its block. -/
theorem read_write_whole2 {e : EltTy} {d : Fin 2 → ℕ} (M : Memref sig .tc .vmem (⟨2, d⟩ : Shape) e) (f : M.view.ty.Contents (Elt F))
    (inb : ∀ a, (![0, 0] : Fin 2 → ℕ) a + d a ≤ d a) (w : (⟨2, d⟩ : Shape).Idx → Elt F e) :
    M.view.read (Elt F) (M.view.writes (Elt F) f [(⟨Rect.unit (s := (⟨2, d⟩ : Shape)) ![0, 0] d inb, w⟩ : View.Piece (Elt F) (⟨2, d⟩ : Shape) e)]) = w :=
  read_write_whole M f zz inb w

/-- The two halves' updates, with the halves of the accumulator read as such. -/
theorem stack_congr (M : Memref sig .tc .vmem S4096x8 .f32) (h : M.IsWhole) (x11 : Vec F S4096x8 .f32)
    (v16 : Vec F S256x8 .bf16) (x3 x4 : Vec F S2048x256 .f32)
    (inbU : ∀ a, (![0, 0] : Fin 2 → ℕ) a + S2048x8.size a ≤ S4096x8.size a)
    (inbL : ∀ a, (![2048, 0] : Fin 2 → ℕ) a + S2048x8.size a ≤ S4096x8.size a) :
    Spec.stack
        (k0_pay4 v16 (View.readAt (Elt F) M.view (Rect.unit (s := S4096x8) ![0, 0] S2048x8.size inbU).toLoadRect (h.unread x11)) x3)
        (k0_pay5 v16 (View.readAt (Elt F) M.view (Rect.unit (s := S4096x8) ![2048, 0] S2048x8.size inbL).toLoadRect (h.unread x11)) x4)
      = Spec.stack (k0_pay4 v16 (Spec.upper x11) x3) (k0_pay5 v16 (Spec.lower x11) x4) := by
  rw [readAt_upper, readAt_lower]

theorem supA (c : Dev nD) (t : Fin cfg0.N) (arg1 : Memref sig .tc .vmem S256x2048 .f32) (harg1 : arg1.IsWhole) (arg2 : Memref sig .tc .vmem S256x2048 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S4096x8 .f32) (harg5 : arg5.IsWhole) (arg6 : Memref sig .tc .vmem S1x8 .f32) (harg6 : arg6.IsWhole) (arg7 : Memref sig .tc .vmem S1x4096 .f32) (harg7 : arg7.IsWhole) (arg8 : Memref sig .tc .vmem S1x1 .f32) (harg8 : arg8.IsWhole) (arg9 : Memref sig .tc .vmem S4096x8 .f32) (harg9 : arg9.IsWhole) (arg10 : Memref sig .tc .vmem S1x8 .f32) (harg10 : arg10.IsWhole) (arg11 : Memref sig .tc .vmem S4096x8 .f32) (harg11 : arg11.IsWhole) (arg12 : Memref sig .tc .vmem S512x8 .bf16) (harg12 : arg12.IsWhole) (hc1 : cond1 (grid0.coords t)) (hc2 : ¬cond2 (grid0.coords t)) (hc3 : ¬cond3 (grid0.coords t)) (hc4 : ¬cond4 (grid0.coords t)) (x1 : Vec F S256x2048 .f32) (x2 : Vec F S256x2048 .f32) (x3 : Vec F S2048x256 .f32) (x4 : Vec F S2048x256 .f32) (x5 : Vec F S4096x8 .f32) (x6 : Vec F S1x8 .f32) (x7 : Vec F S1x4096 .f32) (x8 : Vec F S1x1 .f32) (x9 : Vec F S4096x8 .f32) (x10 : Vec F S1x8 .f32) (x11 : Vec F S4096x8 .f32) (x12 : Vec F S512x8 .bf16) :
    rowsAt (arg12.view.read (Elt F) (arg12.view.writes (Elt F) (harg12.unread x12) (kernelRunA c t arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5 x6 x7 x8 x9 x10 x11 x12).1)) (t.val % 2 * 256) (by omega)
      = k0_pay1 x5 x1 x2 := by
  unfold kernelRunA; dsimp only; sl_unfold_run_names
  simp only [readAt_whole2, readAt_upper, readAt_lower, readAt_rows_writes _ _ _ (off1_eq t) (off2_eq t) (by omega) (off_disj t), readAt_rows _ _ _ (off2_eq t) (by omega)]
  exact rows_read_writes (F := F) arg12.view _ (off1_eq t) _ _ _

theorem supB (c : Dev nD) (t : Fin cfg0.N) (arg1 : Memref sig .tc .vmem S256x2048 .f32) (harg1 : arg1.IsWhole) (arg2 : Memref sig .tc .vmem S256x2048 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S4096x8 .f32) (harg5 : arg5.IsWhole) (arg6 : Memref sig .tc .vmem S1x8 .f32) (harg6 : arg6.IsWhole) (arg7 : Memref sig .tc .vmem S1x4096 .f32) (harg7 : arg7.IsWhole) (arg8 : Memref sig .tc .vmem S1x1 .f32) (harg8 : arg8.IsWhole) (arg9 : Memref sig .tc .vmem S4096x8 .f32) (harg9 : arg9.IsWhole) (arg10 : Memref sig .tc .vmem S1x8 .f32) (harg10 : arg10.IsWhole) (arg11 : Memref sig .tc .vmem S4096x8 .f32) (harg11 : arg11.IsWhole) (arg12 : Memref sig .tc .vmem S512x8 .bf16) (harg12 : arg12.IsWhole) (hc1 : cond1 (grid0.coords t)) (hc2 : cond2 (grid0.coords t)) (hc3 : ¬cond3 (grid0.coords t)) (hc4 : ¬cond4 (grid0.coords t)) (x1 : Vec F S256x2048 .f32) (x2 : Vec F S256x2048 .f32) (x3 : Vec F S2048x256 .f32) (x4 : Vec F S2048x256 .f32) (x5 : Vec F S4096x8 .f32) (x6 : Vec F S1x8 .f32) (x7 : Vec F S1x4096 .f32) (x8 : Vec F S1x1 .f32) (x9 : Vec F S4096x8 .f32) (x10 : Vec F S1x8 .f32) (x11 : Vec F S4096x8 .f32) (x12 : Vec F S512x8 .bf16) :
    rowsAt (arg12.view.read (Elt F) (arg12.view.writes (Elt F) (harg12.unread x12) (kernelRunB c t arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5 x6 x7 x8 x9 x10 x11 x12).2.1)) (t.val % 2 * 256) (by omega)
      = k0_pay1 x5 x1 x2 := by
  unfold kernelRunB; dsimp only; sl_unfold_run_names
  simp only [readAt_whole2, readAt_upper, readAt_lower, readAt_rows_writes _ _ _ (off1_eq t) (off2_eq t) (by omega) (off_disj t), readAt_rows _ _ _ (off2_eq t) (by omega)]
  exact rows_read_writes (F := F) arg12.view _ (off1_eq t) _ _ _

theorem supC (c : Dev nD) (t : Fin cfg0.N) (arg1 : Memref sig .tc .vmem S256x2048 .f32) (harg1 : arg1.IsWhole) (arg2 : Memref sig .tc .vmem S256x2048 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S4096x8 .f32) (harg5 : arg5.IsWhole) (arg6 : Memref sig .tc .vmem S1x8 .f32) (harg6 : arg6.IsWhole) (arg7 : Memref sig .tc .vmem S1x4096 .f32) (harg7 : arg7.IsWhole) (arg8 : Memref sig .tc .vmem S1x1 .f32) (harg8 : arg8.IsWhole) (arg9 : Memref sig .tc .vmem S4096x8 .f32) (harg9 : arg9.IsWhole) (arg10 : Memref sig .tc .vmem S1x8 .f32) (harg10 : arg10.IsWhole) (arg11 : Memref sig .tc .vmem S4096x8 .f32) (harg11 : arg11.IsWhole) (arg12 : Memref sig .tc .vmem S512x8 .bf16) (harg12 : arg12.IsWhole) (hc1 : cond1 (grid0.coords t)) (hc2 : ¬cond2 (grid0.coords t)) (hc3 : cond3 (grid0.coords t)) (hc4 : ¬cond4 (grid0.coords t)) (x1 : Vec F S256x2048 .f32) (x2 : Vec F S256x2048 .f32) (x3 : Vec F S2048x256 .f32) (x4 : Vec F S2048x256 .f32) (x5 : Vec F S4096x8 .f32) (x6 : Vec F S1x8 .f32) (x7 : Vec F S1x4096 .f32) (x8 : Vec F S1x1 .f32) (x9 : Vec F S4096x8 .f32) (x10 : Vec F S1x8 .f32) (x11 : Vec F S4096x8 .f32) (x12 : Vec F S512x8 .bf16) :
    rowsAt (arg12.view.read (Elt F) (arg12.view.writes (Elt F) (harg12.unread x12) (kernelRunC c t arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5 x6 x7 x8 x9 x10 x11 x12).2.1)) (t.val % 2 * 256) (by omega)
      = k0_pay1 x5 x1 x2 := by
  unfold kernelRunC; dsimp only; sl_unfold_run_names
  simp only [readAt_whole2, readAt_upper, readAt_lower, readAt_rows_writes _ _ _ (off1_eq t) (off2_eq t) (by omega) (off_disj t), readAt_rows _ _ _ (off2_eq t) (by omega)]
  exact rows_read_writes (F := F) arg12.view _ (off1_eq t) _ _ _

theorem accB (c : Dev nD) (t : Fin cfg0.N) (arg1 : Memref sig .tc .vmem S256x2048 .f32) (harg1 : arg1.IsWhole) (arg2 : Memref sig .tc .vmem S256x2048 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S4096x8 .f32) (harg5 : arg5.IsWhole) (arg6 : Memref sig .tc .vmem S1x8 .f32) (harg6 : arg6.IsWhole) (arg7 : Memref sig .tc .vmem S1x4096 .f32) (harg7 : arg7.IsWhole) (arg8 : Memref sig .tc .vmem S1x1 .f32) (harg8 : arg8.IsWhole) (arg9 : Memref sig .tc .vmem S4096x8 .f32) (harg9 : arg9.IsWhole) (arg10 : Memref sig .tc .vmem S1x8 .f32) (harg10 : arg10.IsWhole) (arg11 : Memref sig .tc .vmem S4096x8 .f32) (harg11 : arg11.IsWhole) (arg12 : Memref sig .tc .vmem S512x8 .bf16) (harg12 : arg12.IsWhole) (hc1 : cond1 (grid0.coords t)) (hc2 : cond2 (grid0.coords t)) (hc3 : ¬cond3 (grid0.coords t)) (hc4 : ¬cond4 (grid0.coords t)) (x1 : Vec F S256x2048 .f32) (x2 : Vec F S256x2048 .f32) (x3 : Vec F S2048x256 .f32) (x4 : Vec F S2048x256 .f32) (x5 : Vec F S4096x8 .f32) (x6 : Vec F S1x8 .f32) (x7 : Vec F S1x4096 .f32) (x8 : Vec F S1x1 .f32) (x9 : Vec F S4096x8 .f32) (x10 : Vec F S1x8 .f32) (x11 : Vec F S4096x8 .f32) (x12 : Vec F S512x8 .bf16) :
    arg11.view.read (Elt F) (arg11.view.writes (Elt F) (harg11.unread x11) (kernelRunB c t arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5 x6 x7 x8 x9 x10 x11 x12).1)
      = Spec.stack (k0_pay2 (rowsAt x12 ((t.val + 1) % 2 * 256) (by omega)) x3) (k0_pay3 (rowsAt x12 ((t.val + 1) % 2 * 256) (by omega)) x4) := by
  unfold kernelRunB; dsimp only; sl_unfold_run_names
  simp only [readAt_whole2, readAt_upper, readAt_lower, readAt_rows_writes _ _ _ (off1_eq t) (off2_eq t) (by omega) (off_disj t), readAt_rows _ _ _ (off2_eq t) (by omega)]
  exact read_stack (F := F) arg11.view _ _ _ _ _

theorem accC (c : Dev nD) (t : Fin cfg0.N) (arg1 : Memref sig .tc .vmem S256x2048 .f32) (harg1 : arg1.IsWhole) (arg2 : Memref sig .tc .vmem S256x2048 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S4096x8 .f32) (harg5 : arg5.IsWhole) (arg6 : Memref sig .tc .vmem S1x8 .f32) (harg6 : arg6.IsWhole) (arg7 : Memref sig .tc .vmem S1x4096 .f32) (harg7 : arg7.IsWhole) (arg8 : Memref sig .tc .vmem S1x1 .f32) (harg8 : arg8.IsWhole) (arg9 : Memref sig .tc .vmem S4096x8 .f32) (harg9 : arg9.IsWhole) (arg10 : Memref sig .tc .vmem S1x8 .f32) (harg10 : arg10.IsWhole) (arg11 : Memref sig .tc .vmem S4096x8 .f32) (harg11 : arg11.IsWhole) (arg12 : Memref sig .tc .vmem S512x8 .bf16) (harg12 : arg12.IsWhole) (hc1 : cond1 (grid0.coords t)) (hc2 : ¬cond2 (grid0.coords t)) (hc3 : cond3 (grid0.coords t)) (hc4 : ¬cond4 (grid0.coords t)) (x1 : Vec F S256x2048 .f32) (x2 : Vec F S256x2048 .f32) (x3 : Vec F S2048x256 .f32) (x4 : Vec F S2048x256 .f32) (x5 : Vec F S4096x8 .f32) (x6 : Vec F S1x8 .f32) (x7 : Vec F S1x4096 .f32) (x8 : Vec F S1x1 .f32) (x9 : Vec F S4096x8 .f32) (x10 : Vec F S1x8 .f32) (x11 : Vec F S4096x8 .f32) (x12 : Vec F S512x8 .bf16) :
    arg11.view.read (Elt F) (arg11.view.writes (Elt F) (harg11.unread x11) (kernelRunC c t arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5 x6 x7 x8 x9 x10 x11 x12).1)
      = Spec.stack (k0_pay4 (rowsAt x12 ((t.val + 1) % 2 * 256) (by omega)) (Spec.upper x11) x3) (k0_pay5 (rowsAt x12 ((t.val + 1) % 2 * 256) (by omega)) (Spec.lower x11) x4) := by
  unfold kernelRunC; dsimp only; sl_unfold_run_names
  simp only [readAt_whole2, readAt_upper, readAt_lower, readAt_rows_writes _ _ _ (off1_eq t) (off2_eq t) (by omega) (off_disj t), readAt_rows _ _ _ (off2_eq t) (by omega)]
  exact (read_stack (F := F) arg11.view _ _ _ _ _).trans (stack_congr arg11 harg11 x11 _ x3 x4 _ _)

theorem accD (c : Dev nD) (t : Fin cfg0.N) (arg1 : Memref sig .tc .vmem S256x2048 .f32) (harg1 : arg1.IsWhole) (arg2 : Memref sig .tc .vmem S256x2048 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S4096x8 .f32) (harg5 : arg5.IsWhole) (arg6 : Memref sig .tc .vmem S1x8 .f32) (harg6 : arg6.IsWhole) (arg7 : Memref sig .tc .vmem S1x4096 .f32) (harg7 : arg7.IsWhole) (arg8 : Memref sig .tc .vmem S1x1 .f32) (harg8 : arg8.IsWhole) (arg9 : Memref sig .tc .vmem S4096x8 .f32) (harg9 : arg9.IsWhole) (arg10 : Memref sig .tc .vmem S1x8 .f32) (harg10 : arg10.IsWhole) (arg11 : Memref sig .tc .vmem S4096x8 .f32) (harg11 : arg11.IsWhole) (arg12 : Memref sig .tc .vmem S512x8 .bf16) (harg12 : arg12.IsWhole) (hc1 : ¬cond1 (grid0.coords t)) (hc2 : ¬cond2 (grid0.coords t)) (hc3 : cond3 (grid0.coords t)) (hc4 : cond4 (grid0.coords t)) (x1 : Vec F S256x2048 .f32) (x2 : Vec F S256x2048 .f32) (x3 : Vec F S2048x256 .f32) (x4 : Vec F S2048x256 .f32) (x5 : Vec F S4096x8 .f32) (x6 : Vec F S1x8 .f32) (x7 : Vec F S1x4096 .f32) (x8 : Vec F S1x1 .f32) (x9 : Vec F S4096x8 .f32) (x10 : Vec F S1x8 .f32) (x11 : Vec F S4096x8 .f32) (x12 : Vec F S512x8 .bf16) :
    arg11.view.read (Elt F) (arg11.view.writes (Elt F) (harg11.unread x11) (kernelRunD c t arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5 x6 x7 x8 x9 x10 x11 x12).2.2.1)
      = Spec.stack (k0_pay4 (rowsAt x12 ((t.val + 1) % 2 * 256) (by omega)) (Spec.upper x11) x3) (k0_pay5 (rowsAt x12 ((t.val + 1) % 2 * 256) (by omega)) (Spec.lower x11) x4) := by
  unfold kernelRunD; dsimp only; sl_unfold_run_names
  simp only [readAt_whole2, readAt_upper, readAt_lower, readAt_rows_writes _ _ _ (off1_eq t) (off2_eq t) (by omega) (off_disj t), readAt_rows _ _ _ (off2_eq t) (by omega)]
  exact (read_stack (F := F) arg11.view _ _ _ _ _).trans (stack_congr arg11 harg11 x11 _ x3 x4 _ _)

theorem out8D (c : Dev nD) (t : Fin cfg0.N) (arg1 : Memref sig .tc .vmem S256x2048 .f32) (harg1 : arg1.IsWhole) (arg2 : Memref sig .tc .vmem S256x2048 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S4096x8 .f32) (harg5 : arg5.IsWhole) (arg6 : Memref sig .tc .vmem S1x8 .f32) (harg6 : arg6.IsWhole) (arg7 : Memref sig .tc .vmem S1x4096 .f32) (harg7 : arg7.IsWhole) (arg8 : Memref sig .tc .vmem S1x1 .f32) (harg8 : arg8.IsWhole) (arg9 : Memref sig .tc .vmem S4096x8 .f32) (harg9 : arg9.IsWhole) (arg10 : Memref sig .tc .vmem S1x8 .f32) (harg10 : arg10.IsWhole) (arg11 : Memref sig .tc .vmem S4096x8 .f32) (harg11 : arg11.IsWhole) (arg12 : Memref sig .tc .vmem S512x8 .bf16) (harg12 : arg12.IsWhole) (hc1 : ¬cond1 (grid0.coords t)) (hc2 : ¬cond2 (grid0.coords t)) (hc3 : cond3 (grid0.coords t)) (hc4 : cond4 (grid0.coords t)) (x1 : Vec F S256x2048 .f32) (x2 : Vec F S256x2048 .f32) (x3 : Vec F S2048x256 .f32) (x4 : Vec F S2048x256 .f32) (x5 : Vec F S4096x8 .f32) (x6 : Vec F S1x8 .f32) (x7 : Vec F S1x4096 .f32) (x8 : Vec F S1x1 .f32) (x9 : Vec F S4096x8 .f32) (x10 : Vec F S1x8 .f32) (x11 : Vec F S4096x8 .f32) (x12 : Vec F S512x8 .bf16) :
    arg9.view.read (Elt F) (arg9.view.writes (Elt F) (harg9.unread x9) (kernelRunD c t arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5 x6 x7 x8 x9 x10 x11 x12).1)
      = k0_pay6 (Spec.stack (k0_pay4 (rowsAt x12 ((t.val + 1) % 2 * 256) (by omega)) (Spec.upper x11) x3) (k0_pay5 (rowsAt x12 ((t.val + 1) % 2 * 256) (by omega)) (Spec.lower x11) x4)) x6 := by
  unfold kernelRunD; dsimp only; sl_unfold_run_names
  simp only [readAt_whole2, readAt_upper, readAt_lower, readAt_rows_writes _ _ _ (off1_eq t) (off2_eq t) (by omega) (off_disj t), readAt_rows _ _ _ (off2_eq t) (by omega)]
  refine (read_write_whole2 (F := F) arg9 _ _ _).trans ?_
  refine congrArg (fun z => k0_pay6 z x6) ?_
  exact (readCov_stack (F := F) arg11.view _ _ _ _ _).trans (stack_congr arg11 harg11 x11 _ x3 x4 _ _)

theorem out9D (c : Dev nD) (t : Fin cfg0.N) (arg1 : Memref sig .tc .vmem S256x2048 .f32) (harg1 : arg1.IsWhole) (arg2 : Memref sig .tc .vmem S256x2048 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S4096x8 .f32) (harg5 : arg5.IsWhole) (arg6 : Memref sig .tc .vmem S1x8 .f32) (harg6 : arg6.IsWhole) (arg7 : Memref sig .tc .vmem S1x4096 .f32) (harg7 : arg7.IsWhole) (arg8 : Memref sig .tc .vmem S1x1 .f32) (harg8 : arg8.IsWhole) (arg9 : Memref sig .tc .vmem S4096x8 .f32) (harg9 : arg9.IsWhole) (arg10 : Memref sig .tc .vmem S1x8 .f32) (harg10 : arg10.IsWhole) (arg11 : Memref sig .tc .vmem S4096x8 .f32) (harg11 : arg11.IsWhole) (arg12 : Memref sig .tc .vmem S512x8 .bf16) (harg12 : arg12.IsWhole) (hc1 : ¬cond1 (grid0.coords t)) (hc2 : ¬cond2 (grid0.coords t)) (hc3 : cond3 (grid0.coords t)) (hc4 : cond4 (grid0.coords t)) (x1 : Vec F S256x2048 .f32) (x2 : Vec F S256x2048 .f32) (x3 : Vec F S2048x256 .f32) (x4 : Vec F S2048x256 .f32) (x5 : Vec F S4096x8 .f32) (x6 : Vec F S1x8 .f32) (x7 : Vec F S1x4096 .f32) (x8 : Vec F S1x1 .f32) (x9 : Vec F S4096x8 .f32) (x10 : Vec F S1x8 .f32) (x11 : Vec F S4096x8 .f32) (x12 : Vec F S512x8 .bf16) :
    arg10.view.read (Elt F) (arg10.view.writes (Elt F) (harg10.unread x10) (kernelRunD c t arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5 x6 x7 x8 x9 x10 x11 x12).2.1)
      = k0_pay7 (Spec.stack (k0_pay4 (rowsAt x12 ((t.val + 1) % 2 * 256) (by omega)) (Spec.upper x11) x3) (k0_pay5 (rowsAt x12 ((t.val + 1) % 2 * 256) (by omega)) (Spec.lower x11) x4)) x6 x7 x8 := by
  unfold kernelRunD; dsimp only; sl_unfold_run_names
  simp only [readAt_whole2, readAt_upper, readAt_lower, readAt_rows_writes _ _ _ (off1_eq t) (off2_eq t) (by omega) (off_disj t), readAt_rows _ _ _ (off2_eq t) (by omega)]
  refine (read_write_whole2 (F := F) arg10 _ _ _).trans ?_
  refine congrArg (fun z => k0_pay7 z x6 x7 x8) ?_
  exact (readCov_stack (F := F) arg11.view _ _ _ _ _).trans (stack_congr arg11 harg11 x11 _ x3 x4 _ _)

end Cert.KernelIdeal.Run

end
-- ==== Proof.KernBlocks.lean ====
/-
  Each input window's block at a grid point is a plain restriction of the argument array it reads.

  A block's coordinate in its array is, on each axis, the block index times the block's size plus the coordinate
  inside the block. The block indices over the 17 grid points are decided once: the two windows of x read row block
  min(t, 15) of the left and of the right 2048 columns; the two windows of adj read column block t - 1 (block 0 at
  point 0) of the upper and of the lower 2048 rows; the four remaining windows are whole arrays at block index (0, 0).
-/
import proofs.«115268_g73873437491479_cont_9to1_m_435_22_alg».proof.Proof.KernData

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

open Idealize.ShloMosaic.ValueIdx

/-! ## The block indices, decided over the grid -/

theorem idx0 : ∀ t : Fin cfg0.N, win0_0.index t (0 : Fin 2) = min t.val 15 ∧ win0_0.index t (1 : Fin 2) = 0 :=
  (by decide +kernel : ∀ t : Fin grid0.N, win0_0.index t (0 : Fin 2) = min t.val 15 ∧ win0_0.index t (1 : Fin 2) = 0)
theorem idx1 : ∀ t : Fin cfg0.N, win0_1.index t (0 : Fin 2) = min t.val 15 ∧ win0_1.index t (1 : Fin 2) = 1 :=
  (by decide +kernel : ∀ t : Fin grid0.N, win0_1.index t (0 : Fin 2) = min t.val 15 ∧ win0_1.index t (1 : Fin 2) = 1)
theorem idx2 : ∀ t : Fin cfg0.N, win0_2.index t (0 : Fin 2) = 0 ∧ win0_2.index t (1 : Fin 2) = t.val - 1 :=
  (by decide +kernel : ∀ t : Fin grid0.N, win0_2.index t (0 : Fin 2) = 0 ∧ win0_2.index t (1 : Fin 2) = t.val - 1)
theorem idx3 : ∀ t : Fin cfg0.N, win0_3.index t (0 : Fin 2) = 1 ∧ win0_3.index t (1 : Fin 2) = t.val - 1 :=
  (by decide +kernel : ∀ t : Fin grid0.N, win0_3.index t (0 : Fin 2) = 1 ∧ win0_3.index t (1 : Fin 2) = t.val - 1)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

/-- A grid point's predecessor (point 0 its own) numbers one of the sixteen column blocks. -/
theorem pred_lt (t : Fin cfg0.N) : t.val - 1 < 16 := by
  have h : t.val < grid0.N := t.isLt
  rw [N_0] at h
  omega

/-! ## The blocks of x: 256 rows, one half of the columns -/

/-- Window 0 at point `t`: rows of block min(t, 15), the left 2048 columns. -/
theorem blk0 (c : Dev nD) (t : Fin cfg0.N) : iblk m c 0 t = Spec.rowBlk (aX m c) ⟨min t.val 15, by omega⟩ 0 := by
  obtain ⟨e0, e1⟩ := idx0 t
  funext j
  unfold iblk
  rw [View.read_apply]
  show V m c main_arg0 _ = V m c main_arg0 _
  congr 1
  funext a
  apply Fin.ext
  match a with
  | ⟨0, _⟩ => show win0_0.index t (0 : Fin 2) * 256 + 1 * (j 0).val = 256 * min t.val 15 + (j 0).val; rw [e0]; omega
  | ⟨1, _⟩ => show win0_0.index t (1 : Fin 2) * 2048 + 1 * (j 1).val = 2048 * 0 + (j 1).val; rw [e1]; omega

/-- Window 1 at point `t`: rows of block min(t, 15), the right 2048 columns. -/
theorem blk1 (c : Dev nD) (t : Fin cfg0.N) : iblk m c 1 t = Spec.rowBlk (aX m c) ⟨min t.val 15, by omega⟩ 1 := by
  obtain ⟨e0, e1⟩ := idx1 t
  funext j
  unfold iblk
  rw [View.read_apply]
  show V m c main_arg0 _ = V m c main_arg0 _
  congr 1
  funext a
  apply Fin.ext
  match a with
  | ⟨0, _⟩ => show win0_1.index t (0 : Fin 2) * 256 + 1 * (j 0).val = 256 * min t.val 15 + (j 0).val; rw [e0]; omega
  | ⟨1, _⟩ => show win0_1.index t (1 : Fin 2) * 2048 + 1 * (j 1).val = 2048 * 1 + (j 1).val; rw [e1]; omega

/-! ## The blocks of adj: one half of the rows, 256 columns -/

/-- Window 2 at point `t`: the upper 2048 rows, columns of block t - 1 (block 0 at point 0). -/
theorem blk2 (c : Dev nD) (t : Fin cfg0.N) : iblk m c 2 t = Spec.colBlk (aAdj m c) 0 ⟨t.val - 1, pred_lt t⟩ := by
  obtain ⟨e0, e1⟩ := idx2 t
  funext j
  unfold iblk
  rw [View.read_apply]
  show V m c main_arg1 _ = V m c main_arg1 _
  congr 1
  funext a
  apply Fin.ext
  match a with
  | ⟨0, _⟩ => show win0_2.index t (0 : Fin 2) * 2048 + 1 * (j 0).val = 2048 * 0 + (j 0).val; rw [e0]; omega
  | ⟨1, _⟩ => show win0_2.index t (1 : Fin 2) * 256 + 1 * (j 1).val = 256 * (t.val - 1) + (j 1).val; rw [e1]; omega

/-- Window 3 at point `t`: the lower 2048 rows, columns of block t - 1 (block 0 at point 0). -/
theorem blk3 (c : Dev nD) (t : Fin cfg0.N) : iblk m c 3 t = Spec.colBlk (aAdj m c) 1 ⟨t.val - 1, pred_lt t⟩ := by
  obtain ⟨e0, e1⟩ := idx3 t
  funext j
  unfold iblk
  rw [View.read_apply]
  show V m c main_arg1 _ = V m c main_arg1 _
  congr 1
  funext a
  apply Fin.ext
  match a with
  | ⟨0, _⟩ => show win0_3.index t (0 : Fin 2) * 2048 + 1 * (j 0).val = 2048 * 1 + (j 0).val; rw [e0]; omega
  | ⟨1, _⟩ => show win0_3.index t (1 : Fin 2) * 256 + 1 * (j 1).val = 256 * (t.val - 1) + (j 1).val; rw [e1]; omega

/-! ## The whole-array windows -/

/-- Window 4 at every point: all of W. -/
theorem blk4 (c : Dev nD) (t : Fin cfg0.N) : iblk m c 4 t = aW m c := by
  obtain ⟨e0, e1⟩ := idx4 t
  funext j
  unfold iblk
  rw [View.read_apply]
  show V m c main_arg2 _ = V m c main_arg2 j
  congr 1
  funext a
  apply Fin.ext
  match a with
  | ⟨0, _⟩ => show win0_4.index t (0 : Fin 2) * 4096 + 1 * (j 0).val = (j 0).val; rw [e0]; omega
  | ⟨1, _⟩ => show win0_4.index t (1 : Fin 2) * 8 + 1 * (j 1).val = (j 1).val; rw [e1]; omega

/-- Window 5 at every point: all of the bias, as a 1 × 8 array. -/
theorem blk5 (c : Dev nD) (t : Fin cfg0.N) : iblk m c 5 t = aB m c := by
  obtain ⟨e0, e1⟩ := idx5 t
  funext j
  unfold iblk
  rw [View.read_apply]
  show V m c main_call0_v0 _ = V m c main_call0_v0 j
  congr 1
  funext a
  apply Fin.ext
  match a with
  | ⟨0, _⟩ => show win0_5.index t (0 : Fin 2) * 1 + 1 * (j 0).val = (j 0).val; rw [e0]; omega
  | ⟨1, _⟩ => show win0_5.index t (1 : Fin 2) * 8 + 1 * (j 1).val = (j 1).val; rw [e1]; omega

/-- Window 6 at every point: all of W_lin. -/
theorem blk6 (c : Dev nD) (t : Fin cfg0.N) : iblk m c 6 t = aWl m c := by
  obtain ⟨e0, e1⟩ := idx6 t
  funext j
  unfold iblk
  rw [View.read_apply]
  show V m c main_arg4 _ = V m c main_arg4 j
  congr 1
  funext a
  apply Fin.ext
  match a with
  | ⟨0, _⟩ => show win0_6.index t (0 : Fin 2) * 1 + 1 * (j 0).val = (j 0).val; rw [e0]; omega
  | ⟨1, _⟩ => show win0_6.index t (1 : Fin 2) * 4096 + 1 * (j 1).val = (j 1).val; rw [e1]; omega

/-- Window 7 at every point: the bias of the readout, as a 1 × 1 array. -/
theorem blk7 (c : Dev nD) (t : Fin cfg0.N) : iblk m c 7 t = aBl m c := by
  obtain ⟨e0, e1⟩ := idx7 t
  funext j
  unfold iblk
  rw [View.read_apply]
  show V m c main_call0_v1 _ = V m c main_call0_v1 j
  congr 1
  funext a
  apply Fin.ext
  match a with
  | ⟨0, _⟩ => show win0_7.index t (0 : Fin 2) * 1 + 1 * (j 0).val = (j 0).val; rw [e0]; omega
  | ⟨1, _⟩ => show win0_7.index t (1 : Fin 2) * 1 + 1 * (j 1).val = (j 1).val; rw [e1]; omega

end Cert.KernelIdeal.Run

end
-- ==== Proof.KernBody.lean ====
/-
  The body obligation of the streaming kernel's pipeline: at every grid point the body, handed the inputs' blocks and
  the two scratch buffers as the invariant describes them, runs and hands back the scratch buffers as the invariant
  describes them one point later — the new block of x · W in its slot, the accumulator with one more column block's
  product — and, at the last point, the two result windows at the specification's values.
-/
import proofs.«115268_g73873437491479_cont_9to1_m_435_22_alg».proof.Proof.KernStep
import proofs.«115268_g73873437491479_cont_9to1_m_435_22_alg».proof.Proof.KernBlocks

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-! ## The invariant, one point later -/

theorem hN (t : Fin cfg0.N) : t.val < 17 := lt_of_lt_of_eq t.isLt N_0

/-- The block of x · W formed at point `t < 16` is the one the invariant expects in slot `t mod 2` before point `t + 1`. -/
theorem inv_sup (c : Dev nD) (t : Fin cfg0.N) (ht : t.val < 16) (s' : Vec F S512x8 .bf16)
    (h : rowsAt s' (t.val % 2 * 256) (by omega) = k0_pay1 (iblk m c 4 t) (iblk m c 0 t) (iblk m c 1 t)) :
    ∀ hh : 1 ≤ t.val + 1 ∧ t.val + 1 ≤ 16,
      slot s' ⟨(t.val + 1 - 1) % 2, Nat.mod_lt _ (by decide)⟩ = Spec.support (aX m c) (aW m c) ⟨t.val + 1 - 1, by omega⟩ := by
  intro hh
  have e1 : (⟨(t.val + 1 - 1) % 2, Nat.mod_lt _ (by decide)⟩ : Fin 2) = ⟨t.val % 2, Nat.mod_lt _ (by decide)⟩ := Fin.ext (by simp)
  have e2 : (⟨t.val + 1 - 1, by omega⟩ : Fin 16) = ⟨min t.val 15, by omega⟩ := Fin.ext (by simp; omega)
  rw [e1, e2, ← rowsAt_eq_slot s' ⟨t.val % 2, Nat.mod_lt _ (by decide)⟩ (t.val % 2 * 256) (by omega) rfl, h, blk4, blk0, blk1]
  rfl

/-- The slot read at point `t ≥ 1` holds block `t - 1` of x · W. -/
theorem inv_read (c : Dev nD) (t : Fin cfg0.N) (ht : 1 ≤ t.val) (a : Vec F S4096x8 .f32) (s : Vec F S512x8 .bf16)
    (hinv : Inv m c t.val a s) :
    rowsAt s ((t.val + 1) % 2 * 256) (by omega) = Spec.support (aX m c) (aW m c) ⟨t.val - 1, pred_lt t⟩ := by
  have := hN t
  have hs' := hinv.2 ⟨ht, by omega⟩
  rw [← hs']
  exact rowsAt_eq_slot s _ _ _ (by show (t.val + 1) % 2 * 256 = (t.val - 1) % 2 * 256; omega)

/-- The accumulator after point `t ≥ 2`: one more column block's product added. -/
theorem inv_acc (c : Dev nD) (t : Fin cfg0.N) (ht : 2 ≤ t.val) (a : Vec F S4096x8 .f32) (s : Vec F S512x8 .bf16)
    (hinv : Inv m c t.val a s) :
    Spec.stack (k0_pay4 (rowsAt s ((t.val + 1) % 2 * 256) (by omega)) (Spec.upper a) (iblk m c 2 t))
               (k0_pay5 (rowsAt s ((t.val + 1) % 2 * 256) (by omega)) (Spec.lower a) (iblk m c 3 t))
      = Spec.acc (aX m c) (aAdj m c) (aW m c) (t.val + 1 - 2) := by
  have := hN t
  rw [inv_read m c t (by omega) a s hinv, hinv.1 ht, blk2, blk3]
  obtain ⟨k, hk⟩ : ∃ k, t.val = k + 2 := ⟨t.val - 2, by omega⟩
  have e2 : t.val + 1 - 2 = k + 1 := by omega
  have e3 : t.val - 2 = k := by omega
  have e4 : (⟨t.val - 1, pred_lt t⟩ : Fin 16) = ⟨k + 1, by omega⟩ := Fin.ext (by show t.val - 1 = k + 1; omega)
  rw [e2, e3, e4]
  conv_rhs => rw [Spec.acc]
  rw [dif_pos (by omega : k + 1 < 16)]

/-- The accumulator after point 1: the first column block's product. -/
theorem inv_acc1 (c : Dev nD) (t : Fin cfg0.N) (ht : t.val = 1) (a : Vec F S4096x8 .f32) (s : Vec F S512x8 .bf16)
    (hinv : Inv m c t.val a s) :
    Spec.stack (k0_pay2 (rowsAt s ((t.val + 1) % 2 * 256) (by omega)) (iblk m c 2 t))
               (k0_pay3 (rowsAt s ((t.val + 1) % 2 * 256) (by omega)) (iblk m c 3 t))
      = Spec.acc (aX m c) (aAdj m c) (aW m c) (t.val + 1 - 2) := by
  rw [inv_read m c t (by omega) a s hinv, blk2, blk3]
  have e2 : t.val + 1 - 2 = 0 := by omega
  have e4 : (⟨t.val - 1, pred_lt t⟩ : Fin 16) = 0 := Fin.ext (by show t.val - 1 = 0; omega)
  rw [e2, e4]
  rfl

theorem invA (c : Dev nD) (t : Fin cfg0.N) (ht : t.val = 0) (a : Vec F S4096x8 .f32) (s : Vec F S512x8 .bf16)
    (hinv : Inv m c t.val a s) (d8) (d9) :
    Inv m c (t.val + 1) a (scM1.view.read (Elt F) (scM1.view.writes (Elt F) ((Memref.isWhole_whole _).unread s) (kernelRunA c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) ((hcond1 t).mpr (by omega)) (fun h => absurd ((hcond2 t).mp h) (by omega)) (fun h => absurd ((hcond3 t).mp h) (by omega)) (fun h => absurd ((hcond4 t).mp h) (by omega)) (iblk m c 0 t) (iblk m c 1 t) (iblk m c 2 t) (iblk m c 3 t) (iblk m c 4 t) (iblk m c 5 t) (iblk m c 6 t) (iblk m c 7 t) ((dats m 0 c).before 8 t d8) ((dats m 0 c).before 9 t d9) a s).1)) :=
  ⟨fun h => absurd h (by omega), inv_sup m c t (by omega) _ (supA c t _ _ _ _ _ _ _ _ _ _ _ _ _ _ _ _ _ _ _ _ _ _ _ _ _ _ _ _ _ _ _ _ _ _ _ _ _ _ _ _)⟩

theorem invB (c : Dev nD) (t : Fin cfg0.N) (ht : t.val = 1) (a : Vec F S4096x8 .f32) (s : Vec F S512x8 .bf16)
    (hinv : Inv m c t.val a s) (d8) (d9) :
    Inv m c (t.val + 1) (scM0.view.read (Elt F) (scM0.view.writes (Elt F) ((Memref.isWhole_whole _).unread a) (kernelRunB c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) ((hcond1 t).mpr (by omega)) ((hcond2 t).mpr (by omega)) (fun h => absurd ((hcond3 t).mp h) (by omega)) (fun h => absurd ((hcond4 t).mp h) (by omega)) (iblk m c 0 t) (iblk m c 1 t) (iblk m c 2 t) (iblk m c 3 t) (iblk m c 4 t) (iblk m c 5 t) (iblk m c 6 t) (iblk m c 7 t) ((dats m 0 c).before 8 t d8) ((dats m 0 c).before 9 t d9) a s).1))
      (scM1.view.read (Elt F) (scM1.view.writes (Elt F) ((Memref.isWhole_whole _).unread s) (kernelRunB c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) ((hcond1 t).mpr (by omega)) ((hcond2 t).mpr (by omega)) (fun h => absurd ((hcond3 t).mp h) (by omega)) (fun h => absurd ((hcond4 t).mp h) (by omega)) (iblk m c 0 t) (iblk m c 1 t) (iblk m c 2 t) (iblk m c 3 t) (iblk m c 4 t) (iblk m c 5 t) (iblk m c 6 t) (iblk m c 7 t) ((dats m 0 c).before 8 t d8) ((dats m 0 c).before 9 t d9) a s).2.1)) :=
  ⟨fun _ => (accB c t _ _ _ _ _ _ _ _ _ _ _ _ _ _ _ _ _ _ _ _ _ _ _ _ _ _ _ _ _ _ _ _ _ _ _ _ _ _ _ _).trans (inv_acc1 m c t ht a s hinv),
   inv_sup m c t (by omega) _ (supB c t _ _ _ _ _ _ _ _ _ _ _ _ _ _ _ _ _ _ _ _ _ _ _ _ _ _ _ _ _ _ _ _ _ _ _ _ _ _ _ _)⟩

theorem invC (c : Dev nD) (t : Fin cfg0.N) (ht : 2 ≤ t.val ∧ t.val ≤ 15) (a : Vec F S4096x8 .f32) (s : Vec F S512x8 .bf16)
    (hinv : Inv m c t.val a s) (d8) (d9) :
    Inv m c (t.val + 1) (scM0.view.read (Elt F) (scM0.view.writes (Elt F) ((Memref.isWhole_whole _).unread a) (kernelRunC c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) ((hcond1 t).mpr (by omega)) (fun h => absurd ((hcond2 t).mp h) (by omega)) ((hcond3 t).mpr (by omega)) (fun h => absurd ((hcond4 t).mp h) (by omega)) (iblk m c 0 t) (iblk m c 1 t) (iblk m c 2 t) (iblk m c 3 t) (iblk m c 4 t) (iblk m c 5 t) (iblk m c 6 t) (iblk m c 7 t) ((dats m 0 c).before 8 t d8) ((dats m 0 c).before 9 t d9) a s).1))
      (scM1.view.read (Elt F) (scM1.view.writes (Elt F) ((Memref.isWhole_whole _).unread s) (kernelRunC c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) ((hcond1 t).mpr (by omega)) (fun h => absurd ((hcond2 t).mp h) (by omega)) ((hcond3 t).mpr (by omega)) (fun h => absurd ((hcond4 t).mp h) (by omega)) (iblk m c 0 t) (iblk m c 1 t) (iblk m c 2 t) (iblk m c 3 t) (iblk m c 4 t) (iblk m c 5 t) (iblk m c 6 t) (iblk m c 7 t) ((dats m 0 c).before 8 t d8) ((dats m 0 c).before 9 t d9) a s).2.1)) :=
  ⟨fun _ => (accC c t _ _ _ _ _ _ _ _ _ _ _ _ _ _ _ _ _ _ _ _ _ _ _ _ _ _ _ _ _ _ _ _ _ _ _ _ _ _ _ _).trans (inv_acc m c t ht.1 a s hinv),
   inv_sup m c t (by omega) _ (supC c t _ _ _ _ _ _ _ _ _ _ _ _ _ _ _ _ _ _ _ _ _ _ _ _ _ _ _ _ _ _ _ _ _ _ _ _ _ _ _ _)⟩

theorem invD (c : Dev nD) (t : Fin cfg0.N) (ht : t.val = 16) (a : Vec F S4096x8 .f32) (s : Vec F S512x8 .bf16)
    (hinv : Inv m c t.val a s) (d8) (d9) :
    Inv m c (t.val + 1) (scM0.view.read (Elt F) (scM0.view.writes (Elt F) ((Memref.isWhole_whole _).unread a) (kernelRunD c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) (fun h => absurd ((hcond1 t).mp h) (by omega)) (fun h => absurd ((hcond2 t).mp h) (by omega)) ((hcond3 t).mpr (by omega)) ((hcond4 t).mpr (by omega)) (iblk m c 0 t) (iblk m c 1 t) (iblk m c 2 t) (iblk m c 3 t) (iblk m c 4 t) (iblk m c 5 t) (iblk m c 6 t) (iblk m c 7 t) ((dats m 0 c).before 8 t d8) ((dats m 0 c).before 9 t d9) a s).2.2.1)) s :=
  ⟨fun _ => (accD c t _ _ _ _ _ _ _ _ _ _ _ _ _ _ _ _ _ _ _ _ _ _ _ _ _ _ _ _ _ _ _ _ _ _ _ _ _ _ _ _).trans (inv_acc m c t (by omega) a s hinv),
   fun hh => absurd hh.2 (by omega)⟩

/-- At the last point the first result window receives the specification's first result, -/
theorem out8_final (c : Dev nD) (t : Fin cfg0.N) (ht : t.val = 16) (a : Vec F S4096x8 .f32) (s : Vec F S512x8 .bf16)
    (hinv : Inv m c t.val a s) (d8) (d9) :
    (ms8 t).view.read (Elt F) ((ms8 t).view.writes (Elt F) ((hs8 t).unread ((dats m 0 c).before 8 t d8)) (kernelRunD c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) (fun h => absurd ((hcond1 t).mp h) (by omega)) (fun h => absurd ((hcond2 t).mp h) (by omega)) ((hcond3 t).mpr (by omega)) ((hcond4 t).mpr (by omega)) (iblk m c 0 t) (iblk m c 1 t) (iblk m c 2 t) (iblk m c 3 t) (iblk m c 4 t) (iblk m c 5 t) (iblk m c 6 t) (iblk m c 7 t) ((dats m 0 c).before 8 t d8) ((dats m 0 c).before 9 t d9) a s).1)
      = (dats m 0 c).after 8 t := by
  rw [after8]
  refine (out8D c t _ _ _ _ _ _ _ _ _ _ _ _ _ _ _ _ _ _ _ _ _ _ _ _ _ _ _ _ _ _ _ _ _ _ _ _ _ _ _ _).trans ?_
  rw [inv_acc m c t (by omega) a s hinv, blk5]
  have e : t.val + 1 - 2 = 15 := by omega
  rw [e]; rfl

/-- and the second result window the second. -/
theorem out9_final (c : Dev nD) (t : Fin cfg0.N) (ht : t.val = 16) (a : Vec F S4096x8 .f32) (s : Vec F S512x8 .bf16)
    (hinv : Inv m c t.val a s) (d8) (d9) :
    (ms9 t).view.read (Elt F) ((ms9 t).view.writes (Elt F) ((hs9 t).unread ((dats m 0 c).before 9 t d9)) (kernelRunD c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) (fun h => absurd ((hcond1 t).mp h) (by omega)) (fun h => absurd ((hcond2 t).mp h) (by omega)) ((hcond3 t).mpr (by omega)) ((hcond4 t).mpr (by omega)) (iblk m c 0 t) (iblk m c 1 t) (iblk m c 2 t) (iblk m c 3 t) (iblk m c 4 t) (iblk m c 5 t) (iblk m c 6 t) (iblk m c 7 t) ((dats m 0 c).before 8 t d8) ((dats m 0 c).before 9 t d9) a s).2.1)
      = (dats m 0 c).after 9 t := by
  rw [after9]
  refine (out9D c t _ _ _ _ _ _ _ _ _ _ _ _ _ _ _ _ _ _ _ _ _ _ _ _ _ _ _ _ _ _ _ _ _ _ _ _ _ _ _ _).trans ?_
  rw [inv_acc m c t (by omega) a s hinv, blk5, blk6, blk7]
  have e : t.val + 1 - 2 = 15 := by omega
  rw [e]; rfl

/-! ## The body at a generic point -/

theorem leaveIn0 (c : Dev nD) (t : Fin cfg0.N) :
    (dats m 0 c).leavesExact 0 t = owns (c : Thread nD τ) (ms0 t) fullShare (iblk m c 0 t) := by
  unfold Dat.leavesExact; rw [liveIn 0 t (by decide), after0]
theorem leaveIn1 (c : Dev nD) (t : Fin cfg0.N) :
    (dats m 0 c).leavesExact 1 t = owns (c : Thread nD τ) (ms1 t) fullShare (iblk m c 1 t) := by
  unfold Dat.leavesExact; rw [liveIn 1 t (by decide), after1]
theorem leaveIn2 (c : Dev nD) (t : Fin cfg0.N) :
    (dats m 0 c).leavesExact 2 t = owns (c : Thread nD τ) (ms2 t) fullShare (iblk m c 2 t) := by
  unfold Dat.leavesExact; rw [liveIn 2 t (by decide), after2]
theorem leaveIn3 (c : Dev nD) (t : Fin cfg0.N) :
    (dats m 0 c).leavesExact 3 t = owns (c : Thread nD τ) (ms3 t) fullShare (iblk m c 3 t) := by
  unfold Dat.leavesExact; rw [liveIn 3 t (by decide), after3]
theorem leaveIn4 (c : Dev nD) (t : Fin cfg0.N) :
    (dats m 0 c).leavesExact 4 t = owns (c : Thread nD τ) (ms4 t) fullShare (iblk m c 4 t) := by
  unfold Dat.leavesExact; rw [liveIn 4 t (by decide), after4]
theorem leaveIn5 (c : Dev nD) (t : Fin cfg0.N) :
    (dats m 0 c).leavesExact 5 t = owns (c : Thread nD τ) (ms5 t) fullShare (iblk m c 5 t) := by
  unfold Dat.leavesExact; rw [liveIn 5 t (by decide), after5]
theorem leaveIn6 (c : Dev nD) (t : Fin cfg0.N) :
    (dats m 0 c).leavesExact 6 t = owns (c : Thread nD τ) (ms6 t) fullShare (iblk m c 6 t) := by
  unfold Dat.leavesExact; rw [liveIn 6 t (by decide), after6]
theorem leaveIn7 (c : Dev nD) (t : Fin cfg0.N) :
    (dats m 0 c).leavesExact 7 t = owns (c : Thread nD τ) (ms7 t) fullShare (iblk m c 7 t) := by
  unfold Dat.leavesExact; rw [liveIn 7 t (by decide), after7]

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t)

set_option maxHeartbeats 4800000 in
theorem sound_A (c : Dev nD) (t : Fin cfg0.N) (ht : t.val = 0) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rewrite [show (dats m 0 c).owesAt () t.succ = (dats m 0 c).owesAt () t.castSucc from rfl]
  rewrite [show (dats m 0 c).Φ t.succ = PhiS m c (t.val + 1) from rfl, show (dats m 0 c).Φ t.castSucc = PhiS m c t.val from rfl]
  rewrite [leaveIn0, leaveIn1, leaveIn2, leaveIn3, leaveIn4, leaveIn5, leaveIn6, leaveIn7]
  have hN := hN t
  unfold PhiS
  rewrite [Dat.leavesExact_idle (dats m 0 c) 8 t (idleOut8 t (by omega)) (noFlush8 t (by omega)), Dat.leavesExact_idle (dats m 0 c) 9 t (idleOut9 t (by omega)) (noFlush9 t (by omega))]
  iintro ⟨⟨%a, %s, %hinv, HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRunA c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) ((hcond1 t).mpr (by omega)) (fun h => absurd ((hcond2 t).mp h) (by omega)) (fun h => absurd ((hcond3 t).mp h) (by omega)) (fun h => absurd ((hcond4 t).mp h) (by omega)) (iblk m c 0 t) (iblk m c 1 t) (iblk m c 2 t) (iblk m c 3 t) (iblk m c 4 t) (iblk m c 5 t) (iblk m c 6 t) (iblk m c 7 t) ((dats m 0 c).before 8 t d8) ((dats m 0 c).before 9 t d9) a s).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  iintro ⟨H0, H1, H2, H3, H4, H5, H6, H7, H8, H9, HS0, HS1⟩
  isplitl [HS0 HS1]
  · iexists a, (scM1.view.read (Elt F) (scM1.view.writes (Elt F) ((Memref.isWhole_whole _).unread s) (kernelRunA c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) ((hcond1 t).mpr (by omega)) (fun h => absurd ((hcond2 t).mp h) (by omega)) (fun h => absurd ((hcond3 t).mp h) (by omega)) (fun h => absurd ((hcond4 t).mp h) (by omega)) (iblk m c 0 t) (iblk m c 1 t) (iblk m c 2 t) (iblk m c 3 t) (iblk m c 4 t) (iblk m c 5 t) (iblk m c 6 t) (iblk m c 7 t) ((dats m 0 c).before 8 t d8) ((dats m 0 c).before 9 t d9) a s).1))
    isplitr
    · ipureintro; exact invA m c t ht a s hinv _ _
    isplitl [HS0]
    · iexact HS0
    unfold owns; iexists _; isplitr; · ipureintro; rfl
    iexact HS1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists d8; iexact H8
  iexists d9; iexact H9

set_option maxHeartbeats 4800000 in
theorem sound_B (c : Dev nD) (t : Fin cfg0.N) (ht : t.val = 1) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rewrite [show (dats m 0 c).owesAt () t.succ = (dats m 0 c).owesAt () t.castSucc from rfl]
  rewrite [show (dats m 0 c).Φ t.succ = PhiS m c (t.val + 1) from rfl, show (dats m 0 c).Φ t.castSucc = PhiS m c t.val from rfl]
  rewrite [leaveIn0, leaveIn1, leaveIn2, leaveIn3, leaveIn4, leaveIn5, leaveIn6, leaveIn7]
  have hN := hN t
  unfold PhiS
  rewrite [Dat.leavesExact_idle (dats m 0 c) 8 t (idleOut8 t (by omega)) (noFlush8 t (by omega)), Dat.leavesExact_idle (dats m 0 c) 9 t (idleOut9 t (by omega)) (noFlush9 t (by omega))]
  iintro ⟨⟨%a, %s, %hinv, HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRunB c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) ((hcond1 t).mpr (by omega)) ((hcond2 t).mpr (by omega)) (fun h => absurd ((hcond3 t).mp h) (by omega)) (fun h => absurd ((hcond4 t).mp h) (by omega)) (iblk m c 0 t) (iblk m c 1 t) (iblk m c 2 t) (iblk m c 3 t) (iblk m c 4 t) (iblk m c 5 t) (iblk m c 6 t) (iblk m c 7 t) ((dats m 0 c).before 8 t d8) ((dats m 0 c).before 9 t d9) a s).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  iintro ⟨H0, H1, H2, H3, H4, H5, H6, H7, H8, H9, HS0, HS1⟩
  isplitl [HS0 HS1]
  · iexists (scM0.view.read (Elt F) (scM0.view.writes (Elt F) ((Memref.isWhole_whole _).unread a) (kernelRunB c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) ((hcond1 t).mpr (by omega)) ((hcond2 t).mpr (by omega)) (fun h => absurd ((hcond3 t).mp h) (by omega)) (fun h => absurd ((hcond4 t).mp h) (by omega)) (iblk m c 0 t) (iblk m c 1 t) (iblk m c 2 t) (iblk m c 3 t) (iblk m c 4 t) (iblk m c 5 t) (iblk m c 6 t) (iblk m c 7 t) ((dats m 0 c).before 8 t d8) ((dats m 0 c).before 9 t d9) a s).1)), (scM1.view.read (Elt F) (scM1.view.writes (Elt F) ((Memref.isWhole_whole _).unread s) (kernelRunB c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) ((hcond1 t).mpr (by omega)) ((hcond2 t).mpr (by omega)) (fun h => absurd ((hcond3 t).mp h) (by omega)) (fun h => absurd ((hcond4 t).mp h) (by omega)) (iblk m c 0 t) (iblk m c 1 t) (iblk m c 2 t) (iblk m c 3 t) (iblk m c 4 t) (iblk m c 5 t) (iblk m c 6 t) (iblk m c 7 t) ((dats m 0 c).before 8 t d8) ((dats m 0 c).before 9 t d9) a s).2.1))
    isplitr
    · ipureintro; exact invB m c t ht a s hinv _ _
    isplitl [HS0]
    · unfold owns; iexists _; isplitr; · ipureintro; rfl
      iexact HS0
    unfold owns; iexists _; isplitr; · ipureintro; rfl
    iexact HS1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists d8; iexact H8
  iexists d9; iexact H9

set_option maxHeartbeats 4800000 in
theorem sound_C (c : Dev nD) (t : Fin cfg0.N) (ht : 2 ≤ t.val ∧ t.val ≤ 15) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rewrite [show (dats m 0 c).owesAt () t.succ = (dats m 0 c).owesAt () t.castSucc from rfl]
  rewrite [show (dats m 0 c).Φ t.succ = PhiS m c (t.val + 1) from rfl, show (dats m 0 c).Φ t.castSucc = PhiS m c t.val from rfl]
  rewrite [leaveIn0, leaveIn1, leaveIn2, leaveIn3, leaveIn4, leaveIn5, leaveIn6, leaveIn7]
  have hN := hN t
  unfold PhiS
  rewrite [Dat.leavesExact_idle (dats m 0 c) 8 t (idleOut8 t (by omega)) (noFlush8 t (by omega)), Dat.leavesExact_idle (dats m 0 c) 9 t (idleOut9 t (by omega)) (noFlush9 t (by omega))]
  iintro ⟨⟨%a, %s, %hinv, HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRunC c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) ((hcond1 t).mpr (by omega)) (fun h => absurd ((hcond2 t).mp h) (by omega)) ((hcond3 t).mpr (by omega)) (fun h => absurd ((hcond4 t).mp h) (by omega)) (iblk m c 0 t) (iblk m c 1 t) (iblk m c 2 t) (iblk m c 3 t) (iblk m c 4 t) (iblk m c 5 t) (iblk m c 6 t) (iblk m c 7 t) ((dats m 0 c).before 8 t d8) ((dats m 0 c).before 9 t d9) a s).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  iintro ⟨H0, H1, H2, H3, H4, H5, H6, H7, H8, H9, HS0, HS1⟩
  isplitl [HS0 HS1]
  · iexists (scM0.view.read (Elt F) (scM0.view.writes (Elt F) ((Memref.isWhole_whole _).unread a) (kernelRunC c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) ((hcond1 t).mpr (by omega)) (fun h => absurd ((hcond2 t).mp h) (by omega)) ((hcond3 t).mpr (by omega)) (fun h => absurd ((hcond4 t).mp h) (by omega)) (iblk m c 0 t) (iblk m c 1 t) (iblk m c 2 t) (iblk m c 3 t) (iblk m c 4 t) (iblk m c 5 t) (iblk m c 6 t) (iblk m c 7 t) ((dats m 0 c).before 8 t d8) ((dats m 0 c).before 9 t d9) a s).1)), (scM1.view.read (Elt F) (scM1.view.writes (Elt F) ((Memref.isWhole_whole _).unread s) (kernelRunC c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) ((hcond1 t).mpr (by omega)) (fun h => absurd ((hcond2 t).mp h) (by omega)) ((hcond3 t).mpr (by omega)) (fun h => absurd ((hcond4 t).mp h) (by omega)) (iblk m c 0 t) (iblk m c 1 t) (iblk m c 2 t) (iblk m c 3 t) (iblk m c 4 t) (iblk m c 5 t) (iblk m c 6 t) (iblk m c 7 t) ((dats m 0 c).before 8 t d8) ((dats m 0 c).before 9 t d9) a s).2.1))
    isplitr
    · ipureintro; exact invC m c t ht a s hinv _ _
    isplitl [HS0]
    · unfold owns; iexists _; isplitr; · ipureintro; rfl
      iexact HS0
    unfold owns; iexists _; isplitr; · ipureintro; rfl
    iexact HS1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists d8; iexact H8
  iexists d9; iexact H9

set_option maxHeartbeats 4800000 in
theorem sound_D (c : Dev nD) (t : Fin cfg0.N) (ht : t.val = 16) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rewrite [show (dats m 0 c).owesAt () t.succ = (dats m 0 c).owesAt () t.castSucc from rfl]
  rewrite [show (dats m 0 c).Φ t.succ = PhiS m c (t.val + 1) from rfl, show (dats m 0 c).Φ t.castSucc = PhiS m c t.val from rfl]
  rewrite [leaveIn0, leaveIn1, leaveIn2, leaveIn3, leaveIn4, leaveIn5, leaveIn6, leaveIn7]
  have hN := hN t
  unfold PhiS
  rewrite [show (dats m 0 c).leavesExact 8 t = owns (c : Thread nD τ) (ms8 t) fullShare ((dats m 0 c).after 8 t) from by
    unfold Dat.leavesExact; rw [liveOut8 t ht], show (dats m 0 c).leavesExact 9 t = owns (c : Thread nD τ) (ms9 t) fullShare ((dats m 0 c).after 9 t) from by
    unfold Dat.leavesExact; rw [liveOut9 t ht]]
  iintro ⟨⟨%a, %s, %hinv, HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRunD c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) (fun h => absurd ((hcond1 t).mp h) (by omega)) (fun h => absurd ((hcond2 t).mp h) (by omega)) ((hcond3 t).mpr (by omega)) ((hcond4 t).mpr (by omega)) (iblk m c 0 t) (iblk m c 1 t) (iblk m c 2 t) (iblk m c 3 t) (iblk m c 4 t) (iblk m c 5 t) (iblk m c 6 t) (iblk m c 7 t) ((dats m 0 c).before 8 t d8) ((dats m 0 c).before 9 t d9) a s).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  iintro ⟨H0, H1, H2, H3, H4, H5, H6, H7, H8, H9, HS0, HS1⟩
  isplitl [HS0 HS1]
  · iexists (scM0.view.read (Elt F) (scM0.view.writes (Elt F) ((Memref.isWhole_whole _).unread a) (kernelRunD c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) (fun h => absurd ((hcond1 t).mp h) (by omega)) (fun h => absurd ((hcond2 t).mp h) (by omega)) ((hcond3 t).mpr (by omega)) ((hcond4 t).mpr (by omega)) (iblk m c 0 t) (iblk m c 1 t) (iblk m c 2 t) (iblk m c 3 t) (iblk m c 4 t) (iblk m c 5 t) (iblk m c 6 t) (iblk m c 7 t) ((dats m 0 c).before 8 t d8) ((dats m 0 c).before 9 t d9) a s).2.2.1)), s
    isplitr
    · ipureintro; exact invD m c t ht a s hinv _ _
    isplitl [HS0]
    · unfold owns; iexists _; isplitr; · ipureintro; rfl
      iexact HS0
    iexact HS1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr; swap; · iexact H8
    ipureintro; exact out8_final m c t ht a s hinv _ _
  unfold owns; iexists _; isplitr; swap; · iexact H9
  ipureintro; exact out9_final m c t ht a s hinv _ _

/-- The body at any point. -/
theorem sound_body (c : Dev nD) (t : Fin cfg0.N) :
    bodyPre m c t ⊢ wp frame (wpE (defs₀ (F := F)) Variants.none c none) Set.univ (bodyAt0 t) (fun _ => bodyPost m c t) := by
  have hN := hN t
  by_cases h0 : t.val = 0
  · exact sound_A m c t h0
  by_cases h1 : t.val = 1
  · exact sound_B m c t h1
  by_cases h16 : t.val = 16
  · exact sound_D m c t h16
  exact sound_C m c t ⟨by omega, by omega⟩

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Run

end
-- ==== Proof.KernLaunch.lean ====
/-
  The launch of the streaming kernel's region, and what the run leaves.

  The arrays x and adj, each read through two windows, are split into two half shares at entry. The region is handed the
  two scratch buffers at any contents (the invariant before the first point) and gives them back after the last.
  Every weakly fair execution then terminates with each window's array at what the proof data computes: the inputs
  unchanged, the two results at the specification's values; the two biases, which bypass the region, unchanged.
-/
import proofs.«115268_g73873437491479_cont_9to1_m_435_22_alg».proof.Proof.KernData

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at entry: x and adj split between the two windows that read them -/

theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [show (bigSep Finset.univ fun w : Fin cfg0.W => ((cfg0.win w).arr.view.loc (c.tc : Thread nD τ) ↦[(cfg0.win w).arr.view.set]{(dats m 0 c).share w} (dats m 0 c).arrAt w 0 : sProp 𝕄))
        = bigSep Finset.univ fun w : Fin cfg0.W => (((c.tc : Thread nD τ).loc (Pipeline.arrRef spec0 w)) ↦{(dats m 0 c).share w} (dats m 0 c).arrAt w 0 : sProp 𝕄)
      from bigSep_congr fun w _ => by rw [(arr_whole0 w).set_eq_univ]]
  rw [bigSep_eq_bigSepL_of_eq [main_arg0, main_arg1, main_arg2, main_call0_v0, main_arg4, main_call0_v1, main_v0_1, main_v0_0] (by decide) (by decide), bigSep_W0]
  simp only [bigSepL_cons_cons, bigSepL_singleton]
  show iprop((((c.tc : Thread nD τ).loc main_arg0) ↦{fullShare} V m c main_arg0)
      ∗ (((c.tc : Thread nD τ).loc main_arg1) ↦{fullShare} V m c main_arg1)
      ∗ (((c.tc : Thread nD τ).loc main_arg2) ↦{fullShare} V m c main_arg2)
      ∗ (((c.tc : Thread nD τ).loc main_call0_v0) ↦{fullShare} V m c main_call0_v0)
      ∗ (((c.tc : Thread nD τ).loc main_arg4) ↦{fullShare} V m c main_arg4)
      ∗ (((c.tc : Thread nD τ).loc main_call0_v1) ↦{fullShare} V m c main_call0_v1)
      ∗ (((c.tc : Thread nD τ).loc main_v0_1) ↦{fullShare} V m c main_v0_1)
      ∗ (((c.tc : Thread nD τ).loc main_v0_0) ↦{fullShare} V m c main_v0_0))
    ⊢ iprop((((c.tc : Thread nD τ).loc main_arg0) ↦{fullShare.left} V m c main_arg0)
      ∗ (((c.tc : Thread nD τ).loc main_arg0) ↦{fullShare.right} V m c main_arg0)
      ∗ (((c.tc : Thread nD τ).loc main_arg1) ↦{fullShare.left} V m c main_arg1)
      ∗ (((c.tc : Thread nD τ).loc main_arg1) ↦{fullShare.right} V m c main_arg1)
      ∗ (((c.tc : Thread nD τ).loc main_arg2) ↦{fullShare} V m c main_arg2)
      ∗ (((c.tc : Thread nD τ).loc main_call0_v0) ↦{fullShare} V m c main_call0_v0)
      ∗ (((c.tc : Thread nD τ).loc main_arg4) ↦{fullShare} V m c main_arg4)
      ∗ (((c.tc : Thread nD τ).loc main_call0_v1) ↦{fullShare} V m c main_call0_v1)
      ∗ (((c.tc : Thread nD τ).loc main_v0_1) ↦{fullShare} V m c main_v0_1)
      ∗ (((c.tc : Thread nD τ).loc main_v0_0) ↦{fullShare} V m c main_v0_0))
  iintro ⟨H0, H1, H2, H3, H4, H5, H6, H7⟩
  ihave H0s := (pointsTo_share (PosShare.mem_left_op_right fullShare)).1 $$ H0
  icases H0s with ⟨H0l, H0r⟩
  ihave H1s := (pointsTo_share (PosShare.mem_left_op_right fullShare)).1 $$ H1
  icases H1s with ⟨H1l, H1r⟩
  isplitl [H0l]; · iexact H0l
  isplitl [H0r]; · iexact H0r
  isplitl [H1l]; · iexact H1l
  isplitl [H1r]; · iexact H1r
  isplitl [H2]; · iexact H2
  isplitl [H3]; · iexact H3
  isplitl [H4]; · iexact H4
  isplitl [H5]; · iexact H5
  isplitl [H6]; · iexact H6
  iexact H7

/-! ## The invariant at the region's two ends -/

theorem owns_scM0 (c : Dev nD) (a : Vec F S4096x8 .f32) :
    (owns (c : Thread nD τ) scM0 fullShare a : sProp 𝕄) = (((c : Thread nD τ).loc cc0_scratch0) ↦{fullShare} a) := by
  simp only [scM0, owns_whole]
theorem owns_scM1 (c : Dev nD) (s : Vec F S512x8 .bf16) :
    (owns (c : Thread nD τ) scM1 fullShare s : sProp 𝕄) = (((c : Thread nD τ).loc cc0_scratch1) ↦{fullShare} s) := by
  simp only [scM1, owns_whole]

theorem hin (c : Dev nD) :
    iprop((BI.emp : sProp 𝕄) ∗ Pipeline.scopedRest (Ix := Unit) (Name := ℕ) (U := UR sig nD τ) (Lvl := ℕ) (Val := Elt F) spec0 c) ⊢ (dats m 0 c).Φ 0 := by
  rw [show (dats m 0 c).Φ 0 = PhiS m c 0 from rfl]; unfold PhiS
  rw [scopedRest0_eq]
  simp only [owns_scM0, owns_scM1]
  iintro ⟨-, ⟨%f0, H0⟩, ⟨%f1, H1⟩⟩
  iexists f0, f1
  isplitr
  · ipureintro; exact ⟨fun h => absurd h (by omega), fun h => absurd h.1 (by omega)⟩
  isplitl [H0]; · iexact H0
  iexact H1

theorem hout (c : Dev nD) :
    (dats m 0 c).Φ (Fin.last cfg0.N) ⊢ iprop((BI.emp : sProp 𝕄) ∗ Pipeline.scopedRest (Ix := Unit) (Name := ℕ) (U := UR sig nD τ) (Lvl := ℕ) (Val := Elt F) spec0 c) := by
  rw [show (dats m 0 c).Φ (Fin.last cfg0.N) = PhiS m c (Fin.last cfg0.N).val from rfl]; unfold PhiS
  rw [scopedRest0_eq]
  simp only [owns_scM0, owns_scM1]
  iintro ⟨%a, %s, -, H0, H1⟩
  isplitr; · iempintro
  isplitl [H0]; · iexists a; iexact H0
  iexists s; iexact H1

/-! ## The run -/

theorem run_of (hbody : ∀ c, Pipeline.BodyObligationLoose (dats (F := F) m 0 c) (defs₀ (F := F)) Variants.none () Set.univ) :
    θ_run defs (onTc (τ := τ) (main (F := F))) ⟨m, fun _ => 0, ρ⟩ (fun r => ∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b) = V m c b) := by
  classical
  exact Pipeline.θ_run_region_noSem_shared cfgs (dats m) () cellOf_inj 0 winFacts₀0 emb₁ defs₀ Variants.none m ρ main
    hbody block_pos0 arr_whole0 stage_whole0 (fun _ _ => rfl)
    (u₀ := initOf (Pipeline.cells cfgs cellOf_inj) (Pipeline.launchToks cfgs cellOf_inj))
    (hu₀ := .rfl)
    (V := V m) (hmain := hmain m Variants.none)
    (hsplit := hsplit m)
    (X := fun _ => BI.emp) (Y := fun _ => BI.emp)
    (Z := fun c => Pipeline.unscopedRest (Ix := Unit) (Name := ℕ) (U := UR sig nD τ) (Lvl := ℕ) spec0 c (V m c))
    (hX := fun c => by iintro H; isplitr; · iempintro
                       iexact H)
    (hin := hin m) (hout := hout m)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => h c)

end Cert.KernelIdeal.Run

end
-- ==== Proof.KernFinal.lean ====
/-
  The arrays at the end of the run. The eight inputs are never written back, so each ends as the region found it. The
  two results are whole-array blocks at block index (0, 0), written back at the last point only: a whole-array block
  reads the array itself, and every index of the array lies in the last point's block, so each result array ends
  holding what the last point leaves in its staging buffer. The two biases reach the region reshaped from vectors
  to one-row arrays: entry (0, j) of the reshaped array is entry j of the vector.
-/
import proofs.«115268_g73873437491479_cont_9to1_m_435_22_alg».proof.Proof.KernBlocks
import Idealize.ShloMosaic.Lib.Pipeline.Value

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

open Idealize.ShloMosaic.ValueIdx

/-! ## The inputs are never written back -/

theorem isIn : ∀ w : Fin cfg0.W, w.val < 8 → (cfg0.win w).isOut = false := by decide +kernel

/-- An input's array ends as the region found it. -/
theorem arrIn (c : Dev nD) (w : Fin cfg0.W) (hw : w.val < 8) : (dats m 0 c).arrAt w cfg0.N = V m c (Pipeline.arrRef spec0 w) :=
  ((dats m 0 c).arrAt_in w (isIn w hw) cfg0.N).trans (A_eq m c w)

/-! ## The two results: whole-array blocks written back at the last point -/

theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem idx9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)

/-- The last grid point. -/
abbrev tLast : Fin cfg0.N := ⟨16, by decide⟩

/-- The block of window 8 at any point reads the array itself, whatever the array holds. -/
theorem whole8 (G : Vec F S4096x8 .f32) (t : Fin cfg0.N) : ((cfg0.win 8).blk t).view.read (Elt F) G = G := by
  obtain ⟨e0, e1⟩ := idx8 t
  funext j
  rw [View.read_apply]
  show G _ = G j
  congr 1
  funext a
  apply Fin.ext
  match a with
  | ⟨0, _⟩ => show win0_8.index t (0 : Fin 2) * 4096 + 1 * (j 0).val = (j 0).val; rw [e0]; omega
  | ⟨1, _⟩ => show win0_8.index t (1 : Fin 2) * 8 + 1 * (j 1).val = (j 1).val; rw [e1]; omega

/-- The block of window 9 at any point reads the array itself, whatever the array holds. -/
theorem whole9 (G : Vec F S1x8 .f32) (t : Fin cfg0.N) : ((cfg0.win 9).blk t).view.read (Elt F) G = G := by
  obtain ⟨e0, e1⟩ := idx9 t
  funext j
  rw [View.read_apply]
  show G _ = G j
  congr 1
  funext a
  apply Fin.ext
  match a with
  | ⟨0, _⟩ => show win0_9.index t (0 : Fin 2) * 1 + 1 * (j 0).val = (j 0).val; rw [e0]; omega
  | ⟨1, _⟩ => show win0_9.index t (1 : Fin 2) * 8 + 1 * (j 1).val = (j 1).val; rw [e1]; omega

/-- Every index of the first result array lies in the block of any point: the block is the whole array. -/
theorem mem8 (t : Fin cfg0.N) (i : S4096x8.Idx) : i ∈ ((cfg0.win 8).blk t).view.set := by
  obtain ⟨e0, e1⟩ := idx8 t
  show i ∈ ((View.whole main_v0_1).slice (win0_8.rect t)).set
  rw [View.set_slice_whole, Rect.mem_set_unit]
  intro a
  match a with
  | ⟨0, _⟩ =>
    show win0_8.index t (0 : Fin 2) * 4096 ≤ (i 0).val ∧ (i 0).val < win0_8.index t (0 : Fin 2) * 4096 + 4096
    have h : (i 0).val < 4096 := (i 0).isLt
    omega
  | ⟨1, _⟩ =>
    show win0_8.index t (1 : Fin 2) * 8 ≤ (i 1).val ∧ (i 1).val < win0_8.index t (1 : Fin 2) * 8 + 8
    have h : (i 1).val < 8 := (i 1).isLt
    omega

/-- Every index of the second result array lies in the block of any point. -/
theorem mem9 (t : Fin cfg0.N) (i : S1x8.Idx) : i ∈ ((cfg0.win 9).blk t).view.set := by
  obtain ⟨e0, e1⟩ := idx9 t
  show i ∈ ((View.whole main_v0_0).slice (win0_9.rect t)).set
  rw [View.set_slice_whole, Rect.mem_set_unit]
  intro a
  match a with
  | ⟨0, _⟩ =>
    show win0_9.index t (0 : Fin 2) * 1 ≤ (i 0).val ∧ (i 0).val < win0_9.index t (0 : Fin 2) * 1 + 1
    have h : (i 0).val < 1 := (i 0).isLt
    omega
  | ⟨1, _⟩ =>
    show win0_9.index t (1 : Fin 2) * 8 ≤ (i 1).val ∧ (i 1).val < win0_9.index t (1 : Fin 2) * 8 + 8
    have h : (i 1).val < 8 := (i 1).isLt
    omega

/-- The first result array after the run: the clamped, biased accumulator. -/
theorem arr8_final (c : Dev nD) : (dats m 0 c).arrAt 8 cfg0.N = Spec.embeddings (aX m c) (aAdj m c) (aW m c) (aB m c) :=
  (dats m 0 c).arrAt_eq_of_cover 8 (Spec.embeddings (aX m c) (aAdj m c) (aW m c) (aB m c))
    (fun t _ => by
      show (dats m 0 c).after 8 t = _
      rw [after8]
      exact (whole8 _ t).symm)
    (fun i => ⟨tLast, (flush0_8 tLast).mpr (by decide), mem8 tLast i⟩)

/-- The second result array after the run: the readout. -/
theorem arr9_final (c : Dev nD) : (dats m 0 c).arrAt 9 cfg0.N = Spec.readout (aX m c) (aAdj m c) (aW m c) (aB m c) (aWl m c) (aBl m c) :=
  (dats m 0 c).arrAt_eq_of_cover 9 (Spec.readout (aX m c) (aAdj m c) (aW m c) (aB m c) (aWl m c) (aBl m c))
    (fun t _ => by
      show (dats m 0 c).after 9 t = _
      rw [after9]
      exact (whole9 _ t).symm)
    (fun i => ⟨tLast, (flush0_9 tLast).mpr (by decide), mem9 tLast i⟩)

/-! ## The two biases, reshaped before the region -/

/-- The bias as the region finds it: the argument vector reshaped to one row. -/
theorem aB_eq (c : Dev nD) : aB m c = shapeCast S1x8 (m ((c : Thread nD τ).loc main_arg3) : Vec F S8 .f32) shapeCasts_S8_S1x8 := by
  dsimp only [aB, V, hostOps0]
  after_results
  rfl

/-- The readout's bias as the region finds it: the one-entry argument vector reshaped to one row. -/
theorem aBl_eq (c : Dev nD) : aBl m c = shapeCast S1x1 (m ((c : Thread nD τ).loc main_arg5) : Vec F S1 .f32) shapeCasts_S1_S1x1 := by
  dsimp only [aBl, V, hostOps0]
  after_results
  rfl

/-- Entry (0, j) of the reshaped bias is entry j of the argument vector. -/
theorem aB_apply (c : Dev nD) (j : Fin 8) :
    aB m c (ix2 (0 : Fin 1) j) = (m ((c : Thread nD τ).loc main_arg3) : Vec F S8 .f32) (ix1 j) := by
  rw [aB_eq]
  exact shapeCast_apply _ shapeCasts_S8_S1x8 (ix2 (0 : Fin 1) j) (ix1 j)
    (by rw [Shape.rowMajor_val_two, Shape.rowMajor_val_one]; show j.val = 0 * 8 + j.val; omega)

/-- The one entry of the reshaped readout bias is the one entry of the argument vector. -/
theorem aBl_apply (c : Dev nD) :
    aBl m c (ix2 (0 : Fin 1) (0 : Fin 1)) = (m ((c : Thread nD τ).loc main_arg5) : Vec F S1 .f32) (ix1 (0 : Fin 1)) := by
  rw [aBl_eq]
  exact shapeCast_apply _ shapeCasts_S1_S1x1 (ix2 (0 : Fin 1) (0 : Fin 1)) (ix1 (0 : Fin 1))
    (by rw [Shape.rowMajor_val_two, Shape.rowMajor_val_one]; rfl)

end Cert.KernelIdeal.Run

end
-- ==== Proof.KernClaim.lean ====
/-
  The streaming kernel's run, assembled: every weakly fair execution terminates, nothing faulting, with the two
  results at the specification's values of the argument arrays and the six argument arrays unchanged.
-/
import proofs.«115268_g73873437491479_cont_9to1_m_435_22_alg».proof.Proof.KernBody
import proofs.«115268_g73873437491479_cont_9to1_m_435_22_alg».proof.Proof.KernLaunch
import proofs.«115268_g73873437491479_cont_9to1_m_435_22_alg».proof.Proof.KernFinal

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run, at what the proof data computes. -/
theorem run_main : θ_run defs (onTc (τ := τ) (main (F := F))) ⟨m, fun _ => 0, ρ⟩ (fun r => ∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b) = V m c b) :=
  run_of m ρ (fun c => (body_obligation m c).loose)

/-- The run, at the specification's values. -/
theorem run_value : θ_run defs (onTc (τ := τ) (main (F := F))) ⟨m, fun _ => 0, ρ⟩ (fun r => ∀ c : Dev nD,
      r.2.mem ((c.tc : Thread nD τ).loc main_v0_0) = Spec.readout (aX m c) (aAdj m c) (aW m c) (aB m c) (aWl m c) (aBl m c)
      ∧ r.2.mem ((c.tc : Thread nD τ).loc main_v0_1) = Spec.embeddings (aX m c) (aAdj m c) (aW m c) (aB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 9).trans (arr9_final m c), ((h c).1 8).trans (arr8_final m c),
      ((h c).1 0).trans ((arrIn m c 0 (by decide)).trans (V_main_arg0 m c)),
      ((h c).1 2).trans ((arrIn m c 2 (by decide)).trans (V_main_arg1 m c)),
      ((h c).1 4).trans ((arrIn m c 4 (by decide)).trans (V_main_arg2 m c)),
      ((h c).2 main_arg3 (Pipeline.mem_restRefs_of main_arg3 (by decide) (by decide))).trans (V_main_arg3 m c),
      ((h c).1 6).trans ((arrIn m c 6 (by decide)).trans (V_main_arg4 m c)),
      ((h c).2 main_arg5 (Pipeline.mem_restRefs_of main_arg5 (by decide) (by decide))).trans (V_main_arg5 m c)⟩)
    (run_main m ρ)

/-- The frame: it runs, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2.2) (run_value m ρ)

end Cert.KernelIdeal.Run

end
-- ==== Proof.WKernSetup.lean ====
/-
  The streaming kernel's launch, common part: the arrays as the region finds them (after the two reshapes of the
  biases), the argument arrays untouched by those reshapes, each window's block at a grid point, the body's four
  branch conditions decided over the 17 grid points (the first holds at points 0–15, the second at point 1, the third
  at points 2–16, the fourth at point 16), where the two result windows are idle, and the region invariant spelt as
  the two scratch buffers and the generator register.
-/
import proofs.«115268_g73873437491479_cont_9to1_m_435_22_alg».proof.Proof.Gen.Kernel.Launch
import proofs.«115268_g73873437491479_cont_9to1_m_435_22_alg».proof.Proof.Gen.Kernel.Skeleton
import proofs.«115268_g73873437491479_cont_9to1_m_435_22_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s buffers when the region is entered: after the two reshapes. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the two reshapes, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's branch conditions, decided over the grid -/

abbrev cond1 (i : grid0.Coords) : Prop := k0_cond1 i = 1#1
abbrev cond2 (i : grid0.Coords) : Prop := (Scalar.cmpi .ne (Scalar.extui (Scalar.cmpi .eq (BitVec.ofNat 32 (i 0).val) 1#32)) 0#32) = 1#1
abbrev cond3 (i : grid0.Coords) : Prop := (Scalar.cmpi .ne (Scalar.extui (Scalar.cmpi .sgt (BitVec.ofNat 32 (i 0).val) 1#32)) 0#32) = 1#1
abbrev cond4 (i : grid0.Coords) : Prop := k0_cond4 i = 1#1

theorem hcond1 : ∀ t : Fin cfg0.N, cond1 (grid0.coords t) ↔ t.val < 16 :=
  (by decide +kernel : ∀ t : Fin grid0.N, cond1 (grid0.coords t) ↔ t.val < 16)
theorem hcond2 : ∀ t : Fin cfg0.N, cond2 (grid0.coords t) ↔ t.val = 1 :=
  (by decide +kernel : ∀ t : Fin grid0.N, cond2 (grid0.coords t) ↔ t.val = 1)
theorem hcond3 : ∀ t : Fin cfg0.N, cond3 (grid0.coords t) ↔ 1 < t.val :=
  (by decide +kernel : ∀ t : Fin grid0.N, cond3 (grid0.coords t) ↔ 1 < t.val)
theorem hcond4 : ∀ t : Fin cfg0.N, cond4 (grid0.coords t) ↔ t.val = 16 :=
  (by decide +kernel : ∀ t : Fin grid0.N, cond4 (grid0.coords t) ↔ t.val = 16)

/-! ## Where the windows are idle -/

theorem liveIn : ∀ (w : Fin cfg0.W) (t : Fin cfg0.N), w.val < 8 → cfg0.idle w (grid0.coords t) = false := by decide +kernel
theorem idleOut8 : ∀ t : Fin cfg0.N, t.val ≠ 16 → cfg0.idle 8 (grid0.coords t) = true := by decide +kernel
theorem idleOut9 : ∀ t : Fin cfg0.N, t.val ≠ 16 → cfg0.idle 9 (grid0.coords t) = true := by decide +kernel
theorem liveOut8 : ∀ t : Fin cfg0.N, t.val = 16 → cfg0.idle 8 (grid0.coords t) = false := by decide +kernel
theorem liveOut9 : ∀ t : Fin cfg0.N, t.val = 16 → cfg0.idle 9 (grid0.coords t) = false := by decide +kernel
theorem noFlush8 : ∀ t : Fin cfg0.N, t.val ≠ 16 → (cfg0.win 8).flush t = false := by decide +kernel
theorem noFlush9 : ∀ t : Fin cfg0.N, t.val ≠ 16 → (cfg0.win 9).flush t = false := by decide +kernel

/-- The slot of the 512 × 8 scratch read at a point is the one written at the point before. -/
theorem off2_succ : ∀ t : Fin cfg0.N, t.val ≠ 0 → ∀ h : t.val - 1 < cfg0.N, k0_off2 (grid0.coords t) = k0_off1 (grid0.coords ⟨t.val - 1, h⟩) := by decide +kernel

/-- The slot of the 512 × 8 scratch written at point `t` starts at row 256 · (t mod 2), -/
theorem off1_eq : ∀ t : Fin cfg0.N, k0_off1 (grid0.coords t) = ![t.val % 2 * 256, 0] :=
  (by decide +kernel : ∀ t : Fin grid0.N, k0_off1 (grid0.coords t) = ![t.val % 2 * 256, 0])
/-- and the slot read there at row 256 · ((t + 1) mod 2): the other one. -/
theorem off2_eq : ∀ t : Fin cfg0.N, k0_off2 (grid0.coords t) = ![(t.val + 1) % 2 * 256, 0] :=
  (by decide +kernel : ∀ t : Fin grid0.N, k0_off2 (grid0.coords t) = ![(t.val + 1) % 2 * 256, 0])

instance closedOff_off1 (t : Fin cfg0.N) : ClosedOff (k0_off1 (grid0.coords t)) := ⟨![t.val % 2 * 256, 0], off1_eq t⟩
instance closedOff_off2 (t : Fin cfg0.N) : ClosedOff (k0_off2 (grid0.coords t)) := ⟨![(t.val + 1) % 2 * 256, 0], off2_eq t⟩

/-! ## The scratch operands and the invariant -/

abbrev scM0 : Memref sig .tc .vmem S4096x8 .f32 := Memref.whole cc0_scratch0
abbrev scM1 : Memref sig .tc .vmem S512x8 .bf16 := Memref.whole cc0_scratch1

/-- The class invariant: the two scratch buffers at some contents, the generator register at some state. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- Each window's current staging memref at point `t`, and its wholeness. -/
abbrev ms0 (t : Fin cfg0.N) : Memref sig .tc .vmem S256x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S4096x8 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x8 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x4096 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S4096x8 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x8 .f32 := win0_9.stage (cfg0.slots t 9)
abbrev hs9 (t : Fin cfg0.N) : (ms9 t).IsWhole := hstage0_9 ((cfg0.slots t 9).cast nbuf0_9)

end Cert.Kernel.Run

end
-- ==== Proof.WSpec.lean ====
/-
  What the streaming kernel computes, as ONE recursion over the body's named arithmetic.

  The grid has 17 points. At point k < 16 the body forms the k-th block of 256 rows of `x · W` (the two halves of the
  4096 feature columns multiplied separately and added) and keeps it in one of two slots; at point k ≥ 1 it multiplies
  the (k-1)-th block of 256 columns of `adj` (its upper and lower 2048 rows separately) by the block of `x · W` formed one point
  earlier, starting the accumulator at k = 1 and adding to it afterwards. After the last point the accumulator
  is `adj · (x · W)` summed block by block; the epilogue adds the bias, clamps at zero, and forms the row-wise
  log-softmax contracted with `W_lin`.

  Everything here is stated for any float instance `F`: the blocks are plain restrictions of the argument arrays, and
  the arithmetic is the body's own (`Gen.k0_pay1` … `Gen.k0_pay7`).
-/
import proofs.«115268_g73873437491479_cont_9to1_m_435_22_alg».proof.Proof.Gen.Kernel.Skeleton
import Idealize.ShloMosaic.Lib.ValueIdx

noncomputable section

namespace Cert.Kernel.Spec

open Idealize.ShloMosaic Idealize.ShloMosaic.ValueIdx Cert.Kernel Cert.Kernel.Gen

variable {F : FTy → Type} [FloatOps F]

/-- Rows `256 k … 256 k + 255` and columns `2048 h … 2048 h + 2047` of a 4096 × 4096 array. -/
def rowBlk (x : Vec F S4096x4096 .f32) (k : Fin 16) (h : Fin 2) : Vec F S256x2048 .f32 :=
  fun j => x (ix2 (⟨256 * k.val + (j 0).val, by have := idx2_lt0 j; omega⟩ : Fin 4096)
                  (⟨2048 * h.val + (j 1).val, by have := idx2_lt1 j; omega⟩ : Fin 4096))

/-- Rows `2048 h … 2048 h + 2047` and columns `256 k … 256 k + 255` of a 4096 × 4096 array. -/
def colBlk (a : Vec F S4096x4096 .f32) (h : Fin 2) (k : Fin 16) : Vec F S2048x256 .f32 :=
  fun j => a (ix2 (⟨2048 * h.val + (j 0).val, by have := idx2_lt0 j; omega⟩ : Fin 4096)
                  (⟨256 * k.val + (j 1).val, by have := idx2_lt1 j; omega⟩ : Fin 4096))

/-- The upper 2048 rows of a 4096 × 8 array. -/
def upper (a : Vec F S4096x8 .f32) : Vec F S2048x8 .f32 :=
  fun j => a (ix2 (⟨(j 0).val, by have := idx2_lt0 j; omega⟩ : Fin 4096) (j 1))

/-- The lower 2048 rows of a 4096 × 8 array. -/
def lower (a : Vec F S4096x8 .f32) : Vec F S2048x8 .f32 :=
  fun j => a (ix2 (⟨2048 + (j 0).val, by have := idx2_lt0 j; omega⟩ : Fin 4096) (j 1))

/-- Two 2048 × 8 arrays one above the other. -/
def stack (top bot : Vec F S2048x8 .f32) : Vec F S4096x8 .f32 :=
  fun i => if h : (i 0).val < 2048 then top (ix2 (⟨(i 0).val, h⟩ : Fin 2048) (i 1))
           else bot (ix2 (⟨(i 0).val - 2048, by have := idx2_lt0 i; omega⟩ : Fin 2048) (i 1))

/-- Block `k` of 256 rows of `x · W`, as the body forms it at point `k`. -/
def support (x : Vec F S4096x4096 .f32) (W : Vec F S4096x8 .f32) (k : Fin 16) : Vec F S256x8 .bf16 :=
  k0_pay1 W (rowBlk x k 0) (rowBlk x k 1)

/-- The accumulator after the first `n + 1` column blocks of `adj` have been multiplied in (after point `n + 1`);
    beyond the sixteenth block nothing more is added. -/
def acc (x adj : Vec F S4096x4096 .f32) (W : Vec F S4096x8 .f32) : Nat → Vec F S4096x8 .f32
  | 0 => stack (k0_pay2 (support x W 0) (colBlk adj 0 0)) (k0_pay3 (support x W 0) (colBlk adj 1 0))
  | n + 1 =>
    if h : n + 1 < 16 then
      stack (k0_pay4 (support x W ⟨n + 1, h⟩) (upper (acc x adj W n)) (colBlk adj 0 ⟨n + 1, h⟩))
            (k0_pay5 (support x W ⟨n + 1, h⟩) (lower (acc x adj W n)) (colBlk adj 1 ⟨n + 1, h⟩))
    else acc x adj W n

/-- The first result: the clamped, biased accumulator. -/
def embeddings (x adj : Vec F S4096x4096 .f32) (W : Vec F S4096x8 .f32) (b : Vec F S1x8 .f32) : Vec F S4096x8 .f32 :=
  k0_pay6 (acc x adj W 15) b

/-- The second result: the row-wise log-softmax of the first, contracted with `W_lin`, plus the bias. -/
def readout (x adj : Vec F S4096x4096 .f32) (W : Vec F S4096x8 .f32) (b : Vec F S1x8 .f32)
    (wlin : Vec F S1x4096 .f32) (blin : Vec F S1x1 .f32) : Vec F S1x8 .f32 :=
  k0_pay7 (acc x adj W 15) b wlin blin

end Cert.Kernel.Spec

end
-- ==== Proof.WKernData.lean ====
/-
  The proof data of the streaming kernel's pipeline.

  Between grid points the kernel keeps two things in scratch memory: the accumulator (4096 × 8) and the two slots of
  blocks of x · W (512 × 8). Before point t ≥ 2 the accumulator holds the sum of the first t - 1 column blocks of adj
  times the matching blocks of x · W; before point t with 1 ≤ t ≤ 16 the slot (t - 1) mod 2 holds block t - 1 of x · W.
  Both are stated through the one recursion of the specification. The inputs' staging buffers hold their blocks at
  every point; the two result windows are idle until the last point, where they receive the two results.
  The arrays x and adj are each read through two windows, so each is held at two half shares (the split is made at the launch).
-/
import proofs.«115268_g73873437491479_cont_9to1_m_435_22_alg».proof.Proof.WKernSetup
import proofs.«115268_g73873437491479_cont_9to1_m_435_22_alg».proof.Proof.WSpec

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-! ## The arrays as the region finds them, at their vector types -/

abbrev aX (c : Dev nD) : Vec F S4096x4096 .f32 := V m c main_arg0
abbrev aAdj (c : Dev nD) : Vec F S4096x4096 .f32 := V m c main_arg1
abbrev aW (c : Dev nD) : Vec F S4096x8 .f32 := V m c main_arg2
abbrev aB (c : Dev nD) : Vec F S1x8 .f32 := V m c main_call0_v0
abbrev aWl (c : Dev nD) : Vec F S1x4096 .f32 := V m c main_arg4
abbrev aBl (c : Dev nD) : Vec F S1x1 .f32 := V m c main_call0_v1

/-- Rows `256 p … 256 p + 255` of the 512 × 8 scratch: one of its two slots. -/
def slot (s : Vec F S512x8 .bf16) (p : Fin 2) : Vec F S256x8 .bf16 :=
  fun j => s (ix2 (⟨256 * p.val + (j 0).val, by have := idx2_lt0 j; omega⟩ : Fin 512) (j 1))

/-- What the two scratch buffers hold before point `t`. -/
def Inv (c : Dev nD) (t : ℕ) (a : Vec F S4096x8 .f32) (s : Vec F S512x8 .bf16) : Prop :=
  (2 ≤ t → a = Spec.acc (aX m c) (aAdj m c) (aW m c) (t - 2))
  ∧ (∀ h : 1 ≤ t ∧ t ≤ 16, slot s ⟨(t - 1) % 2, Nat.mod_lt _ (by decide)⟩ = Spec.support (aX m c) (aW m c) ⟨t - 1, by omega⟩)

/-- The region invariant before point `t`: the two scratch buffers at contents the invariant describes. -/
def PhiS (c : Dev nD) (t : ℕ) : sProp 𝕄 :=
  iprop(∃ a s, ⌜Inv m c t a s⌝ ∗ owns (c : Thread nD τ) scM0 fullShare a ∗ owns (c : Thread nD τ) scM1 fullShare s)

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => Spec.embeddings (aX m c) (aAdj m c) (aW m c) (aB m c)
    | ⟨9, _⟩ => Spec.readout (aX m c) (aAdj m c) (aW m c) (aB m c) (aWl m c) (aBl m c)
  Φ t := PhiS m c t.val
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
    | ⟨7, _⟩ => fullShare
    | ⟨8, _⟩ => fullShare
    | ⟨9, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = Spec.embeddings (aX m c) (aAdj m c) (aW m c) (aB m c) := by dsimp only [dats]
theorem after9 (c : Dev nD) (t : Fin cfg0.N) : (dats m 0 c).after 9 t = Spec.readout (aX m c) (aAdj m c) (aW m c) (aB m c) (aWl m c) (aBl m c) := by dsimp only [dats]

/-! ## Each input's staging buffer holds its block at every point, fetched there or not -/

theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d

end Cert.Kernel.Run

end
-- ==== Proof.WKernRead.lean ====
/-
  Reading a buffer back, index by index.

  A load through the whole rectangle reads the contents; a load of the upper or lower 2048 rows of a 4096 × 8 buffer
  reads that half; a load of one 256-row slot of a 512 × 8 buffer after a store into the OTHER slot reads the old
  contents there, and the stored slot reads back the stored block; two stores of 2048 rows each, one above the
  other, leave the two blocks stacked; one store through the whole rectangle leaves its block.
-/
import proofs.«115268_g73873437491479_cont_9to1_m_435_22_alg».proof.Proof.WKernData
import Idealize.ShloMosaic.Lib.Pipeline.Value
import Idealize.ShloMosaic.Lib.WritesUnit

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

section Read

variable {e : EltTy}

/-- A load through the whole rectangle reads the contents. -/
theorem readAt_whole {S : Shape} (M : Memref sig .tc .vmem S e) (h : M.IsWhole) (x : S.Idx → Elt F e)
    {off : Fin S.rank → Nat} (hz : off = fun _ => 0) (inb : ∀ a, off a + S.size a ≤ S.size a) :
    View.readAt (Elt F) M.view (Rect.unit off S.size inb).toLoadRect (h.unread x) = x := by
  simp only [View.readAt_eq_ld, h.read_unread, View.ld_unit_zero hz]

/-- One store through the whole rectangle leaves its block, whatever was there. -/
theorem read_write_whole {S : Shape} (M : Memref sig .tc .vmem S e) (f : M.view.ty.Contents (Elt F))
    {off : Fin S.rank → Nat} (hz : off = fun _ => 0) (inb : ∀ a, off a + S.size a ≤ S.size a) (w : S.Idx → Elt F e) :
    M.view.read (Elt F) (M.view.writes (Elt F) f [(⟨Rect.unit off S.size inb, w⟩ : View.Piece (Elt F) S e)]) = w := by
  rw [View.read_writes_eq_canon M.view f _ (fun y => ⟨_, List.mem_singleton_self _, View.mem_set_unit_zero hz inb y⟩)]
  exact View.canon_unit_zero hz inb w

end Read

/-! ## The accumulator's halves -/

theorem readAt_upper (M : Memref sig .tc .vmem S4096x8 .f32) (h : M.IsWhole) (x : Vec F S4096x8 .f32)
    (inb : ∀ a, (![0, 0] : Fin 2 → ℕ) a + S2048x8.size a ≤ S4096x8.size a) :
    View.readAt (Elt F) M.view (Rect.unit (s := S4096x8) ![0, 0] S2048x8.size inb).toLoadRect (h.unread x) = Spec.upper x := by
  funext j
  rw [View.readAt_apply, h.read_unread]
  unfold Spec.upper
  refine congrArg x (funext fun a => Fin.ext ?_)
  match a with
  | ⟨0, _⟩ => simp [LoadRect.idx]
  | ⟨1, _⟩ => simp [LoadRect.idx]

theorem readAt_lower (M : Memref sig .tc .vmem S4096x8 .f32) (h : M.IsWhole) (x : Vec F S4096x8 .f32)
    (inb : ∀ a, (![2048, 0] : Fin 2 → ℕ) a + S2048x8.size a ≤ S4096x8.size a) :
    View.readAt (Elt F) M.view (Rect.unit (s := S4096x8) ![2048, 0] S2048x8.size inb).toLoadRect (h.unread x) = Spec.lower x := by
  funext j
  rw [View.readAt_apply, h.read_unread]
  unfold Spec.lower
  refine congrArg x (funext fun a => Fin.ext ?_)
  match a with
  | ⟨0, _⟩ => simp [LoadRect.idx]
  | ⟨1, _⟩ => simp [LoadRect.idx]

/-- Two stores of 2048 rows, the lower one last, leave the two blocks stacked. -/
theorem read_stack {κ : Kind} {sp : Space} (v : View sig κ sp S4096x8 .f32) (f : v.ty.Contents (Elt F))
    (inbU : ∀ a, (![0, 0] : Fin 2 → ℕ) a + S2048x8.size a ≤ S4096x8.size a)
    (inbL : ∀ a, (![2048, 0] : Fin 2 → ℕ) a + S2048x8.size a ≤ S4096x8.size a)
    (wU wL : Vec F S2048x8 .f32) :
    v.read (Elt F) (v.writes (Elt F) f
      [(⟨Rect.unit (s := S4096x8) ![2048, 0] S2048x8.size inbL, wL⟩ : View.Piece (Elt F) S4096x8 .f32),
       (⟨Rect.unit (s := S4096x8) ![0, 0] S2048x8.size inbU, wU⟩ : View.Piece (Elt F) S4096x8 .f32)]) = Spec.stack wU wL := by
  funext i
  unfold Spec.stack
  by_cases hi : (i 0).val < 2048
  · rw [dif_pos hi]
    rw [View.read_writes_cons_rows_of_not_mem v f inbL wL _ i rfl rfl (Or.inl hi)]
    exact View.read_writes_cons_rows_of_mem v f inbU wU [] i (ix2 (⟨(i 0).val, hi⟩ : Fin 2048) (i 1)) rfl (by simp) rfl
  · rw [dif_neg hi]
    exact View.read_writes_cons_rows_of_mem v f inbL wL _ i
      (ix2 (⟨(i 0).val - 2048, by have := idx2_lt0 i; omega⟩ : Fin 2048) (i 1)) rfl (by simp; omega) rfl

/-- The whole accumulator loaded after those two stores is the two blocks stacked. -/
theorem readCov_stack {κ : Kind} {sp : Space} (v : View sig κ sp S4096x8 .f32)
    (inbU : ∀ a, (![0, 0] : Fin 2 → ℕ) a + S2048x8.size a ≤ S4096x8.size a)
    (inbL : ∀ a, (![2048, 0] : Fin 2 → ℕ) a + S2048x8.size a ≤ S4096x8.size a)
    (inbW : ∀ a, (![0, 0] : Fin 2 → ℕ) a + S4096x8.size a ≤ S4096x8.size a)
    (wU wL : Vec F S2048x8 .f32) :
    v.readCov
      [(⟨Rect.unit (s := S4096x8) ![2048, 0] S2048x8.size inbL, wL⟩ : View.Piece (Elt F) S4096x8 .f32),
       (⟨Rect.unit (s := S4096x8) ![0, 0] S2048x8.size inbU, wU⟩ : View.Piece (Elt F) S4096x8 .f32)]
      (Rect.unit (s := S4096x8) ![0, 0] S4096x8.size inbW).toLoadRect = Spec.stack wU wL := by
  unfold View.readCov
  rw [View.readAt_eq_ld, read_stack]
  exact View.ld_unit_zero (by funext a; match a with | ⟨0, _⟩ => rfl | ⟨1, _⟩ => rfl) inbW _

/-! ## The two slots of the 512 × 8 scratch -/

/-- Rows `o … o + 255` of a 512 × 8 array. -/
def rowsAt (s : Vec F S512x8 .bf16) (o : ℕ) (ho : o + 256 ≤ 512) : Vec F S256x8 .bf16 :=
  fun j => s (ix2 (⟨o + (j 0).val, by have := idx2_lt0 j; omega⟩ : Fin 512) (j 1))

theorem rowsAt_eq_slot (s : Vec F S512x8 .bf16) (p : Fin 2) (o : ℕ) (ho : o + 256 ≤ 512) (hp : o = p.val * 256) :
    rowsAt s o ho = slot s p := by
  subst hp; funext j; unfold rowsAt slot
  refine congrArg s (funext fun a => Fin.ext ?_)
  match a with
  | ⟨0, _⟩ => show p.val * 256 + (j 0).val = 256 * p.val + (j 0).val; omega
  | ⟨1, _⟩ => rfl

/-- A load of rows `o₂ …` with nothing stored reads them. -/
theorem readAt_rows (M : Memref sig .tc .vmem S512x8 .bf16) (h : M.IsWhole) (s : Vec F S512x8 .bf16)
    {off2 : Fin 2 → ℕ} {o2 : ℕ} (h2 : off2 = ![o2, 0]) (ho2 : o2 + 256 ≤ 512)
    (inb2 : ∀ a, off2 a + S256x8.size a ≤ S512x8.size a) :
    View.readAt (Elt F) M.view (Rect.unit (s := S512x8) off2 S256x8.size inb2).toLoadRect (h.unread s) = rowsAt s o2 ho2 := by
  subst h2
  funext j
  rw [View.readAt_apply, h.read_unread]
  unfold rowsAt
  refine congrArg s (funext fun a => Fin.ext ?_)
  match a with
  | ⟨0, _⟩ => simp [LoadRect.idx]
  | ⟨1, _⟩ => simp [LoadRect.idx]

/-- A load of rows `o₂ …` after a store into the disjoint rows `o₁ …` reads the old contents. -/
theorem readAt_rows_writes (M : Memref sig .tc .vmem S512x8 .bf16) (h : M.IsWhole) (s : Vec F S512x8 .bf16)
    {off1 off2 : Fin 2 → ℕ} {o1 o2 : ℕ} (h1 : off1 = ![o1, 0]) (h2 : off2 = ![o2, 0]) (ho2 : o2 + 256 ≤ 512)
    (hdis : o2 + 256 ≤ o1 ∨ o1 + 256 ≤ o2)
    (inb1 : ∀ a, off1 a + S256x8.size a ≤ S512x8.size a) (inb2 : ∀ a, off2 a + S256x8.size a ≤ S512x8.size a)
    (w : (Rect.unit (s := S512x8) off1 S256x8.size inb1).shape.Idx → Elt F .bf16) :
    View.readAt (Elt F) M.view (Rect.unit (s := S512x8) off2 S256x8.size inb2).toLoadRect
      (M.view.writes (Elt F) (h.unread s) [(⟨Rect.unit (s := S512x8) off1 S256x8.size inb1, w⟩ : View.Piece (Elt F) S512x8 .bf16)])
      = rowsAt s o2 ho2 := by
  refine Eq.trans ?_ (readAt_rows M h s h2 ho2 inb2)
  subst h2
  funext j
  rw [View.readAt_apply, View.readAt_apply]
  refine (View.read_writes_cons_rows_of_not_mem M.view (h.unread s) inb1 w [] _ h1 rfl ?_)
  have hj := idx2_lt0 j
  simp [LoadRect.idx]
  omega

/-- The rows stored into read back the stored block. -/
theorem rows_read_writes {κ : Kind} {sp : Space} (v : View sig κ sp S512x8 .bf16) (f : v.ty.Contents (Elt F))
    {off1 : Fin 2 → ℕ} {o1 : ℕ} (h1 : off1 = ![o1, 0]) (ho1 : o1 + 256 ≤ 512)
    (inb1 : ∀ a, off1 a + S256x8.size a ≤ S512x8.size a)
    (w : Vec F S256x8 .bf16) :
    rowsAt (v.read (Elt F) (v.writes (Elt F) f [(⟨Rect.unit (s := S512x8) off1 S256x8.size inb1, w⟩ : View.Piece (Elt F) S512x8 .bf16)])) o1 ho1 = w := by
  funext j
  unfold rowsAt
  exact View.read_writes_cons_rows_of_mem v f inb1 w [] _ j h1 rfl rfl

end Cert.Kernel.Run

end
-- ==== Proof.WKernRunA.lean ====
/-
  The body at the first grid point: only the first branch is taken. It forms block 0 of x · W and stores it into slot 0 of the 512 × 8 scratch; nothing else is written.
-/
import proofs.«115268_g73873437491479_cont_9to1_m_435_22_alg».proof.Proof.WKernSetup

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at grid point `t` on whole memrefs at given contents, in this case of its branches: it runs to the
    continuation with every buffer it only reads as it was and every buffer it stores into with its stores written,
    the stores being the witness the run finds. -/
noncomputable def kernelRunA (c : Dev nD) (t : Fin cfg0.N) (arg1 : Memref sig .tc .vmem S256x2048 .f32) (harg1 : arg1.IsWhole) (arg2 : Memref sig .tc .vmem S256x2048 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S4096x8 .f32) (harg5 : arg5.IsWhole) (arg6 : Memref sig .tc .vmem S1x8 .f32) (harg6 : arg6.IsWhole) (arg7 : Memref sig .tc .vmem S1x4096 .f32) (harg7 : arg7.IsWhole) (arg8 : Memref sig .tc .vmem S1x1 .f32) (harg8 : arg8.IsWhole) (arg9 : Memref sig .tc .vmem S4096x8 .f32) (harg9 : arg9.IsWhole) (arg10 : Memref sig .tc .vmem S1x8 .f32) (harg10 : arg10.IsWhole) (arg11 : Memref sig .tc .vmem S4096x8 .f32) (harg11 : arg11.IsWhole) (arg12 : Memref sig .tc .vmem S512x8 .bf16) (harg12 : arg12.IsWhole) (hc1 : cond1 (grid0.coords t)) (hc2 : ¬cond2 (grid0.coords t)) (hc3 : ¬cond3 (grid0.coords t)) (hc4 : ¬cond4 (grid0.coords t))
    (x1 : Vec F S256x2048 .f32) (x2 : Vec F S256x2048 .f32) (x3 : Vec F S2048x256 .f32) (x4 : Vec F S2048x256 .f32) (x5 : Vec F S4096x8 .f32) (x6 : Vec F S1x8 .f32) (x7 : Vec F S1x4096 .f32) (x8 : Vec F S1x1 .f32) (x9 : Vec F S4096x8 .f32) (x10 : Vec F S1x8 .f32) (x11 : Vec F S4096x8 .f32) (x12 : Vec F S512x8 .bf16) :
    { L12 : List (View.Piece (Elt F) S512x8 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (arg12.view.loc (c : Thread nD τ) ↦[arg12.view.set]{fullShare} arg12.view.writes (Elt F) (harg12.unread x12) L12)) -∗ K ⟨⟩))
          ⊢ wp frame (wpE (defs₀ (F := F)) Variants.none c none) E (cc0__stream_kernel (grid0.coords t) arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__stream_kernel_eq_skeleton]; unfold cc0__stream_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | exact hc1 | exact hc2 | exact hc3 | exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    · iexact H12

end Cert.Kernel.Run

end
-- ==== Proof.WKernRunB.lean ====
/-
  The body at grid point 1: the first and second branches are taken. It forms block 1 of x · W into slot 1 of the 512 × 8 scratch, and starts the accumulator: its upper and lower 2048 rows are the two halves of column block 0 of adj times block 0 of x · W.
-/
import proofs.«115268_g73873437491479_cont_9to1_m_435_22_alg».proof.Proof.WKernSetup

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at grid point `t` on whole memrefs at given contents, in this case of its branches: it runs to the
    continuation with every buffer it only reads as it was and every buffer it stores into with its stores written,
    the stores being the witness the run finds. -/
noncomputable def kernelRunB (c : Dev nD) (t : Fin cfg0.N) (arg1 : Memref sig .tc .vmem S256x2048 .f32) (harg1 : arg1.IsWhole) (arg2 : Memref sig .tc .vmem S256x2048 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S4096x8 .f32) (harg5 : arg5.IsWhole) (arg6 : Memref sig .tc .vmem S1x8 .f32) (harg6 : arg6.IsWhole) (arg7 : Memref sig .tc .vmem S1x4096 .f32) (harg7 : arg7.IsWhole) (arg8 : Memref sig .tc .vmem S1x1 .f32) (harg8 : arg8.IsWhole) (arg9 : Memref sig .tc .vmem S4096x8 .f32) (harg9 : arg9.IsWhole) (arg10 : Memref sig .tc .vmem S1x8 .f32) (harg10 : arg10.IsWhole) (arg11 : Memref sig .tc .vmem S4096x8 .f32) (harg11 : arg11.IsWhole) (arg12 : Memref sig .tc .vmem S512x8 .bf16) (harg12 : arg12.IsWhole) (hc1 : cond1 (grid0.coords t)) (hc2 : cond2 (grid0.coords t)) (hc3 : ¬cond3 (grid0.coords t)) (hc4 : ¬cond4 (grid0.coords t))
    (x1 : Vec F S256x2048 .f32) (x2 : Vec F S256x2048 .f32) (x3 : Vec F S2048x256 .f32) (x4 : Vec F S2048x256 .f32) (x5 : Vec F S4096x8 .f32) (x6 : Vec F S1x8 .f32) (x7 : Vec F S1x4096 .f32) (x8 : Vec F S1x1 .f32) (x9 : Vec F S4096x8 .f32) (x10 : Vec F S1x8 .f32) (x11 : Vec F S4096x8 .f32) (x12 : Vec F S512x8 .bf16) :
    Σ' (L11 : List (View.Piece (Elt F) S4096x8 .f32)), { L12 : List (View.Piece (Elt F) S512x8 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (arg11.view.loc (c : Thread nD τ) ↦[arg11.view.set]{fullShare} arg11.view.writes (Elt F) (harg11.unread x11) L11) ∗ (arg12.view.loc (c : Thread nD τ) ↦[arg12.view.set]{fullShare} arg12.view.writes (Elt F) (harg12.unread x12) L12)) -∗ K ⟨⟩))
          ⊢ wp frame (wpE (defs₀ (F := F)) Variants.none c none) E (cc0__stream_kernel (grid0.coords t) arg1 harg1 arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__stream_kernel_eq_skeleton]; unfold cc0__stream_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | exact hc1 | exact hc2 | exact hc3 | exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexact H11
    · iexact H12

end Cert.Kernel.Run

end
-- ==== Proof.WKernRunC.lean ====
/-
  The body at grid points 2 to 15: the first and third branches are taken. It forms the next block of x · W into the free slot of the 512 × 8 scratch, and adds to each half of the accumulator the matching half of a column block of adj times the block of x · W formed one point earlier.
-/
import proofs.«115268_g73873437491479_cont_9to1_m_435_22_alg».proof.Proof.WKernSetup

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at grid point `t` on whole memrefs at given contents, in this case of its branches: it runs to the
    continuation with every buffer it only reads as it was and every buffer it stores into with its stores written,
    the stores being the witness the run finds. -/
noncomputable def kernelRunC (c : Dev nD) (t : Fin cfg0.N) (arg1 : Memref sig .tc .vmem S256x2048 .f32) (harg1 : arg1.IsWhole) (arg2 : Memref sig .tc .vmem S256x2048 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S4096x8 .f32) (harg5 : arg5.IsWhole) (arg6 : Memref sig .tc .vmem S1x8 .f32) (harg6 : arg6.IsWhole) (arg7 : Memref sig .tc .vmem S1x4096 .f32) (harg7 : arg7.IsWhole) (arg8 : Memref sig .tc .vmem S1x1 .f32) (harg8 : arg8.IsWhole) (arg9 : Memref sig .tc .vmem S4096x8 .f32) (harg9 : arg9.IsWhole) (arg10 : Memref sig .tc .vmem S1x8 .f32) (harg10 : arg10.IsWhole) (arg11 : Memref sig .tc .vmem S4096x8 .f32) (harg11 : arg11.IsWhole) (arg12 : Memref sig .tc .vmem S512x8 .bf16) (harg12 : arg12.IsWhole) (hc1 : cond1 (grid0.coords t)) (hc2 : ¬cond2 (grid0.coords t)) (hc3 : cond3 (grid0.coords t)) (hc4 : ¬cond4 (grid0.coords t))
    (x1 : Vec F S256x2048 .f32) (x2 : Vec F S256x2048 .f32) (x3 : Vec F S2048x256 .f32) (x4 : Vec F S2048x256 .f32) (x5 : Vec F S4096x8 .f32) (x6 : Vec F S1x8 .f32) (x7 : Vec F S1x4096 .f32) (x8 : Vec F S1x1 .f32) (x9 : Vec F S4096x8 .f32) (x10 : Vec F S1x8 .f32) (x11 : Vec F S4096x8 .f32) (x12 : Vec F S512x8 .bf16) :
    Σ' (L11 : List (View.Piece (Elt F) S4096x8 .f32)), { L12 : List (View.Piece (Elt F) S512x8 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (arg11.view.loc (c : Thread nD τ) ↦[arg11.view.set]{fullShare} arg11.view.writes (Elt F) (harg11.unread x11) L11) ∗ (arg12.view.loc (c : Thread nD τ) ↦[arg12.view.set]{fullShare} arg12.view.writes (Elt F) (harg12.unread x12) L12)) -∗ K ⟨⟩))
          ⊢ wp frame (wpE (defs₀ (F := F)) Variants.none c none) E (cc0__stream_kernel (grid0.coords t) arg1 harg1 arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__stream_kernel_eq_skeleton]; unfold cc0__stream_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | exact hc1 | exact hc2 | exact hc3 | exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexact H11
    · iexact H12

end Cert.Kernel.Run

end
-- ==== Proof.WKernRunD.lean ====
/-
  The body at the last grid point: the third and fourth branches are taken. It adds the last column block's product to the accumulator, then writes the two results: the biased accumulator clamped at zero, and its row-wise log-softmax contracted with W_lin plus the bias.
-/
import proofs.«115268_g73873437491479_cont_9to1_m_435_22_alg».proof.Proof.WKernSetup

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at grid point `t` on whole memrefs at given contents, in this case of its branches: it runs to the
    continuation with every buffer it only reads as it was and every buffer it stores into with its stores written,
    the stores being the witness the run finds. -/
noncomputable def kernelRunD (c : Dev nD) (t : Fin cfg0.N) (arg1 : Memref sig .tc .vmem S256x2048 .f32) (harg1 : arg1.IsWhole) (arg2 : Memref sig .tc .vmem S256x2048 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S4096x8 .f32) (harg5 : arg5.IsWhole) (arg6 : Memref sig .tc .vmem S1x8 .f32) (harg6 : arg6.IsWhole) (arg7 : Memref sig .tc .vmem S1x4096 .f32) (harg7 : arg7.IsWhole) (arg8 : Memref sig .tc .vmem S1x1 .f32) (harg8 : arg8.IsWhole) (arg9 : Memref sig .tc .vmem S4096x8 .f32) (harg9 : arg9.IsWhole) (arg10 : Memref sig .tc .vmem S1x8 .f32) (harg10 : arg10.IsWhole) (arg11 : Memref sig .tc .vmem S4096x8 .f32) (harg11 : arg11.IsWhole) (arg12 : Memref sig .tc .vmem S512x8 .bf16) (harg12 : arg12.IsWhole) (hc1 : ¬cond1 (grid0.coords t)) (hc2 : ¬cond2 (grid0.coords t)) (hc3 : cond3 (grid0.coords t)) (hc4 : cond4 (grid0.coords t))
    (x1 : Vec F S256x2048 .f32) (x2 : Vec F S256x2048 .f32) (x3 : Vec F S2048x256 .f32) (x4 : Vec F S2048x256 .f32) (x5 : Vec F S4096x8 .f32) (x6 : Vec F S1x8 .f32) (x7 : Vec F S1x4096 .f32) (x8 : Vec F S1x1 .f32) (x9 : Vec F S4096x8 .f32) (x10 : Vec F S1x8 .f32) (x11 : Vec F S4096x8 .f32) (x12 : Vec F S512x8 .bf16) :
    Σ' (L9 : List (View.Piece (Elt F) S4096x8 .f32)), Σ' (L10 : List (View.Piece (Elt F) S1x8 .f32)), { L11 : List (View.Piece (Elt F) S4096x8 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (arg9.view.loc (c : Thread nD τ) ↦[arg9.view.set]{fullShare} arg9.view.writes (Elt F) (harg9.unread x9) L9) ∗ (arg10.view.loc (c : Thread nD τ) ↦[arg10.view.set]{fullShare} arg10.view.writes (Elt F) (harg10.unread x10) L10) ∗ (arg11.view.loc (c : Thread nD τ) ↦[arg11.view.set]{fullShare} arg11.view.writes (Elt F) (harg11.unread x11) L11) ∗ owns (c : Thread nD τ) arg12 fullShare x12) -∗ K ⟨⟩))
          ⊢ wp frame (wpE (defs₀ (F := F)) Variants.none c none) E (cc0__stream_kernel (grid0.coords t) arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0__stream_kernel_eq_skeleton]; unfold cc0__stream_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | exact hc1 | exact hc2 | exact hc3 | exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexact H9
    isplitl [H10]
    · iexact H10
    isplitl [H11]
    · iexact H11
    · iexists _; isplitr; · ipureintro; exact harg12.read_unread _
      iexact H12

end Cert.Kernel.Run

end
-- ==== Proof.WKernStep.lean ====
/-
  What each case of the body leaves, read back through the body's own arithmetic.

  The block of x · W formed at a point lands in rows 256 · (t mod 2) … of the 512 × 8 scratch; the block used at the point is
  the one in the other slot. At point 1 the accumulator becomes the two halves' products stacked; at later points
  each half has its product added; at the last point the two results are formed from the final accumulator.
-/
import proofs.«115268_g73873437491479_cont_9to1_m_435_22_alg».proof.Proof.WKernRead
import proofs.«115268_g73873437491479_cont_9to1_m_435_22_alg».proof.Proof.WKernRunA
import proofs.«115268_g73873437491479_cont_9to1_m_435_22_alg».proof.Proof.WKernRunB
import proofs.«115268_g73873437491479_cont_9to1_m_435_22_alg».proof.Proof.WKernRunC
import proofs.«115268_g73873437491479_cont_9to1_m_435_22_alg».proof.Proof.WKernRunD

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

theorem off_disj (t : Fin cfg0.N) : ((t.val + 1) % 2 * 256) + 256 ≤ (t.val % 2 * 256) ∨ (t.val % 2 * 256) + 256 ≤ ((t.val + 1) % 2 * 256) := by omega

theorem zz : (![0, 0] : Fin 2 → ℕ) = fun _ => 0 := by
  funext a; match a with | ⟨0, _⟩ => rfl | ⟨1, _⟩ => rfl

/-- A load through the whole rectangle of a rank-two buffer reads the contents. -/
theorem readAt_whole2 {e : EltTy} {d : Fin 2 → ℕ} (M : Memref sig .tc .vmem (⟨2, d⟩ : Shape) e) (h : M.IsWhole)
    (x : (⟨2, d⟩ : Shape).Idx → Elt F e) (inb : ∀ a, (![0, 0] : Fin 2 → ℕ) a + d a ≤ d a) :
    View.readAt (Elt F) M.view (Rect.unit (s := (⟨2, d⟩ : Shape)) ![0, 0] d inb).toLoadRect (h.unread x) = x :=
  readAt_whole M h x zz inb

/-- One store through the whole rectangle of a rank-two buffer leaves its block. -/
theorem read_write_whole2 {e : EltTy} {d : Fin 2 → ℕ} (M : Memref sig .tc .vmem (⟨2, d⟩ : Shape) e) (f : M.view.ty.Contents (Elt F))
    (inb : ∀ a, (![0, 0] : Fin 2 → ℕ) a + d a ≤ d a) (w : (⟨2, d⟩ : Shape).Idx → Elt F e) :
    M.view.read (Elt F) (M.view.writes (Elt F) f [(⟨Rect.unit (s := (⟨2, d⟩ : Shape)) ![0, 0] d inb, w⟩ : View.Piece (Elt F) (⟨2, d⟩ : Shape) e)]) = w :=
  read_write_whole M f zz inb w

/-- The two halves' updates, with the halves of the accumulator read as such. -/
theorem stack_congr (M : Memref sig .tc .vmem S4096x8 .f32) (h : M.IsWhole) (x11 : Vec F S4096x8 .f32)
    (v16 : Vec F S256x8 .bf16) (x3 x4 : Vec F S2048x256 .f32)
    (inbU : ∀ a, (![0, 0] : Fin 2 → ℕ) a + S2048x8.size a ≤ S4096x8.size a)
    (inbL : ∀ a, (![2048, 0] : Fin 2 → ℕ) a + S2048x8.size a ≤ S4096x8.size a) :
    Spec.stack
        (k0_pay4 v16 (View.readAt (Elt F) M.view (Rect.unit (s := S4096x8) ![0, 0] S2048x8.size inbU).toLoadRect (h.unread x11)) x3)
        (k0_pay5 v16 (View.readAt (Elt F) M.view (Rect.unit (s := S4096x8) ![2048, 0] S2048x8.size inbL).toLoadRect (h.unread x11)) x4)
      = Spec.stack (k0_pay4 v16 (Spec.upper x11) x3) (k0_pay5 v16 (Spec.lower x11) x4) := by
  rw [readAt_upper, readAt_lower]

theorem supA (c : Dev nD) (t : Fin cfg0.N) (arg1 : Memref sig .tc .vmem S256x2048 .f32) (harg1 : arg1.IsWhole) (arg2 : Memref sig .tc .vmem S256x2048 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S4096x8 .f32) (harg5 : arg5.IsWhole) (arg6 : Memref sig .tc .vmem S1x8 .f32) (harg6 : arg6.IsWhole) (arg7 : Memref sig .tc .vmem S1x4096 .f32) (harg7 : arg7.IsWhole) (arg8 : Memref sig .tc .vmem S1x1 .f32) (harg8 : arg8.IsWhole) (arg9 : Memref sig .tc .vmem S4096x8 .f32) (harg9 : arg9.IsWhole) (arg10 : Memref sig .tc .vmem S1x8 .f32) (harg10 : arg10.IsWhole) (arg11 : Memref sig .tc .vmem S4096x8 .f32) (harg11 : arg11.IsWhole) (arg12 : Memref sig .tc .vmem S512x8 .bf16) (harg12 : arg12.IsWhole) (hc1 : cond1 (grid0.coords t)) (hc2 : ¬cond2 (grid0.coords t)) (hc3 : ¬cond3 (grid0.coords t)) (hc4 : ¬cond4 (grid0.coords t)) (x1 : Vec F S256x2048 .f32) (x2 : Vec F S256x2048 .f32) (x3 : Vec F S2048x256 .f32) (x4 : Vec F S2048x256 .f32) (x5 : Vec F S4096x8 .f32) (x6 : Vec F S1x8 .f32) (x7 : Vec F S1x4096 .f32) (x8 : Vec F S1x1 .f32) (x9 : Vec F S4096x8 .f32) (x10 : Vec F S1x8 .f32) (x11 : Vec F S4096x8 .f32) (x12 : Vec F S512x8 .bf16) :
    rowsAt (arg12.view.read (Elt F) (arg12.view.writes (Elt F) (harg12.unread x12) (kernelRunA c t arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5 x6 x7 x8 x9 x10 x11 x12).1)) (t.val % 2 * 256) (by omega)
      = k0_pay1 x5 x1 x2 := by
  unfold kernelRunA; dsimp only; sl_unfold_run_names
  simp only [readAt_whole2, readAt_upper, readAt_lower, readAt_rows_writes _ _ _ (off1_eq t) (off2_eq t) (by omega) (off_disj t), readAt_rows _ _ _ (off2_eq t) (by omega)]
  exact rows_read_writes (F := F) arg12.view _ (off1_eq t) _ _ _

theorem supB (c : Dev nD) (t : Fin cfg0.N) (arg1 : Memref sig .tc .vmem S256x2048 .f32) (harg1 : arg1.IsWhole) (arg2 : Memref sig .tc .vmem S256x2048 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S4096x8 .f32) (harg5 : arg5.IsWhole) (arg6 : Memref sig .tc .vmem S1x8 .f32) (harg6 : arg6.IsWhole) (arg7 : Memref sig .tc .vmem S1x4096 .f32) (harg7 : arg7.IsWhole) (arg8 : Memref sig .tc .vmem S1x1 .f32) (harg8 : arg8.IsWhole) (arg9 : Memref sig .tc .vmem S4096x8 .f32) (harg9 : arg9.IsWhole) (arg10 : Memref sig .tc .vmem S1x8 .f32) (harg10 : arg10.IsWhole) (arg11 : Memref sig .tc .vmem S4096x8 .f32) (harg11 : arg11.IsWhole) (arg12 : Memref sig .tc .vmem S512x8 .bf16) (harg12 : arg12.IsWhole) (hc1 : cond1 (grid0.coords t)) (hc2 : cond2 (grid0.coords t)) (hc3 : ¬cond3 (grid0.coords t)) (hc4 : ¬cond4 (grid0.coords t)) (x1 : Vec F S256x2048 .f32) (x2 : Vec F S256x2048 .f32) (x3 : Vec F S2048x256 .f32) (x4 : Vec F S2048x256 .f32) (x5 : Vec F S4096x8 .f32) (x6 : Vec F S1x8 .f32) (x7 : Vec F S1x4096 .f32) (x8 : Vec F S1x1 .f32) (x9 : Vec F S4096x8 .f32) (x10 : Vec F S1x8 .f32) (x11 : Vec F S4096x8 .f32) (x12 : Vec F S512x8 .bf16) :
    rowsAt (arg12.view.read (Elt F) (arg12.view.writes (Elt F) (harg12.unread x12) (kernelRunB c t arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5 x6 x7 x8 x9 x10 x11 x12).2.1)) (t.val % 2 * 256) (by omega)
      = k0_pay1 x5 x1 x2 := by
  unfold kernelRunB; dsimp only; sl_unfold_run_names
  simp only [readAt_whole2, readAt_upper, readAt_lower, readAt_rows_writes _ _ _ (off1_eq t) (off2_eq t) (by omega) (off_disj t), readAt_rows _ _ _ (off2_eq t) (by omega)]
  exact rows_read_writes (F := F) arg12.view _ (off1_eq t) _ _ _

theorem supC (c : Dev nD) (t : Fin cfg0.N) (arg1 : Memref sig .tc .vmem S256x2048 .f32) (harg1 : arg1.IsWhole) (arg2 : Memref sig .tc .vmem S256x2048 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S4096x8 .f32) (harg5 : arg5.IsWhole) (arg6 : Memref sig .tc .vmem S1x8 .f32) (harg6 : arg6.IsWhole) (arg7 : Memref sig .tc .vmem S1x4096 .f32) (harg7 : arg7.IsWhole) (arg8 : Memref sig .tc .vmem S1x1 .f32) (harg8 : arg8.IsWhole) (arg9 : Memref sig .tc .vmem S4096x8 .f32) (harg9 : arg9.IsWhole) (arg10 : Memref sig .tc .vmem S1x8 .f32) (harg10 : arg10.IsWhole) (arg11 : Memref sig .tc .vmem S4096x8 .f32) (harg11 : arg11.IsWhole) (arg12 : Memref sig .tc .vmem S512x8 .bf16) (harg12 : arg12.IsWhole) (hc1 : cond1 (grid0.coords t)) (hc2 : ¬cond2 (grid0.coords t)) (hc3 : cond3 (grid0.coords t)) (hc4 : ¬cond4 (grid0.coords t)) (x1 : Vec F S256x2048 .f32) (x2 : Vec F S256x2048 .f32) (x3 : Vec F S2048x256 .f32) (x4 : Vec F S2048x256 .f32) (x5 : Vec F S4096x8 .f32) (x6 : Vec F S1x8 .f32) (x7 : Vec F S1x4096 .f32) (x8 : Vec F S1x1 .f32) (x9 : Vec F S4096x8 .f32) (x10 : Vec F S1x8 .f32) (x11 : Vec F S4096x8 .f32) (x12 : Vec F S512x8 .bf16) :
    rowsAt (arg12.view.read (Elt F) (arg12.view.writes (Elt F) (harg12.unread x12) (kernelRunC c t arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5 x6 x7 x8 x9 x10 x11 x12).2.1)) (t.val % 2 * 256) (by omega)
      = k0_pay1 x5 x1 x2 := by
  unfold kernelRunC; dsimp only; sl_unfold_run_names
  simp only [readAt_whole2, readAt_upper, readAt_lower, readAt_rows_writes _ _ _ (off1_eq t) (off2_eq t) (by omega) (off_disj t), readAt_rows _ _ _ (off2_eq t) (by omega)]
  exact rows_read_writes (F := F) arg12.view _ (off1_eq t) _ _ _

theorem accB (c : Dev nD) (t : Fin cfg0.N) (arg1 : Memref sig .tc .vmem S256x2048 .f32) (harg1 : arg1.IsWhole) (arg2 : Memref sig .tc .vmem S256x2048 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S4096x8 .f32) (harg5 : arg5.IsWhole) (arg6 : Memref sig .tc .vmem S1x8 .f32) (harg6 : arg6.IsWhole) (arg7 : Memref sig .tc .vmem S1x4096 .f32) (harg7 : arg7.IsWhole) (arg8 : Memref sig .tc .vmem S1x1 .f32) (harg8 : arg8.IsWhole) (arg9 : Memref sig .tc .vmem S4096x8 .f32) (harg9 : arg9.IsWhole) (arg10 : Memref sig .tc .vmem S1x8 .f32) (harg10 : arg10.IsWhole) (arg11 : Memref sig .tc .vmem S4096x8 .f32) (harg11 : arg11.IsWhole) (arg12 : Memref sig .tc .vmem S512x8 .bf16) (harg12 : arg12.IsWhole) (hc1 : cond1 (grid0.coords t)) (hc2 : cond2 (grid0.coords t)) (hc3 : ¬cond3 (grid0.coords t)) (hc4 : ¬cond4 (grid0.coords t)) (x1 : Vec F S256x2048 .f32) (x2 : Vec F S256x2048 .f32) (x3 : Vec F S2048x256 .f32) (x4 : Vec F S2048x256 .f32) (x5 : Vec F S4096x8 .f32) (x6 : Vec F S1x8 .f32) (x7 : Vec F S1x4096 .f32) (x8 : Vec F S1x1 .f32) (x9 : Vec F S4096x8 .f32) (x10 : Vec F S1x8 .f32) (x11 : Vec F S4096x8 .f32) (x12 : Vec F S512x8 .bf16) :
    arg11.view.read (Elt F) (arg11.view.writes (Elt F) (harg11.unread x11) (kernelRunB c t arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5 x6 x7 x8 x9 x10 x11 x12).1)
      = Spec.stack (k0_pay2 (rowsAt x12 ((t.val + 1) % 2 * 256) (by omega)) x3) (k0_pay3 (rowsAt x12 ((t.val + 1) % 2 * 256) (by omega)) x4) := by
  unfold kernelRunB; dsimp only; sl_unfold_run_names
  simp only [readAt_whole2, readAt_upper, readAt_lower, readAt_rows_writes _ _ _ (off1_eq t) (off2_eq t) (by omega) (off_disj t), readAt_rows _ _ _ (off2_eq t) (by omega)]
  exact read_stack (F := F) arg11.view _ _ _ _ _

theorem accC (c : Dev nD) (t : Fin cfg0.N) (arg1 : Memref sig .tc .vmem S256x2048 .f32) (harg1 : arg1.IsWhole) (arg2 : Memref sig .tc .vmem S256x2048 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S4096x8 .f32) (harg5 : arg5.IsWhole) (arg6 : Memref sig .tc .vmem S1x8 .f32) (harg6 : arg6.IsWhole) (arg7 : Memref sig .tc .vmem S1x4096 .f32) (harg7 : arg7.IsWhole) (arg8 : Memref sig .tc .vmem S1x1 .f32) (harg8 : arg8.IsWhole) (arg9 : Memref sig .tc .vmem S4096x8 .f32) (harg9 : arg9.IsWhole) (arg10 : Memref sig .tc .vmem S1x8 .f32) (harg10 : arg10.IsWhole) (arg11 : Memref sig .tc .vmem S4096x8 .f32) (harg11 : arg11.IsWhole) (arg12 : Memref sig .tc .vmem S512x8 .bf16) (harg12 : arg12.IsWhole) (hc1 : cond1 (grid0.coords t)) (hc2 : ¬cond2 (grid0.coords t)) (hc3 : cond3 (grid0.coords t)) (hc4 : ¬cond4 (grid0.coords t)) (x1 : Vec F S256x2048 .f32) (x2 : Vec F S256x2048 .f32) (x3 : Vec F S2048x256 .f32) (x4 : Vec F S2048x256 .f32) (x5 : Vec F S4096x8 .f32) (x6 : Vec F S1x8 .f32) (x7 : Vec F S1x4096 .f32) (x8 : Vec F S1x1 .f32) (x9 : Vec F S4096x8 .f32) (x10 : Vec F S1x8 .f32) (x11 : Vec F S4096x8 .f32) (x12 : Vec F S512x8 .bf16) :
    arg11.view.read (Elt F) (arg11.view.writes (Elt F) (harg11.unread x11) (kernelRunC c t arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5 x6 x7 x8 x9 x10 x11 x12).1)
      = Spec.stack (k0_pay4 (rowsAt x12 ((t.val + 1) % 2 * 256) (by omega)) (Spec.upper x11) x3) (k0_pay5 (rowsAt x12 ((t.val + 1) % 2 * 256) (by omega)) (Spec.lower x11) x4) := by
  unfold kernelRunC; dsimp only; sl_unfold_run_names
  simp only [readAt_whole2, readAt_upper, readAt_lower, readAt_rows_writes _ _ _ (off1_eq t) (off2_eq t) (by omega) (off_disj t), readAt_rows _ _ _ (off2_eq t) (by omega)]
  exact (read_stack (F := F) arg11.view _ _ _ _ _).trans (stack_congr arg11 harg11 x11 _ x3 x4 _ _)

theorem accD (c : Dev nD) (t : Fin cfg0.N) (arg1 : Memref sig .tc .vmem S256x2048 .f32) (harg1 : arg1.IsWhole) (arg2 : Memref sig .tc .vmem S256x2048 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S4096x8 .f32) (harg5 : arg5.IsWhole) (arg6 : Memref sig .tc .vmem S1x8 .f32) (harg6 : arg6.IsWhole) (arg7 : Memref sig .tc .vmem S1x4096 .f32) (harg7 : arg7.IsWhole) (arg8 : Memref sig .tc .vmem S1x1 .f32) (harg8 : arg8.IsWhole) (arg9 : Memref sig .tc .vmem S4096x8 .f32) (harg9 : arg9.IsWhole) (arg10 : Memref sig .tc .vmem S1x8 .f32) (harg10 : arg10.IsWhole) (arg11 : Memref sig .tc .vmem S4096x8 .f32) (harg11 : arg11.IsWhole) (arg12 : Memref sig .tc .vmem S512x8 .bf16) (harg12 : arg12.IsWhole) (hc1 : ¬cond1 (grid0.coords t)) (hc2 : ¬cond2 (grid0.coords t)) (hc3 : cond3 (grid0.coords t)) (hc4 : cond4 (grid0.coords t)) (x1 : Vec F S256x2048 .f32) (x2 : Vec F S256x2048 .f32) (x3 : Vec F S2048x256 .f32) (x4 : Vec F S2048x256 .f32) (x5 : Vec F S4096x8 .f32) (x6 : Vec F S1x8 .f32) (x7 : Vec F S1x4096 .f32) (x8 : Vec F S1x1 .f32) (x9 : Vec F S4096x8 .f32) (x10 : Vec F S1x8 .f32) (x11 : Vec F S4096x8 .f32) (x12 : Vec F S512x8 .bf16) :
    arg11.view.read (Elt F) (arg11.view.writes (Elt F) (harg11.unread x11) (kernelRunD c t arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5 x6 x7 x8 x9 x10 x11 x12).2.2.1)
      = Spec.stack (k0_pay4 (rowsAt x12 ((t.val + 1) % 2 * 256) (by omega)) (Spec.upper x11) x3) (k0_pay5 (rowsAt x12 ((t.val + 1) % 2 * 256) (by omega)) (Spec.lower x11) x4) := by
  unfold kernelRunD; dsimp only; sl_unfold_run_names
  simp only [readAt_whole2, readAt_upper, readAt_lower, readAt_rows_writes _ _ _ (off1_eq t) (off2_eq t) (by omega) (off_disj t), readAt_rows _ _ _ (off2_eq t) (by omega)]
  exact (read_stack (F := F) arg11.view _ _ _ _ _).trans (stack_congr arg11 harg11 x11 _ x3 x4 _ _)

theorem out8D (c : Dev nD) (t : Fin cfg0.N) (arg1 : Memref sig .tc .vmem S256x2048 .f32) (harg1 : arg1.IsWhole) (arg2 : Memref sig .tc .vmem S256x2048 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S4096x8 .f32) (harg5 : arg5.IsWhole) (arg6 : Memref sig .tc .vmem S1x8 .f32) (harg6 : arg6.IsWhole) (arg7 : Memref sig .tc .vmem S1x4096 .f32) (harg7 : arg7.IsWhole) (arg8 : Memref sig .tc .vmem S1x1 .f32) (harg8 : arg8.IsWhole) (arg9 : Memref sig .tc .vmem S4096x8 .f32) (harg9 : arg9.IsWhole) (arg10 : Memref sig .tc .vmem S1x8 .f32) (harg10 : arg10.IsWhole) (arg11 : Memref sig .tc .vmem S4096x8 .f32) (harg11 : arg11.IsWhole) (arg12 : Memref sig .tc .vmem S512x8 .bf16) (harg12 : arg12.IsWhole) (hc1 : ¬cond1 (grid0.coords t)) (hc2 : ¬cond2 (grid0.coords t)) (hc3 : cond3 (grid0.coords t)) (hc4 : cond4 (grid0.coords t)) (x1 : Vec F S256x2048 .f32) (x2 : Vec F S256x2048 .f32) (x3 : Vec F S2048x256 .f32) (x4 : Vec F S2048x256 .f32) (x5 : Vec F S4096x8 .f32) (x6 : Vec F S1x8 .f32) (x7 : Vec F S1x4096 .f32) (x8 : Vec F S1x1 .f32) (x9 : Vec F S4096x8 .f32) (x10 : Vec F S1x8 .f32) (x11 : Vec F S4096x8 .f32) (x12 : Vec F S512x8 .bf16) :
    arg9.view.read (Elt F) (arg9.view.writes (Elt F) (harg9.unread x9) (kernelRunD c t arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5 x6 x7 x8 x9 x10 x11 x12).1)
      = k0_pay6 (Spec.stack (k0_pay4 (rowsAt x12 ((t.val + 1) % 2 * 256) (by omega)) (Spec.upper x11) x3) (k0_pay5 (rowsAt x12 ((t.val + 1) % 2 * 256) (by omega)) (Spec.lower x11) x4)) x6 := by
  unfold kernelRunD; dsimp only; sl_unfold_run_names
  simp only [readAt_whole2, readAt_upper, readAt_lower, readAt_rows_writes _ _ _ (off1_eq t) (off2_eq t) (by omega) (off_disj t), readAt_rows _ _ _ (off2_eq t) (by omega)]
  refine (read_write_whole2 (F := F) arg9 _ _ _).trans ?_
  refine congrArg (fun z => k0_pay6 z x6) ?_
  exact (readCov_stack (F := F) arg11.view _ _ _ _ _).trans (stack_congr arg11 harg11 x11 _ x3 x4 _ _)

theorem out9D (c : Dev nD) (t : Fin cfg0.N) (arg1 : Memref sig .tc .vmem S256x2048 .f32) (harg1 : arg1.IsWhole) (arg2 : Memref sig .tc .vmem S256x2048 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S4096x8 .f32) (harg5 : arg5.IsWhole) (arg6 : Memref sig .tc .vmem S1x8 .f32) (harg6 : arg6.IsWhole) (arg7 : Memref sig .tc .vmem S1x4096 .f32) (harg7 : arg7.IsWhole) (arg8 : Memref sig .tc .vmem S1x1 .f32) (harg8 : arg8.IsWhole) (arg9 : Memref sig .tc .vmem S4096x8 .f32) (harg9 : arg9.IsWhole) (arg10 : Memref sig .tc .vmem S1x8 .f32) (harg10 : arg10.IsWhole) (arg11 : Memref sig .tc .vmem S4096x8 .f32) (harg11 : arg11.IsWhole) (arg12 : Memref sig .tc .vmem S512x8 .bf16) (harg12 : arg12.IsWhole) (hc1 : ¬cond1 (grid0.coords t)) (hc2 : ¬cond2 (grid0.coords t)) (hc3 : cond3 (grid0.coords t)) (hc4 : cond4 (grid0.coords t)) (x1 : Vec F S256x2048 .f32) (x2 : Vec F S256x2048 .f32) (x3 : Vec F S2048x256 .f32) (x4 : Vec F S2048x256 .f32) (x5 : Vec F S4096x8 .f32) (x6 : Vec F S1x8 .f32) (x7 : Vec F S1x4096 .f32) (x8 : Vec F S1x1 .f32) (x9 : Vec F S4096x8 .f32) (x10 : Vec F S1x8 .f32) (x11 : Vec F S4096x8 .f32) (x12 : Vec F S512x8 .bf16) :
    arg10.view.read (Elt F) (arg10.view.writes (Elt F) (harg10.unread x10) (kernelRunD c t arg1 harg1 arg2 harg2 arg3 harg3 arg4 harg4 arg5 harg5 arg6 harg6 arg7 harg7 arg8 harg8 arg9 harg9 arg10 harg10 arg11 harg11 arg12 harg12 hc1 hc2 hc3 hc4 x1 x2 x3 x4 x5 x6 x7 x8 x9 x10 x11 x12).2.1)
      = k0_pay7 (Spec.stack (k0_pay4 (rowsAt x12 ((t.val + 1) % 2 * 256) (by omega)) (Spec.upper x11) x3) (k0_pay5 (rowsAt x12 ((t.val + 1) % 2 * 256) (by omega)) (Spec.lower x11) x4)) x6 x7 x8 := by
  unfold kernelRunD; dsimp only; sl_unfold_run_names
  simp only [readAt_whole2, readAt_upper, readAt_lower, readAt_rows_writes _ _ _ (off1_eq t) (off2_eq t) (by omega) (off_disj t), readAt_rows _ _ _ (off2_eq t) (by omega)]
  refine (read_write_whole2 (F := F) arg10 _ _ _).trans ?_
  refine congrArg (fun z => k0_pay7 z x6 x7 x8) ?_
  exact (readCov_stack (F := F) arg11.view _ _ _ _ _).trans (stack_congr arg11 harg11 x11 _ x3 x4 _ _)

end Cert.Kernel.Run

end
-- ==== Proof.WKernBlocks.lean ====
/-
  Each input window's block at a grid point is a plain restriction of the argument array it reads.

  A block's coordinate in its array is, on each axis, the block index times the block's size plus the coordinate
  inside the block. The block indices over the 17 grid points are decided once: the two windows of x read row block
  min(t, 15) of the left and of the right 2048 columns; the two windows of adj read column block t - 1 (block 0 at
  point 0) of the upper and of the lower 2048 rows; the four remaining windows are whole arrays at block index (0, 0).
-/
import proofs.«115268_g73873437491479_cont_9to1_m_435_22_alg».proof.Proof.WKernData

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

open Idealize.ShloMosaic.ValueIdx

/-! ## The block indices, decided over the grid -/

theorem idx0 : ∀ t : Fin cfg0.N, win0_0.index t (0 : Fin 2) = min t.val 15 ∧ win0_0.index t (1 : Fin 2) = 0 :=
  (by decide +kernel : ∀ t : Fin grid0.N, win0_0.index t (0 : Fin 2) = min t.val 15 ∧ win0_0.index t (1 : Fin 2) = 0)
theorem idx1 : ∀ t : Fin cfg0.N, win0_1.index t (0 : Fin 2) = min t.val 15 ∧ win0_1.index t (1 : Fin 2) = 1 :=
  (by decide +kernel : ∀ t : Fin grid0.N, win0_1.index t (0 : Fin 2) = min t.val 15 ∧ win0_1.index t (1 : Fin 2) = 1)
theorem idx2 : ∀ t : Fin cfg0.N, win0_2.index t (0 : Fin 2) = 0 ∧ win0_2.index t (1 : Fin 2) = t.val - 1 :=
  (by decide +kernel : ∀ t : Fin grid0.N, win0_2.index t (0 : Fin 2) = 0 ∧ win0_2.index t (1 : Fin 2) = t.val - 1)
theorem idx3 : ∀ t : Fin cfg0.N, win0_3.index t (0 : Fin 2) = 1 ∧ win0_3.index t (1 : Fin 2) = t.val - 1 :=
  (by decide +kernel : ∀ t : Fin grid0.N, win0_3.index t (0 : Fin 2) = 1 ∧ win0_3.index t (1 : Fin 2) = t.val - 1)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

/-- A grid point's predecessor (point 0 its own) numbers one of the sixteen column blocks. -/
theorem pred_lt (t : Fin cfg0.N) : t.val - 1 < 16 := by
  have h : t.val < grid0.N := t.isLt
  rw [N_0] at h
  omega

/-! ## The blocks of x: 256 rows, one half of the columns -/

/-- Window 0 at point `t`: rows of block min(t, 15), the left 2048 columns. -/
theorem blk0 (c : Dev nD) (t : Fin cfg0.N) : iblk m c 0 t = Spec.rowBlk (aX m c) ⟨min t.val 15, by omega⟩ 0 := by
  obtain ⟨e0, e1⟩ := idx0 t
  funext j
  unfold iblk
  rw [View.read_apply]
  show V m c main_arg0 _ = V m c main_arg0 _
  congr 1
  funext a
  apply Fin.ext
  match a with
  | ⟨0, _⟩ => show win0_0.index t (0 : Fin 2) * 256 + 1 * (j 0).val = 256 * min t.val 15 + (j 0).val; rw [e0]; omega
  | ⟨1, _⟩ => show win0_0.index t (1 : Fin 2) * 2048 + 1 * (j 1).val = 2048 * 0 + (j 1).val; rw [e1]; omega

/-- Window 1 at point `t`: rows of block min(t, 15), the right 2048 columns. -/
theorem blk1 (c : Dev nD) (t : Fin cfg0.N) : iblk m c 1 t = Spec.rowBlk (aX m c) ⟨min t.val 15, by omega⟩ 1 := by
  obtain ⟨e0, e1⟩ := idx1 t
  funext j
  unfold iblk
  rw [View.read_apply]
  show V m c main_arg0 _ = V m c main_arg0 _
  congr 1
  funext a
  apply Fin.ext
  match a with
  | ⟨0, _⟩ => show win0_1.index t (0 : Fin 2) * 256 + 1 * (j 0).val = 256 * min t.val 15 + (j 0).val; rw [e0]; omega
  | ⟨1, _⟩ => show win0_1.index t (1 : Fin 2) * 2048 + 1 * (j 1).val = 2048 * 1 + (j 1).val; rw [e1]; omega

/-! ## The blocks of adj: one half of the rows, 256 columns -/

/-- Window 2 at point `t`: the upper 2048 rows, columns of block t - 1 (block 0 at point 0). -/
theorem blk2 (c : Dev nD) (t : Fin cfg0.N) : iblk m c 2 t = Spec.colBlk (aAdj m c) 0 ⟨t.val - 1, pred_lt t⟩ := by
  obtain ⟨e0, e1⟩ := idx2 t
  funext j
  unfold iblk
  rw [View.read_apply]
  show V m c main_arg1 _ = V m c main_arg1 _
  congr 1
  funext a
  apply Fin.ext
  match a with
  | ⟨0, _⟩ => show win0_2.index t (0 : Fin 2) * 2048 + 1 * (j 0).val = 2048 * 0 + (j 0).val; rw [e0]; omega
  | ⟨1, _⟩ => show win0_2.index t (1 : Fin 2) * 256 + 1 * (j 1).val = 256 * (t.val - 1) + (j 1).val; rw [e1]; omega

/-- Window 3 at point `t`: the lower 2048 rows, columns of block t - 1 (block 0 at point 0). -/
theorem blk3 (c : Dev nD) (t : Fin cfg0.N) : iblk m c 3 t = Spec.colBlk (aAdj m c) 1 ⟨t.val - 1, pred_lt t⟩ := by
  obtain ⟨e0, e1⟩ := idx3 t
  funext j
  unfold iblk
  rw [View.read_apply]
  show V m c main_arg1 _ = V m c main_arg1 _
  congr 1
  funext a
  apply Fin.ext
  match a with
  | ⟨0, _⟩ => show win0_3.index t (0 : Fin 2) * 2048 + 1 * (j 0).val = 2048 * 1 + (j 0).val; rw [e0]; omega
  | ⟨1, _⟩ => show win0_3.index t (1 : Fin 2) * 256 + 1 * (j 1).val = 256 * (t.val - 1) + (j 1).val; rw [e1]; omega

/-! ## The whole-array windows -/

/-- Window 4 at every point: all of W. -/
theorem blk4 (c : Dev nD) (t : Fin cfg0.N) : iblk m c 4 t = aW m c := by
  obtain ⟨e0, e1⟩ := idx4 t
  funext j
  unfold iblk
  rw [View.read_apply]
  show V m c main_arg2 _ = V m c main_arg2 j
  congr 1
  funext a
  apply Fin.ext
  match a with
  | ⟨0, _⟩ => show win0_4.index t (0 : Fin 2) * 4096 + 1 * (j 0).val = (j 0).val; rw [e0]; omega
  | ⟨1, _⟩ => show win0_4.index t (1 : Fin 2) * 8 + 1 * (j 1).val = (j 1).val; rw [e1]; omega

/-- Window 5 at every point: all of the bias, as a 1 × 8 array. -/
theorem blk5 (c : Dev nD) (t : Fin cfg0.N) : iblk m c 5 t = aB m c := by
  obtain ⟨e0, e1⟩ := idx5 t
  funext j
  unfold iblk
  rw [View.read_apply]
  show V m c main_call0_v0 _ = V m c main_call0_v0 j
  congr 1
  funext a
  apply Fin.ext
  match a with
  | ⟨0, _⟩ => show win0_5.index t (0 : Fin 2) * 1 + 1 * (j 0).val = (j 0).val; rw [e0]; omega
  | ⟨1, _⟩ => show win0_5.index t (1 : Fin 2) * 8 + 1 * (j 1).val = (j 1).val; rw [e1]; omega

/-- Window 6 at every point: all of W_lin. -/
theorem blk6 (c : Dev nD) (t : Fin cfg0.N) : iblk m c 6 t = aWl m c := by
  obtain ⟨e0, e1⟩ := idx6 t
  funext j
  unfold iblk
  rw [View.read_apply]
  show V m c main_arg4 _ = V m c main_arg4 j
  congr 1
  funext a
  apply Fin.ext
  match a with
  | ⟨0, _⟩ => show win0_6.index t (0 : Fin 2) * 1 + 1 * (j 0).val = (j 0).val; rw [e0]; omega
  | ⟨1, _⟩ => show win0_6.index t (1 : Fin 2) * 4096 + 1 * (j 1).val = (j 1).val; rw [e1]; omega

/-- Window 7 at every point: the bias of the readout, as a 1 × 1 array. -/
theorem blk7 (c : Dev nD) (t : Fin cfg0.N) : iblk m c 7 t = aBl m c := by
  obtain ⟨e0, e1⟩ := idx7 t
  funext j
  unfold iblk
  rw [View.read_apply]
  show V m c main_call0_v1 _ = V m c main_call0_v1 j
  congr 1
  funext a
  apply Fin.ext
  match a with
  | ⟨0, _⟩ => show win0_7.index t (0 : Fin 2) * 1 + 1 * (j 0).val = (j 0).val; rw [e0]; omega
  | ⟨1, _⟩ => show win0_7.index t (1 : Fin 2) * 1 + 1 * (j 1).val = (j 1).val; rw [e1]; omega

end Cert.Kernel.Run

end
-- ==== Proof.WKernBody.lean ====
/-
  The body obligation of the streaming kernel's pipeline: at every grid point the body, handed the inputs' blocks and
  the two scratch buffers as the invariant describes them, runs and hands back the scratch buffers as the invariant
  describes them one point later — the new block of x · W in its slot, the accumulator with one more column block's
  product — and, at the last point, the two result windows at the specification's values.
-/
import proofs.«115268_g73873437491479_cont_9to1_m_435_22_alg».proof.Proof.WKernStep
import proofs.«115268_g73873437491479_cont_9to1_m_435_22_alg».proof.Proof.WKernBlocks

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-! ## The invariant, one point later -/

theorem hN (t : Fin cfg0.N) : t.val < 17 := lt_of_lt_of_eq t.isLt N_0

/-- The block of x · W formed at point `t < 16` is the one the invariant expects in slot `t mod 2` before point `t + 1`. -/
theorem inv_sup (c : Dev nD) (t : Fin cfg0.N) (ht : t.val < 16) (s' : Vec F S512x8 .bf16)
    (h : rowsAt s' (t.val % 2 * 256) (by omega) = k0_pay1 (iblk m c 4 t) (iblk m c 0 t) (iblk m c 1 t)) :
    ∀ hh : 1 ≤ t.val + 1 ∧ t.val + 1 ≤ 16,
      slot s' ⟨(t.val + 1 - 1) % 2, Nat.mod_lt _ (by decide)⟩ = Spec.support (aX m c) (aW m c) ⟨t.val + 1 - 1, by omega⟩ := by
  intro hh
  have e1 : (⟨(t.val + 1 - 1) % 2, Nat.mod_lt _ (by decide)⟩ : Fin 2) = ⟨t.val % 2, Nat.mod_lt _ (by decide)⟩ := Fin.ext (by simp)
  have e2 : (⟨t.val + 1 - 1, by omega⟩ : Fin 16) = ⟨min t.val 15, by omega⟩ := Fin.ext (by simp; omega)
  rw [e1, e2, ← rowsAt_eq_slot s' ⟨t.val % 2, Nat.mod_lt _ (by decide)⟩ (t.val % 2 * 256) (by omega) rfl, h, blk4, blk0, blk1]
  rfl

/-- The slot read at point `t ≥ 1` holds block `t - 1` of x · W. -/
theorem inv_read (c : Dev nD) (t : Fin cfg0.N) (ht : 1 ≤ t.val) (a : Vec F S4096x8 .f32) (s : Vec F S512x8 .bf16)
    (hinv : Inv m c t.val a s) :
    rowsAt s ((t.val + 1) % 2 * 256) (by omega) = Spec.support (aX m c) (aW m c) ⟨t.val - 1, pred_lt t⟩ := by
  have := hN t
  have hs' := hinv.2 ⟨ht, by omega⟩
  rw [← hs']
  exact rowsAt_eq_slot s _ _ _ (by show (t.val + 1) % 2 * 256 = (t.val - 1) % 2 * 256; omega)

/-- The accumulator after point `t ≥ 2`: one more column block's product added. -/
theorem inv_acc (c : Dev nD) (t : Fin cfg0.N) (ht : 2 ≤ t.val) (a : Vec F S4096x8 .f32) (s : Vec F S512x8 .bf16)
    (hinv : Inv m c t.val a s) :
    Spec.stack (k0_pay4 (rowsAt s ((t.val + 1) % 2 * 256) (by omega)) (Spec.upper a) (iblk m c 2 t))
               (k0_pay5 (rowsAt s ((t.val + 1) % 2 * 256) (by omega)) (Spec.lower a) (iblk m c 3 t))
      = Spec.acc (aX m c) (aAdj m c) (aW m c) (t.val + 1 - 2) := by
  have := hN t
  rw [inv_read m c t (by omega) a s hinv, hinv.1 ht, blk2, blk3]
  obtain ⟨k, hk⟩ : ∃ k, t.val = k + 2 := ⟨t.val - 2, by omega⟩
  have e2 : t.val + 1 - 2 = k + 1 := by omega
  have e3 : t.val - 2 = k := by omega
  have e4 : (⟨t.val - 1, pred_lt t⟩ : Fin 16) = ⟨k + 1, by omega⟩ := Fin.ext (by show t.val - 1 = k + 1; omega)
  rw [e2, e3, e4]
  conv_rhs => rw [Spec.acc]
  rw [dif_pos (by omega : k + 1 < 16)]

/-- The accumulator after point 1: the first column block's product. -/
theorem inv_acc1 (c : Dev nD) (t : Fin cfg0.N) (ht : t.val = 1) (a : Vec F S4096x8 .f32) (s : Vec F S512x8 .bf16)
    (hinv : Inv m c t.val a s) :
    Spec.stack (k0_pay2 (rowsAt s ((t.val + 1) % 2 * 256) (by omega)) (iblk m c 2 t))
               (k0_pay3 (rowsAt s ((t.val + 1) % 2 * 256) (by omega)) (iblk m c 3 t))
      = Spec.acc (aX m c) (aAdj m c) (aW m c) (t.val + 1 - 2) := by
  rw [inv_read m c t (by omega) a s hinv, blk2, blk3]
  have e2 : t.val + 1 - 2 = 0 := by omega
  have e4 : (⟨t.val - 1, pred_lt t⟩ : Fin 16) = 0 := Fin.ext (by show t.val - 1 = 0; omega)
  rw [e2, e4]
  rfl

theorem invA (c : Dev nD) (t : Fin cfg0.N) (ht : t.val = 0) (a : Vec F S4096x8 .f32) (s : Vec F S512x8 .bf16)
    (hinv : Inv m c t.val a s) (d8) (d9) :
    Inv m c (t.val + 1) a (scM1.view.read (Elt F) (scM1.view.writes (Elt F) ((Memref.isWhole_whole _).unread s) (kernelRunA c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) ((hcond1 t).mpr (by omega)) (fun h => absurd ((hcond2 t).mp h) (by omega)) (fun h => absurd ((hcond3 t).mp h) (by omega)) (fun h => absurd ((hcond4 t).mp h) (by omega)) (iblk m c 0 t) (iblk m c 1 t) (iblk m c 2 t) (iblk m c 3 t) (iblk m c 4 t) (iblk m c 5 t) (iblk m c 6 t) (iblk m c 7 t) ((dats m 0 c).before 8 t d8) ((dats m 0 c).before 9 t d9) a s).1)) :=
  ⟨fun h => absurd h (by omega), inv_sup m c t (by omega) _ (supA c t _ _ _ _ _ _ _ _ _ _ _ _ _ _ _ _ _ _ _ _ _ _ _ _ _ _ _ _ _ _ _ _ _ _ _ _ _ _ _ _)⟩

theorem invB (c : Dev nD) (t : Fin cfg0.N) (ht : t.val = 1) (a : Vec F S4096x8 .f32) (s : Vec F S512x8 .bf16)
    (hinv : Inv m c t.val a s) (d8) (d9) :
    Inv m c (t.val + 1) (scM0.view.read (Elt F) (scM0.view.writes (Elt F) ((Memref.isWhole_whole _).unread a) (kernelRunB c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) ((hcond1 t).mpr (by omega)) ((hcond2 t).mpr (by omega)) (fun h => absurd ((hcond3 t).mp h) (by omega)) (fun h => absurd ((hcond4 t).mp h) (by omega)) (iblk m c 0 t) (iblk m c 1 t) (iblk m c 2 t) (iblk m c 3 t) (iblk m c 4 t) (iblk m c 5 t) (iblk m c 6 t) (iblk m c 7 t) ((dats m 0 c).before 8 t d8) ((dats m 0 c).before 9 t d9) a s).1))
      (scM1.view.read (Elt F) (scM1.view.writes (Elt F) ((Memref.isWhole_whole _).unread s) (kernelRunB c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) ((hcond1 t).mpr (by omega)) ((hcond2 t).mpr (by omega)) (fun h => absurd ((hcond3 t).mp h) (by omega)) (fun h => absurd ((hcond4 t).mp h) (by omega)) (iblk m c 0 t) (iblk m c 1 t) (iblk m c 2 t) (iblk m c 3 t) (iblk m c 4 t) (iblk m c 5 t) (iblk m c 6 t) (iblk m c 7 t) ((dats m 0 c).before 8 t d8) ((dats m 0 c).before 9 t d9) a s).2.1)) :=
  ⟨fun _ => (accB c t _ _ _ _ _ _ _ _ _ _ _ _ _ _ _ _ _ _ _ _ _ _ _ _ _ _ _ _ _ _ _ _ _ _ _ _ _ _ _ _).trans (inv_acc1 m c t ht a s hinv),
   inv_sup m c t (by omega) _ (supB c t _ _ _ _ _ _ _ _ _ _ _ _ _ _ _ _ _ _ _ _ _ _ _ _ _ _ _ _ _ _ _ _ _ _ _ _ _ _ _ _)⟩

theorem invC (c : Dev nD) (t : Fin cfg0.N) (ht : 2 ≤ t.val ∧ t.val ≤ 15) (a : Vec F S4096x8 .f32) (s : Vec F S512x8 .bf16)
    (hinv : Inv m c t.val a s) (d8) (d9) :
    Inv m c (t.val + 1) (scM0.view.read (Elt F) (scM0.view.writes (Elt F) ((Memref.isWhole_whole _).unread a) (kernelRunC c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) ((hcond1 t).mpr (by omega)) (fun h => absurd ((hcond2 t).mp h) (by omega)) ((hcond3 t).mpr (by omega)) (fun h => absurd ((hcond4 t).mp h) (by omega)) (iblk m c 0 t) (iblk m c 1 t) (iblk m c 2 t) (iblk m c 3 t) (iblk m c 4 t) (iblk m c 5 t) (iblk m c 6 t) (iblk m c 7 t) ((dats m 0 c).before 8 t d8) ((dats m 0 c).before 9 t d9) a s).1))
      (scM1.view.read (Elt F) (scM1.view.writes (Elt F) ((Memref.isWhole_whole _).unread s) (kernelRunC c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) ((hcond1 t).mpr (by omega)) (fun h => absurd ((hcond2 t).mp h) (by omega)) ((hcond3 t).mpr (by omega)) (fun h => absurd ((hcond4 t).mp h) (by omega)) (iblk m c 0 t) (iblk m c 1 t) (iblk m c 2 t) (iblk m c 3 t) (iblk m c 4 t) (iblk m c 5 t) (iblk m c 6 t) (iblk m c 7 t) ((dats m 0 c).before 8 t d8) ((dats m 0 c).before 9 t d9) a s).2.1)) :=
  ⟨fun _ => (accC c t _ _ _ _ _ _ _ _ _ _ _ _ _ _ _ _ _ _ _ _ _ _ _ _ _ _ _ _ _ _ _ _ _ _ _ _ _ _ _ _).trans (inv_acc m c t ht.1 a s hinv),
   inv_sup m c t (by omega) _ (supC c t _ _ _ _ _ _ _ _ _ _ _ _ _ _ _ _ _ _ _ _ _ _ _ _ _ _ _ _ _ _ _ _ _ _ _ _ _ _ _ _)⟩

theorem invD (c : Dev nD) (t : Fin cfg0.N) (ht : t.val = 16) (a : Vec F S4096x8 .f32) (s : Vec F S512x8 .bf16)
    (hinv : Inv m c t.val a s) (d8) (d9) :
    Inv m c (t.val + 1) (scM0.view.read (Elt F) (scM0.view.writes (Elt F) ((Memref.isWhole_whole _).unread a) (kernelRunD c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) (fun h => absurd ((hcond1 t).mp h) (by omega)) (fun h => absurd ((hcond2 t).mp h) (by omega)) ((hcond3 t).mpr (by omega)) ((hcond4 t).mpr (by omega)) (iblk m c 0 t) (iblk m c 1 t) (iblk m c 2 t) (iblk m c 3 t) (iblk m c 4 t) (iblk m c 5 t) (iblk m c 6 t) (iblk m c 7 t) ((dats m 0 c).before 8 t d8) ((dats m 0 c).before 9 t d9) a s).2.2.1)) s :=
  ⟨fun _ => (accD c t _ _ _ _ _ _ _ _ _ _ _ _ _ _ _ _ _ _ _ _ _ _ _ _ _ _ _ _ _ _ _ _ _ _ _ _ _ _ _ _).trans (inv_acc m c t (by omega) a s hinv),
   fun hh => absurd hh.2 (by omega)⟩

/-- At the last point the first result window receives the specification's first result, -/
theorem out8_final (c : Dev nD) (t : Fin cfg0.N) (ht : t.val = 16) (a : Vec F S4096x8 .f32) (s : Vec F S512x8 .bf16)
    (hinv : Inv m c t.val a s) (d8) (d9) :
    (ms8 t).view.read (Elt F) ((ms8 t).view.writes (Elt F) ((hs8 t).unread ((dats m 0 c).before 8 t d8)) (kernelRunD c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) (fun h => absurd ((hcond1 t).mp h) (by omega)) (fun h => absurd ((hcond2 t).mp h) (by omega)) ((hcond3 t).mpr (by omega)) ((hcond4 t).mpr (by omega)) (iblk m c 0 t) (iblk m c 1 t) (iblk m c 2 t) (iblk m c 3 t) (iblk m c 4 t) (iblk m c 5 t) (iblk m c 6 t) (iblk m c 7 t) ((dats m 0 c).before 8 t d8) ((dats m 0 c).before 9 t d9) a s).1)
      = (dats m 0 c).after 8 t := by
  rw [after8]
  refine (out8D c t _ _ _ _ _ _ _ _ _ _ _ _ _ _ _ _ _ _ _ _ _ _ _ _ _ _ _ _ _ _ _ _ _ _ _ _ _ _ _ _).trans ?_
  rw [inv_acc m c t (by omega) a s hinv, blk5]
  have e : t.val + 1 - 2 = 15 := by omega
  rw [e]; rfl

/-- and the second result window the second. -/
theorem out9_final (c : Dev nD) (t : Fin cfg0.N) (ht : t.val = 16) (a : Vec F S4096x8 .f32) (s : Vec F S512x8 .bf16)
    (hinv : Inv m c t.val a s) (d8) (d9) :
    (ms9 t).view.read (Elt F) ((ms9 t).view.writes (Elt F) ((hs9 t).unread ((dats m 0 c).before 9 t d9)) (kernelRunD c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) (fun h => absurd ((hcond1 t).mp h) (by omega)) (fun h => absurd ((hcond2 t).mp h) (by omega)) ((hcond3 t).mpr (by omega)) ((hcond4 t).mpr (by omega)) (iblk m c 0 t) (iblk m c 1 t) (iblk m c 2 t) (iblk m c 3 t) (iblk m c 4 t) (iblk m c 5 t) (iblk m c 6 t) (iblk m c 7 t) ((dats m 0 c).before 8 t d8) ((dats m 0 c).before 9 t d9) a s).2.1)
      = (dats m 0 c).after 9 t := by
  rw [after9]
  refine (out9D c t _ _ _ _ _ _ _ _ _ _ _ _ _ _ _ _ _ _ _ _ _ _ _ _ _ _ _ _ _ _ _ _ _ _ _ _ _ _ _ _).trans ?_
  rw [inv_acc m c t (by omega) a s hinv, blk5, blk6, blk7]
  have e : t.val + 1 - 2 = 15 := by omega
  rw [e]; rfl

/-! ## The body at a generic point -/

theorem leaveIn0 (c : Dev nD) (t : Fin cfg0.N) :
    (dats m 0 c).leavesExact 0 t = owns (c : Thread nD τ) (ms0 t) fullShare (iblk m c 0 t) := by
  unfold Dat.leavesExact; rw [liveIn 0 t (by decide), after0]
theorem leaveIn1 (c : Dev nD) (t : Fin cfg0.N) :
    (dats m 0 c).leavesExact 1 t = owns (c : Thread nD τ) (ms1 t) fullShare (iblk m c 1 t) := by
  unfold Dat.leavesExact; rw [liveIn 1 t (by decide), after1]
theorem leaveIn2 (c : Dev nD) (t : Fin cfg0.N) :
    (dats m 0 c).leavesExact 2 t = owns (c : Thread nD τ) (ms2 t) fullShare (iblk m c 2 t) := by
  unfold Dat.leavesExact; rw [liveIn 2 t (by decide), after2]
theorem leaveIn3 (c : Dev nD) (t : Fin cfg0.N) :
    (dats m 0 c).leavesExact 3 t = owns (c : Thread nD τ) (ms3 t) fullShare (iblk m c 3 t) := by
  unfold Dat.leavesExact; rw [liveIn 3 t (by decide), after3]
theorem leaveIn4 (c : Dev nD) (t : Fin cfg0.N) :
    (dats m 0 c).leavesExact 4 t = owns (c : Thread nD τ) (ms4 t) fullShare (iblk m c 4 t) := by
  unfold Dat.leavesExact; rw [liveIn 4 t (by decide), after4]
theorem leaveIn5 (c : Dev nD) (t : Fin cfg0.N) :
    (dats m 0 c).leavesExact 5 t = owns (c : Thread nD τ) (ms5 t) fullShare (iblk m c 5 t) := by
  unfold Dat.leavesExact; rw [liveIn 5 t (by decide), after5]
theorem leaveIn6 (c : Dev nD) (t : Fin cfg0.N) :
    (dats m 0 c).leavesExact 6 t = owns (c : Thread nD τ) (ms6 t) fullShare (iblk m c 6 t) := by
  unfold Dat.leavesExact; rw [liveIn 6 t (by decide), after6]
theorem leaveIn7 (c : Dev nD) (t : Fin cfg0.N) :
    (dats m 0 c).leavesExact 7 t = owns (c : Thread nD τ) (ms7 t) fullShare (iblk m c 7 t) := by
  unfold Dat.leavesExact; rw [liveIn 7 t (by decide), after7]

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t)

set_option maxHeartbeats 4800000 in
theorem sound_A (c : Dev nD) (t : Fin cfg0.N) (ht : t.val = 0) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rewrite [show (dats m 0 c).owesAt () t.succ = (dats m 0 c).owesAt () t.castSucc from rfl]
  rewrite [show (dats m 0 c).Φ t.succ = PhiS m c (t.val + 1) from rfl, show (dats m 0 c).Φ t.castSucc = PhiS m c t.val from rfl]
  rewrite [leaveIn0, leaveIn1, leaveIn2, leaveIn3, leaveIn4, leaveIn5, leaveIn6, leaveIn7]
  have hN := hN t
  unfold PhiS
  rewrite [Dat.leavesExact_idle (dats m 0 c) 8 t (idleOut8 t (by omega)) (noFlush8 t (by omega)), Dat.leavesExact_idle (dats m 0 c) 9 t (idleOut9 t (by omega)) (noFlush9 t (by omega))]
  iintro ⟨⟨%a, %s, %hinv, HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRunA c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) ((hcond1 t).mpr (by omega)) (fun h => absurd ((hcond2 t).mp h) (by omega)) (fun h => absurd ((hcond3 t).mp h) (by omega)) (fun h => absurd ((hcond4 t).mp h) (by omega)) (iblk m c 0 t) (iblk m c 1 t) (iblk m c 2 t) (iblk m c 3 t) (iblk m c 4 t) (iblk m c 5 t) (iblk m c 6 t) (iblk m c 7 t) ((dats m 0 c).before 8 t d8) ((dats m 0 c).before 9 t d9) a s).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  iintro ⟨H0, H1, H2, H3, H4, H5, H6, H7, H8, H9, HS0, HS1⟩
  isplitl [HS0 HS1]
  · iexists a, (scM1.view.read (Elt F) (scM1.view.writes (Elt F) ((Memref.isWhole_whole _).unread s) (kernelRunA c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) ((hcond1 t).mpr (by omega)) (fun h => absurd ((hcond2 t).mp h) (by omega)) (fun h => absurd ((hcond3 t).mp h) (by omega)) (fun h => absurd ((hcond4 t).mp h) (by omega)) (iblk m c 0 t) (iblk m c 1 t) (iblk m c 2 t) (iblk m c 3 t) (iblk m c 4 t) (iblk m c 5 t) (iblk m c 6 t) (iblk m c 7 t) ((dats m 0 c).before 8 t d8) ((dats m 0 c).before 9 t d9) a s).1))
    isplitr
    · ipureintro; exact invA m c t ht a s hinv _ _
    isplitl [HS0]
    · iexact HS0
    unfold owns; iexists _; isplitr; · ipureintro; rfl
    iexact HS1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists d8; iexact H8
  iexists d9; iexact H9

set_option maxHeartbeats 4800000 in
theorem sound_B (c : Dev nD) (t : Fin cfg0.N) (ht : t.val = 1) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rewrite [show (dats m 0 c).owesAt () t.succ = (dats m 0 c).owesAt () t.castSucc from rfl]
  rewrite [show (dats m 0 c).Φ t.succ = PhiS m c (t.val + 1) from rfl, show (dats m 0 c).Φ t.castSucc = PhiS m c t.val from rfl]
  rewrite [leaveIn0, leaveIn1, leaveIn2, leaveIn3, leaveIn4, leaveIn5, leaveIn6, leaveIn7]
  have hN := hN t
  unfold PhiS
  rewrite [Dat.leavesExact_idle (dats m 0 c) 8 t (idleOut8 t (by omega)) (noFlush8 t (by omega)), Dat.leavesExact_idle (dats m 0 c) 9 t (idleOut9 t (by omega)) (noFlush9 t (by omega))]
  iintro ⟨⟨%a, %s, %hinv, HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRunB c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) ((hcond1 t).mpr (by omega)) ((hcond2 t).mpr (by omega)) (fun h => absurd ((hcond3 t).mp h) (by omega)) (fun h => absurd ((hcond4 t).mp h) (by omega)) (iblk m c 0 t) (iblk m c 1 t) (iblk m c 2 t) (iblk m c 3 t) (iblk m c 4 t) (iblk m c 5 t) (iblk m c 6 t) (iblk m c 7 t) ((dats m 0 c).before 8 t d8) ((dats m 0 c).before 9 t d9) a s).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  iintro ⟨H0, H1, H2, H3, H4, H5, H6, H7, H8, H9, HS0, HS1⟩
  isplitl [HS0 HS1]
  · iexists (scM0.view.read (Elt F) (scM0.view.writes (Elt F) ((Memref.isWhole_whole _).unread a) (kernelRunB c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) ((hcond1 t).mpr (by omega)) ((hcond2 t).mpr (by omega)) (fun h => absurd ((hcond3 t).mp h) (by omega)) (fun h => absurd ((hcond4 t).mp h) (by omega)) (iblk m c 0 t) (iblk m c 1 t) (iblk m c 2 t) (iblk m c 3 t) (iblk m c 4 t) (iblk m c 5 t) (iblk m c 6 t) (iblk m c 7 t) ((dats m 0 c).before 8 t d8) ((dats m 0 c).before 9 t d9) a s).1)), (scM1.view.read (Elt F) (scM1.view.writes (Elt F) ((Memref.isWhole_whole _).unread s) (kernelRunB c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) ((hcond1 t).mpr (by omega)) ((hcond2 t).mpr (by omega)) (fun h => absurd ((hcond3 t).mp h) (by omega)) (fun h => absurd ((hcond4 t).mp h) (by omega)) (iblk m c 0 t) (iblk m c 1 t) (iblk m c 2 t) (iblk m c 3 t) (iblk m c 4 t) (iblk m c 5 t) (iblk m c 6 t) (iblk m c 7 t) ((dats m 0 c).before 8 t d8) ((dats m 0 c).before 9 t d9) a s).2.1))
    isplitr
    · ipureintro; exact invB m c t ht a s hinv _ _
    isplitl [HS0]
    · unfold owns; iexists _; isplitr; · ipureintro; rfl
      iexact HS0
    unfold owns; iexists _; isplitr; · ipureintro; rfl
    iexact HS1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists d8; iexact H8
  iexists d9; iexact H9

set_option maxHeartbeats 4800000 in
theorem sound_C (c : Dev nD) (t : Fin cfg0.N) (ht : 2 ≤ t.val ∧ t.val ≤ 15) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rewrite [show (dats m 0 c).owesAt () t.succ = (dats m 0 c).owesAt () t.castSucc from rfl]
  rewrite [show (dats m 0 c).Φ t.succ = PhiS m c (t.val + 1) from rfl, show (dats m 0 c).Φ t.castSucc = PhiS m c t.val from rfl]
  rewrite [leaveIn0, leaveIn1, leaveIn2, leaveIn3, leaveIn4, leaveIn5, leaveIn6, leaveIn7]
  have hN := hN t
  unfold PhiS
  rewrite [Dat.leavesExact_idle (dats m 0 c) 8 t (idleOut8 t (by omega)) (noFlush8 t (by omega)), Dat.leavesExact_idle (dats m 0 c) 9 t (idleOut9 t (by omega)) (noFlush9 t (by omega))]
  iintro ⟨⟨%a, %s, %hinv, HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRunC c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) ((hcond1 t).mpr (by omega)) (fun h => absurd ((hcond2 t).mp h) (by omega)) ((hcond3 t).mpr (by omega)) (fun h => absurd ((hcond4 t).mp h) (by omega)) (iblk m c 0 t) (iblk m c 1 t) (iblk m c 2 t) (iblk m c 3 t) (iblk m c 4 t) (iblk m c 5 t) (iblk m c 6 t) (iblk m c 7 t) ((dats m 0 c).before 8 t d8) ((dats m 0 c).before 9 t d9) a s).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  iintro ⟨H0, H1, H2, H3, H4, H5, H6, H7, H8, H9, HS0, HS1⟩
  isplitl [HS0 HS1]
  · iexists (scM0.view.read (Elt F) (scM0.view.writes (Elt F) ((Memref.isWhole_whole _).unread a) (kernelRunC c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) ((hcond1 t).mpr (by omega)) (fun h => absurd ((hcond2 t).mp h) (by omega)) ((hcond3 t).mpr (by omega)) (fun h => absurd ((hcond4 t).mp h) (by omega)) (iblk m c 0 t) (iblk m c 1 t) (iblk m c 2 t) (iblk m c 3 t) (iblk m c 4 t) (iblk m c 5 t) (iblk m c 6 t) (iblk m c 7 t) ((dats m 0 c).before 8 t d8) ((dats m 0 c).before 9 t d9) a s).1)), (scM1.view.read (Elt F) (scM1.view.writes (Elt F) ((Memref.isWhole_whole _).unread s) (kernelRunC c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) ((hcond1 t).mpr (by omega)) (fun h => absurd ((hcond2 t).mp h) (by omega)) ((hcond3 t).mpr (by omega)) (fun h => absurd ((hcond4 t).mp h) (by omega)) (iblk m c 0 t) (iblk m c 1 t) (iblk m c 2 t) (iblk m c 3 t) (iblk m c 4 t) (iblk m c 5 t) (iblk m c 6 t) (iblk m c 7 t) ((dats m 0 c).before 8 t d8) ((dats m 0 c).before 9 t d9) a s).2.1))
    isplitr
    · ipureintro; exact invC m c t ht a s hinv _ _
    isplitl [HS0]
    · unfold owns; iexists _; isplitr; · ipureintro; rfl
      iexact HS0
    unfold owns; iexists _; isplitr; · ipureintro; rfl
    iexact HS1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists d8; iexact H8
  iexists d9; iexact H9

set_option maxHeartbeats 4800000 in
theorem sound_D (c : Dev nD) (t : Fin cfg0.N) (ht : t.val = 16) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rewrite [show (dats m 0 c).owesAt () t.succ = (dats m 0 c).owesAt () t.castSucc from rfl]
  rewrite [show (dats m 0 c).Φ t.succ = PhiS m c (t.val + 1) from rfl, show (dats m 0 c).Φ t.castSucc = PhiS m c t.val from rfl]
  rewrite [leaveIn0, leaveIn1, leaveIn2, leaveIn3, leaveIn4, leaveIn5, leaveIn6, leaveIn7]
  have hN := hN t
  unfold PhiS
  rewrite [show (dats m 0 c).leavesExact 8 t = owns (c : Thread nD τ) (ms8 t) fullShare ((dats m 0 c).after 8 t) from by
    unfold Dat.leavesExact; rw [liveOut8 t ht], show (dats m 0 c).leavesExact 9 t = owns (c : Thread nD τ) (ms9 t) fullShare ((dats m 0 c).after 9 t) from by
    unfold Dat.leavesExact; rw [liveOut9 t ht]]
  iintro ⟨⟨%a, %s, %hinv, HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRunD c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) (fun h => absurd ((hcond1 t).mp h) (by omega)) (fun h => absurd ((hcond2 t).mp h) (by omega)) ((hcond3 t).mpr (by omega)) ((hcond4 t).mpr (by omega)) (iblk m c 0 t) (iblk m c 1 t) (iblk m c 2 t) (iblk m c 3 t) (iblk m c 4 t) (iblk m c 5 t) (iblk m c 6 t) (iblk m c 7 t) ((dats m 0 c).before 8 t d8) ((dats m 0 c).before 9 t d9) a s).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  iintro ⟨H0, H1, H2, H3, H4, H5, H6, H7, H8, H9, HS0, HS1⟩
  isplitl [HS0 HS1]
  · iexists (scM0.view.read (Elt F) (scM0.view.writes (Elt F) ((Memref.isWhole_whole _).unread a) (kernelRunD c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) (fun h => absurd ((hcond1 t).mp h) (by omega)) (fun h => absurd ((hcond2 t).mp h) (by omega)) ((hcond3 t).mpr (by omega)) ((hcond4 t).mpr (by omega)) (iblk m c 0 t) (iblk m c 1 t) (iblk m c 2 t) (iblk m c 3 t) (iblk m c 4 t) (iblk m c 5 t) (iblk m c 6 t) (iblk m c 7 t) ((dats m 0 c).before 8 t d8) ((dats m 0 c).before 9 t d9) a s).2.2.1)), s
    isplitr
    · ipureintro; exact invD m c t ht a s hinv _ _
    isplitl [HS0]
    · unfold owns; iexists _; isplitr; · ipureintro; rfl
      iexact HS0
    iexact HS1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr; swap; · iexact H8
    ipureintro; exact out8_final m c t ht a s hinv _ _
  unfold owns; iexists _; isplitr; swap; · iexact H9
  ipureintro; exact out9_final m c t ht a s hinv _ _

/-- The body at any point. -/
theorem sound_body (c : Dev nD) (t : Fin cfg0.N) :
    bodyPre m c t ⊢ wp frame (wpE (defs₀ (F := F)) Variants.none c none) Set.univ (bodyAt0 t) (fun _ => bodyPost m c t) := by
  have hN := hN t
  by_cases h0 : t.val = 0
  · exact sound_A m c t h0
  by_cases h1 : t.val = 1
  · exact sound_B m c t h1
  by_cases h16 : t.val = 16
  · exact sound_D m c t h16
  exact sound_C m c t ⟨by omega, by omega⟩

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Run

end
-- ==== Proof.WKernLaunch.lean ====
/-
  The launch of the streaming kernel's region, and what the run leaves.

  The arrays x and adj, each read through two windows, are split into two half shares at entry. The region is handed the
  two scratch buffers at any contents (the invariant before the first point) and gives them back after the last.
  Every weakly fair execution then terminates with each window's array at what the proof data computes: the inputs
  unchanged, the two results at the specification's values; the two biases, which bypass the region, unchanged.
-/
import proofs.«115268_g73873437491479_cont_9to1_m_435_22_alg».proof.Proof.WKernData

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at entry: x and adj split between the two windows that read them -/

theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [show (bigSep Finset.univ fun w : Fin cfg0.W => ((cfg0.win w).arr.view.loc (c.tc : Thread nD τ) ↦[(cfg0.win w).arr.view.set]{(dats m 0 c).share w} (dats m 0 c).arrAt w 0 : sProp 𝕄))
        = bigSep Finset.univ fun w : Fin cfg0.W => (((c.tc : Thread nD τ).loc (Pipeline.arrRef spec0 w)) ↦{(dats m 0 c).share w} (dats m 0 c).arrAt w 0 : sProp 𝕄)
      from bigSep_congr fun w _ => by rw [(arr_whole0 w).set_eq_univ]]
  rw [bigSep_eq_bigSepL_of_eq [main_arg0, main_arg1, main_arg2, main_call0_v0, main_arg4, main_call0_v1, main_v0_1, main_v0_0] (by decide) (by decide), bigSep_W0]
  simp only [bigSepL_cons_cons, bigSepL_singleton]
  show iprop((((c.tc : Thread nD τ).loc main_arg0) ↦{fullShare} V m c main_arg0)
      ∗ (((c.tc : Thread nD τ).loc main_arg1) ↦{fullShare} V m c main_arg1)
      ∗ (((c.tc : Thread nD τ).loc main_arg2) ↦{fullShare} V m c main_arg2)
      ∗ (((c.tc : Thread nD τ).loc main_call0_v0) ↦{fullShare} V m c main_call0_v0)
      ∗ (((c.tc : Thread nD τ).loc main_arg4) ↦{fullShare} V m c main_arg4)
      ∗ (((c.tc : Thread nD τ).loc main_call0_v1) ↦{fullShare} V m c main_call0_v1)
      ∗ (((c.tc : Thread nD τ).loc main_v0_1) ↦{fullShare} V m c main_v0_1)
      ∗ (((c.tc : Thread nD τ).loc main_v0_0) ↦{fullShare} V m c main_v0_0))
    ⊢ iprop((((c.tc : Thread nD τ).loc main_arg0) ↦{fullShare.left} V m c main_arg0)
      ∗ (((c.tc : Thread nD τ).loc main_arg0) ↦{fullShare.right} V m c main_arg0)
      ∗ (((c.tc : Thread nD τ).loc main_arg1) ↦{fullShare.left} V m c main_arg1)
      ∗ (((c.tc : Thread nD τ).loc main_arg1) ↦{fullShare.right} V m c main_arg1)
      ∗ (((c.tc : Thread nD τ).loc main_arg2) ↦{fullShare} V m c main_arg2)
      ∗ (((c.tc : Thread nD τ).loc main_call0_v0) ↦{fullShare} V m c main_call0_v0)
      ∗ (((c.tc : Thread nD τ).loc main_arg4) ↦{fullShare} V m c main_arg4)
      ∗ (((c.tc : Thread nD τ).loc main_call0_v1) ↦{fullShare} V m c main_call0_v1)
      ∗ (((c.tc : Thread nD τ).loc main_v0_1) ↦{fullShare} V m c main_v0_1)
      ∗ (((c.tc : Thread nD τ).loc main_v0_0) ↦{fullShare} V m c main_v0_0))
  iintro ⟨H0, H1, H2, H3, H4, H5, H6, H7⟩
  ihave H0s := (pointsTo_share (PosShare.mem_left_op_right fullShare)).1 $$ H0
  icases H0s with ⟨H0l, H0r⟩
  ihave H1s := (pointsTo_share (PosShare.mem_left_op_right fullShare)).1 $$ H1
  icases H1s with ⟨H1l, H1r⟩
  isplitl [H0l]; · iexact H0l
  isplitl [H0r]; · iexact H0r
  isplitl [H1l]; · iexact H1l
  isplitl [H1r]; · iexact H1r
  isplitl [H2]; · iexact H2
  isplitl [H3]; · iexact H3
  isplitl [H4]; · iexact H4
  isplitl [H5]; · iexact H5
  isplitl [H6]; · iexact H6
  iexact H7

/-! ## The invariant at the region's two ends -/

theorem owns_scM0 (c : Dev nD) (a : Vec F S4096x8 .f32) :
    (owns (c : Thread nD τ) scM0 fullShare a : sProp 𝕄) = (((c : Thread nD τ).loc cc0_scratch0) ↦{fullShare} a) := by
  simp only [scM0, owns_whole]
theorem owns_scM1 (c : Dev nD) (s : Vec F S512x8 .bf16) :
    (owns (c : Thread nD τ) scM1 fullShare s : sProp 𝕄) = (((c : Thread nD τ).loc cc0_scratch1) ↦{fullShare} s) := by
  simp only [scM1, owns_whole]

theorem hin (c : Dev nD) :
    iprop((BI.emp : sProp 𝕄) ∗ Pipeline.scopedRest (Ix := Unit) (Name := ℕ) (U := UR sig nD τ) (Lvl := ℕ) (Val := Elt F) spec0 c) ⊢ (dats m 0 c).Φ 0 := by
  rw [show (dats m 0 c).Φ 0 = PhiS m c 0 from rfl]; unfold PhiS
  rw [scopedRest0_eq]
  simp only [owns_scM0, owns_scM1]
  iintro ⟨-, ⟨%f0, H0⟩, ⟨%f1, H1⟩⟩
  iexists f0, f1
  isplitr
  · ipureintro; exact ⟨fun h => absurd h (by omega), fun h => absurd h.1 (by omega)⟩
  isplitl [H0]; · iexact H0
  iexact H1

theorem hout (c : Dev nD) :
    (dats m 0 c).Φ (Fin.last cfg0.N) ⊢ iprop((BI.emp : sProp 𝕄) ∗ Pipeline.scopedRest (Ix := Unit) (Name := ℕ) (U := UR sig nD τ) (Lvl := ℕ) (Val := Elt F) spec0 c) := by
  rw [show (dats m 0 c).Φ (Fin.last cfg0.N) = PhiS m c (Fin.last cfg0.N).val from rfl]; unfold PhiS
  rw [scopedRest0_eq]
  simp only [owns_scM0, owns_scM1]
  iintro ⟨%a, %s, -, H0, H1⟩
  isplitr; · iempintro
  isplitl [H0]; · iexists a; iexact H0
  iexists s; iexact H1

/-! ## The run -/

theorem run_of (hbody : ∀ c, Pipeline.BodyObligationLoose (dats (F := F) m 0 c) (defs₀ (F := F)) Variants.none () Set.univ) :
    θ_run defs (onTc (τ := τ) (main (F := F))) ⟨m, fun _ => 0, ρ⟩ (fun r => ∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b) = V m c b) := by
  classical
  exact Pipeline.θ_run_region_noSem_shared cfgs (dats m) () cellOf_inj 0 winFacts₀0 emb₁ defs₀ Variants.none m ρ main
    hbody block_pos0 arr_whole0 stage_whole0 (fun _ _ => rfl)
    (u₀ := initOf (Pipeline.cells cfgs cellOf_inj) (Pipeline.launchToks cfgs cellOf_inj))
    (hu₀ := .rfl)
    (V := V m) (hmain := hmain m Variants.none)
    (hsplit := hsplit m)
    (X := fun _ => BI.emp) (Y := fun _ => BI.emp)
    (Z := fun c => Pipeline.unscopedRest (Ix := Unit) (Name := ℕ) (U := UR sig nD τ) (Lvl := ℕ) spec0 c (V m c))
    (hX := fun c => by iintro H; isplitr; · iempintro
                       iexact H)
    (hin := hin m) (hout := hout m)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => h c)

end Cert.Kernel.Run

end
-- ==== Proof.WKernFinal.lean ====
/-
  The arrays at the end of the run. The eight inputs are never written back, so each ends as the region found it. The
  two results are whole-array blocks at block index (0, 0), written back at the last point only: a whole-array block
  reads the array itself, and every index of the array lies in the last point's block, so each result array ends
  holding what the last point leaves in its staging buffer. The two biases reach the region reshaped from vectors
  to one-row arrays: entry (0, j) of the reshaped array is entry j of the vector.
-/
import proofs.«115268_g73873437491479_cont_9to1_m_435_22_alg».proof.Proof.WKernBlocks
import Idealize.ShloMosaic.Lib.Pipeline.Value

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

open Idealize.ShloMosaic.ValueIdx

/-! ## The inputs are never written back -/

theorem isIn : ∀ w : Fin cfg0.W, w.val < 8 → (cfg0.win w).isOut = false := by decide +kernel

/-- An input's array ends as the region found it. -/
theorem arrIn (c : Dev nD) (w : Fin cfg0.W) (hw : w.val < 8) : (dats m 0 c).arrAt w cfg0.N = V m c (Pipeline.arrRef spec0 w) :=
  ((dats m 0 c).arrAt_in w (isIn w hw) cfg0.N).trans (A_eq m c w)

/-! ## The two results: whole-array blocks written back at the last point -/

theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem idx9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)

/-- The last grid point. -/
abbrev tLast : Fin cfg0.N := ⟨16, by decide⟩

/-- The block of window 8 at any point reads the array itself, whatever the array holds. -/
theorem whole8 (G : Vec F S4096x8 .f32) (t : Fin cfg0.N) : ((cfg0.win 8).blk t).view.read (Elt F) G = G := by
  obtain ⟨e0, e1⟩ := idx8 t
  funext j
  rw [View.read_apply]
  show G _ = G j
  congr 1
  funext a
  apply Fin.ext
  match a with
  | ⟨0, _⟩ => show win0_8.index t (0 : Fin 2) * 4096 + 1 * (j 0).val = (j 0).val; rw [e0]; omega
  | ⟨1, _⟩ => show win0_8.index t (1 : Fin 2) * 8 + 1 * (j 1).val = (j 1).val; rw [e1]; omega

/-- The block of window 9 at any point reads the array itself, whatever the array holds. -/
theorem whole9 (G : Vec F S1x8 .f32) (t : Fin cfg0.N) : ((cfg0.win 9).blk t).view.read (Elt F) G = G := by
  obtain ⟨e0, e1⟩ := idx9 t
  funext j
  rw [View.read_apply]
  show G _ = G j
  congr 1
  funext a
  apply Fin.ext
  match a with
  | ⟨0, _⟩ => show win0_9.index t (0 : Fin 2) * 1 + 1 * (j 0).val = (j 0).val; rw [e0]; omega
  | ⟨1, _⟩ => show win0_9.index t (1 : Fin 2) * 8 + 1 * (j 1).val = (j 1).val; rw [e1]; omega

/-- Every index of the first result array lies in the block of any point: the block is the whole array. -/
theorem mem8 (t : Fin cfg0.N) (i : S4096x8.Idx) : i ∈ ((cfg0.win 8).blk t).view.set := by
  obtain ⟨e0, e1⟩ := idx8 t
  show i ∈ ((View.whole main_v0_1).slice (win0_8.rect t)).set
  rw [View.set_slice_whole, Rect.mem_set_unit]
  intro a
  match a with
  | ⟨0, _⟩ =>
    show win0_8.index t (0 : Fin 2) * 4096 ≤ (i 0).val ∧ (i 0).val < win0_8.index t (0 : Fin 2) * 4096 + 4096
    have h : (i 0).val < 4096 := (i 0).isLt
    omega
  | ⟨1, _⟩ =>
    show win0_8.index t (1 : Fin 2) * 8 ≤ (i 1).val ∧ (i 1).val < win0_8.index t (1 : Fin 2) * 8 + 8
    have h : (i 1).val < 8 := (i 1).isLt
    omega

/-- Every index of the second result array lies in the block of any point. -/
theorem mem9 (t : Fin cfg0.N) (i : S1x8.Idx) : i ∈ ((cfg0.win 9).blk t).view.set := by
  obtain ⟨e0, e1⟩ := idx9 t
  show i ∈ ((View.whole main_v0_0).slice (win0_9.rect t)).set
  rw [View.set_slice_whole, Rect.mem_set_unit]
  intro a
  match a with
  | ⟨0, _⟩ =>
    show win0_9.index t (0 : Fin 2) * 1 ≤ (i 0).val ∧ (i 0).val < win0_9.index t (0 : Fin 2) * 1 + 1
    have h : (i 0).val < 1 := (i 0).isLt
    omega
  | ⟨1, _⟩ =>
    show win0_9.index t (1 : Fin 2) * 8 ≤ (i 1).val ∧ (i 1).val < win0_9.index t (1 : Fin 2) * 8 + 8
    have h : (i 1).val < 8 := (i 1).isLt
    omega

/-- The first result array after the run: the clamped, biased accumulator. -/
theorem arr8_final (c : Dev nD) : (dats m 0 c).arrAt 8 cfg0.N = Spec.embeddings (aX m c) (aAdj m c) (aW m c) (aB m c) :=
  (dats m 0 c).arrAt_eq_of_cover 8 (Spec.embeddings (aX m c) (aAdj m c) (aW m c) (aB m c))
    (fun t _ => by
      show (dats m 0 c).after 8 t = _
      rw [after8]
      exact (whole8 _ t).symm)
    (fun i => ⟨tLast, (flush0_8 tLast).mpr (by decide), mem8 tLast i⟩)

/-- The second result array after the run: the readout. -/
theorem arr9_final (c : Dev nD) : (dats m 0 c).arrAt 9 cfg0.N = Spec.readout (aX m c) (aAdj m c) (aW m c) (aB m c) (aWl m c) (aBl m c) :=
  (dats m 0 c).arrAt_eq_of_cover 9 (Spec.readout (aX m c) (aAdj m c) (aW m c) (aB m c) (aWl m c) (aBl m c))
    (fun t _ => by
      show (dats m 0 c).after 9 t = _
      rw [after9]
      exact (whole9 _ t).symm)
    (fun i => ⟨tLast, (flush0_9 tLast).mpr (by decide), mem9 tLast i⟩)

/-! ## The two biases, reshaped before the region -/

/-- The bias as the region finds it: the argument vector reshaped to one row. -/
theorem aB_eq (c : Dev nD) : aB m c = shapeCast S1x8 (m ((c : Thread nD τ).loc main_arg3) : Vec F S8 .f32) shapeCasts_S8_S1x8 := by
  dsimp only [aB, V, hostOps0]
  after_results
  rfl

/-- The readout's bias as the region finds it: the one-entry argument vector reshaped to one row. -/
theorem aBl_eq (c : Dev nD) : aBl m c = shapeCast S1x1 (m ((c : Thread nD τ).loc main_arg5) : Vec F S1 .f32) shapeCasts_S1_S1x1 := by
  dsimp only [aBl, V, hostOps0]
  after_results
  rfl

/-- Entry (0, j) of the reshaped bias is entry j of the argument vector. -/
theorem aB_apply (c : Dev nD) (j : Fin 8) :
    aB m c (ix2 (0 : Fin 1) j) = (m ((c : Thread nD τ).loc main_arg3) : Vec F S8 .f32) (ix1 j) := by
  rw [aB_eq]
  exact shapeCast_apply _ shapeCasts_S8_S1x8 (ix2 (0 : Fin 1) j) (ix1 j)
    (by rw [Shape.rowMajor_val_two, Shape.rowMajor_val_one]; show j.val = 0 * 8 + j.val; omega)

/-- The one entry of the reshaped readout bias is the one entry of the argument vector. -/
theorem aBl_apply (c : Dev nD) :
    aBl m c (ix2 (0 : Fin 1) (0 : Fin 1)) = (m ((c : Thread nD τ).loc main_arg5) : Vec F S1 .f32) (ix1 (0 : Fin 1)) := by
  rw [aBl_eq]
  exact shapeCast_apply _ shapeCasts_S1_S1x1 (ix2 (0 : Fin 1) (0 : Fin 1)) (ix1 (0 : Fin 1))
    (by rw [Shape.rowMajor_val_two, Shape.rowMajor_val_one]; rfl)

end Cert.Kernel.Run

end
-- ==== Proof.WKernClaim.lean ====
/-
  The streaming kernel's run, assembled: every weakly fair execution terminates, nothing faulting, with the two
  results at the specification's values of the argument arrays and the six argument arrays unchanged.
-/
import proofs.«115268_g73873437491479_cont_9to1_m_435_22_alg».proof.Proof.WKernBody
import proofs.«115268_g73873437491479_cont_9to1_m_435_22_alg».proof.Proof.WKernLaunch
import proofs.«115268_g73873437491479_cont_9to1_m_435_22_alg».proof.Proof.WKernFinal

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run, at what the proof data computes. -/
theorem run_main : θ_run defs (onTc (τ := τ) (main (F := F))) ⟨m, fun _ => 0, ρ⟩ (fun r => ∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b) = V m c b) :=
  run_of m ρ (fun c => (body_obligation m c).loose)

/-- The run, at the specification's values. -/
theorem run_value : θ_run defs (onTc (τ := τ) (main (F := F))) ⟨m, fun _ => 0, ρ⟩ (fun r => ∀ c : Dev nD,
      r.2.mem ((c.tc : Thread nD τ).loc main_v0_0) = Spec.readout (aX m c) (aAdj m c) (aW m c) (aB m c) (aWl m c) (aBl m c)
      ∧ r.2.mem ((c.tc : Thread nD τ).loc main_v0_1) = Spec.embeddings (aX m c) (aAdj m c) (aW m c) (aB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 9).trans (arr9_final m c), ((h c).1 8).trans (arr8_final m c),
      ((h c).1 0).trans ((arrIn m c 0 (by decide)).trans (V_main_arg0 m c)),
      ((h c).1 2).trans ((arrIn m c 2 (by decide)).trans (V_main_arg1 m c)),
      ((h c).1 4).trans ((arrIn m c 4 (by decide)).trans (V_main_arg2 m c)),
      ((h c).2 main_arg3 (Pipeline.mem_restRefs_of main_arg3 (by decide) (by decide))).trans (V_main_arg3 m c),
      ((h c).1 6).trans ((arrIn m c 6 (by decide)).trans (V_main_arg4 m c)),
      ((h c).2 main_arg5 (Pipeline.mem_restRefs_of main_arg5 (by decide) (by decide))).trans (V_main_arg5 m c)⟩)
    (run_main m ρ)

/-- The frame: it runs, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2.2) (run_value m ρ)

end Cert.Kernel.Run

end
-- ==== Proof.RefRun.lean ====
/-
  The reference's run: its thirty host operations listed in order, and what the two result arrays hold once they
  have run. The first result is  max(adj · (x · W) + b, 0) ; the second is the row-wise log-softmax of the first
  (each row less its largest entry, less the logarithm of the row's sum of exponentials), transposed, contracted
  with the transposed linear weights, plus the broadcast linear bias, transposed back.
-/
import proofs.«115268_g73873437491479_cont_9to1_m_435_22_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first result: the graph convolution  adj · (x · W)  plus the bias row, clamped at zero. -/
def refEmb (x adj : Vec F S4096x4096 .f32) (W : Vec F S4096x8 .f32) (b : Vec F S8 .f32) : Vec F S4096x8 .f32 :=
  maximumf
    (addf (Host.dotGeneral dot_S4096x4096_S4096x8_S4096x8_1_0_0_1_n_n none adj
             (Host.dotGeneral dot_S4096x4096_S4096x8_S4096x8_1_0_0_1_n_n none x W))
          (broadcastInDim S4096x8 ![0, 1] bcast_S1x8_S4096x8_0_1 (broadcastInDim S1x8 ![1] bcast_S8_S1x8_1 b)))
    (broadcastInDim S4096x8 ![] bcast_S_S4096x8 (constant S_ .f32 0x00000000#32))

/-- Each row less its largest entry (the largest entry taken once more against minus infinity). -/
def refShift (e : Vec F S4096x8 .f32) : Vec F S4096x8 .f32 :=
  subf e
    (broadcastInDim S4096x8 ![0, 1] bcast_S4096x1_S4096x8_0_1
      (broadcastInDim S4096x1 ![0] bcast_S4096_S4096x1_0
        (maximumf (broadcastInDim S4096 ![] bcast_S_S4096 (constant S_ .f32 0xFF800000#32))
          (Host.reduce FloatOps.maximumf e (constant S_ .f32 0xFF800000#32) reducesTo_S4096x8_S4096_d1 h_S_))))

/-- The row-wise log-softmax: the shifted row less the logarithm of the sum of its exponentials. -/
def refLogSoftmax (e : Vec F S4096x8 .f32) : Vec F S4096x8 .f32 :=
  subf (refShift e)
    (broadcastInDim S4096x8 ![0, 1] bcast_S4096x1_S4096x8_0_1
      (Host.log (broadcastInDim S4096x1 ![0] bcast_S4096_S4096x1_0
        (Host.reduceAdd (Host.exp (refShift e)) (constant S_ .f32 0x00000000#32) reducesTo_S4096x8_S4096_d1 h_S_))))

/-- The second result: the log-softmax of the first, transposed, times the transposed linear weights, plus the
    linear bias, transposed back to one row of eight. -/
def refOut (x adj : Vec F S4096x4096 .f32) (W : Vec F S4096x8 .f32) (b : Vec F S8 .f32)
    (wlin : Vec F S1x4096 .f32) (blin : Vec F S1 .f32) : Vec F S1x8 .f32 :=
  transpose S1x8 [1, 0]
    (addf (Host.dotGeneral dot_S8x4096_S4096x1_S8x1_1_0_0_1_n_n none
             (transpose S8x4096 [1, 0] (refLogSoftmax (refEmb x adj W b)) transposes_S4096x8_S8x4096_1_0)
             (transpose S4096x1 [1, 0] wlin transposes_S1x4096_S4096x1_1_0))
          (broadcastInDim S8x1 ![0, 1] bcast_S1x1_S8x1_0_1 (broadcastInDim S1x1 ![1] bcast_S1_S1x1_1 blin)))
    transposes_S8x1_S1x8_1_0

/-- @main's 30 operations, in order (a called function's operations stand in its call's place, spelt `TRef.…`). -/
abbrev ops : List (HloOp τ sig (Elt F)) :=
  [ binary main_arg0 main_arg2 main_v0 ((fun l r => Host.dotGeneral dot_S4096x4096_S4096x8_S4096x8_1_0_0_1_n_n none l r) : (⟨S4096x4096, .f32⟩ : BufTy).Contents (Elt F) → (⟨S4096x8, .f32⟩ : BufTy).Contents (Elt F) → (⟨S4096x8, .f32⟩ : BufTy).Contents (Elt F)),
    binary main_arg1 main_v0 main_v1 ((fun l r => Host.dotGeneral dot_S4096x4096_S4096x8_S4096x8_1_0_0_1_n_n none l r) : (⟨S4096x4096, .f32⟩ : BufTy).Contents (Elt F) → (⟨S4096x8, .f32⟩ : BufTy).Contents (Elt F) → (⟨S4096x8, .f32⟩ : BufTy).Contents (Elt F)),
    unary main_arg3 main_v2 (broadcastInDim S1x8 ![1] bcast_S8_S1x8_1 : (⟨S8, .f32⟩ : BufTy).Contents (Elt F) → (⟨S1x8, .f32⟩ : BufTy).Contents (Elt F)),
    unary main_v2 main_v3 (broadcastInDim S4096x8 ![0, 1] bcast_S1x8_S4096x8_0_1 : (⟨S1x8, .f32⟩ : BufTy).Contents (Elt F) → (⟨S4096x8, .f32⟩ : BufTy).Contents (Elt F)),
    binary main_v1 main_v3 main_v4 (addf : (⟨S4096x8, .f32⟩ : BufTy).Contents (Elt F) → (⟨S4096x8, .f32⟩ : BufTy).Contents (Elt F) → (⟨S4096x8, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S4096x8, .f32⟩) main_call0_v0) (broadcastInDim S4096x8 ![] bcast_S_S4096x8),
    TRef.binary (TRef.of (T := ⟨S4096x8, .f32⟩) main_v4) (TRef.of (T := ⟨S4096x8, .f32⟩) main_call0_v0) (TRef.of (T := ⟨S4096x8, .f32⟩) main_v5) maximumf,
    TRef.nullary (TRef.of (T := ⟨S_, .f32⟩) main_call1_cst) (constant S_ .f32 0xFF800000#32),
    TRef.binary (TRef.of (T := ⟨S4096x8, .f32⟩) main_v5) (TRef.of (T := ⟨S_, .f32⟩) main_call1_cst) (TRef.of (T := ⟨S4096, .f32⟩) main_call1_v0) (fun x v => Host.reduce FloatOps.maximumf x v reducesTo_S4096x8_S4096_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S4096, .f32⟩) main_call1_v1) (broadcastInDim S4096 ![] bcast_S_S4096),
    TRef.binary (TRef.of (T := ⟨S4096, .f32⟩) main_call1_v1) (TRef.of (T := ⟨S4096, .f32⟩) main_call1_v0) (TRef.of (T := ⟨S4096, .f32⟩) main_call1_v2) maximumf,
    TRef.unary (TRef.of (T := ⟨S4096, .f32⟩) main_call1_v2) (TRef.of (T := ⟨S4096x1, .f32⟩) main_call1_v3) (broadcastInDim S4096x1 ![0] bcast_S4096_S4096x1_0),
    TRef.unary (TRef.of (T := ⟨S4096x1, .f32⟩) main_call1_v3) (TRef.of (T := ⟨S4096x8, .f32⟩) main_call1_v4) (broadcastInDim S4096x8 ![0, 1] bcast_S4096x1_S4096x8_0_1),
    TRef.binary (TRef.of (T := ⟨S4096x8, .f32⟩) main_v5) (TRef.of (T := ⟨S4096x8, .f32⟩) main_call1_v4) (TRef.of (T := ⟨S4096x8, .f32⟩) main_call1_v5) subf,
    TRef.unary (TRef.of (T := ⟨S4096x8, .f32⟩) main_call1_v5) (TRef.of (T := ⟨S4096x8, .f32⟩) main_call1_v6) Host.exp,
    TRef.nullary (TRef.of (T := ⟨S_, .f32⟩) main_call1_cst_1) (constant S_ .f32 0x00000000#32),
    TRef.binary (TRef.of (T := ⟨S4096x8, .f32⟩) main_call1_v6) (TRef.of (T := ⟨S_, .f32⟩) main_call1_cst_1) (TRef.of (T := ⟨S4096, .f32⟩) main_call1_v7) (fun x v => Host.reduceAdd x v reducesTo_S4096x8_S4096_d1 h_S_),
    TRef.unary (TRef.of (T := ⟨S4096, .f32⟩) main_call1_v7) (TRef.of (T := ⟨S4096x1, .f32⟩) main_call1_v8) (broadcastInDim S4096x1 ![0] bcast_S4096_S4096x1_0),
    TRef.unary (TRef.of (T := ⟨S4096x1, .f32⟩) main_call1_v8) (TRef.of (T := ⟨S4096x1, .f32⟩) main_call1_v9) Host.log,
    TRef.unary (TRef.of (T := ⟨S4096x1, .f32⟩) main_call1_v9) (TRef.of (T := ⟨S4096x8, .f32⟩) main_call1_v10) (broadcastInDim S4096x8 ![0, 1] bcast_S4096x1_S4096x8_0_1),
    TRef.binary (TRef.of (T := ⟨S4096x8, .f32⟩) main_call1_v5) (TRef.of (T := ⟨S4096x8, .f32⟩) main_call1_v10) (TRef.of (T := ⟨S4096x8, .f32⟩) main_v6) subf,
    unary main_v6 main_v7 ((transpose S8x4096 [1, 0] · transposes_S4096x8_S8x4096_1_0) : (⟨S4096x8, .f32⟩ : BufTy).Contents (Elt F) → (⟨S8x4096, .f32⟩ : BufTy).Contents (Elt F)),
    unary main_arg4 main_v8 ((transpose S4096x1 [1, 0] · transposes_S1x4096_S4096x1_1_0) : (⟨S1x4096, .f32⟩ : BufTy).Contents (Elt F) → (⟨S4096x1, .f32⟩ : BufTy).Contents (Elt F)),
    binary main_v7 main_v8 main_v9 ((fun l r => Host.dotGeneral dot_S8x4096_S4096x1_S8x1_1_0_0_1_n_n none l r) : (⟨S8x4096, .f32⟩ : BufTy).Contents (Elt F) → (⟨S4096x1, .f32⟩ : BufTy).Contents (Elt F) → (⟨S8x1, .f32⟩ : BufTy).Contents (Elt F)),
    unary main_arg5 main_v10 (broadcastInDim S1x1 ![1] bcast_S1_S1x1_1 : (⟨S1, .f32⟩ : BufTy).Contents (Elt F) → (⟨S1x1, .f32⟩ : BufTy).Contents (Elt F)),
    unary main_v10 main_v11 (broadcastInDim S8x1 ![0, 1] bcast_S1x1_S8x1_0_1 : (⟨S1x1, .f32⟩ : BufTy).Contents (Elt F) → (⟨S8x1, .f32⟩ : BufTy).Contents (Elt F)),
    binary main_v9 main_v11 main_v12 (addf : (⟨S8x1, .f32⟩ : BufTy).Contents (Elt F) → (⟨S8x1, .f32⟩ : BufTy).Contents (Elt F) → (⟨S8x1, .f32⟩ : BufTy).Contents (Elt F)),
    unary main_v12 main_v13 ((transpose S1x8 [1, 0] · transposes_S8x1_S1x8_1_0) : (⟨S8x1, .f32⟩ : BufTy).Contents (Elt F) → (⟨S1x8, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub ..⟩

set_option maxRecDepth 200000 in
set_option maxHeartbeats 4000000 in
/-- On every device, for any float values, from any memory with zero counters: every weakly fair execution of
    @main terminates with the two results at the terms above of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v13)
          = refOut (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_v5)
          = refEmb (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v13).trans (by after_results_simp; rfl),
      (h c main_v5).trans (by after_results_simp; rfl),
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp)⟩)
    (run_seq scopedRefs_eq scopedSems_eq defs main (fun _ => ops) main_eq (fun _ => ops_sub) m ρ)

end Cert.ReferenceIdeal.RefRun

end
-- ==== Proof.MathSpec.lean ====
/-
  The mathematics both programs compute, written index by index over the extended reals, and the two regroupings of
  a sum of 4096 terms that relate them: as two halves of 2048, and as sixteen blocks of 256. Only commutativity and
  associativity of addition are used, so nothing here asks an entry to be finite.
-/
import Idealize.ShloMosaic.PureOps.Ideal.Laws
import Idealize.ShloMosaic.Lib.ValueIdx

noncomputable section

open scoped BigOperators

namespace Cert.MathSpec

open Idealize.ShloMosaic Idealize.ShloMosaic.ValueIdx

/-- An `a × b` array of extended reals. -/
abbrev Mat (a b : Nat) : Type := (⟨2, ![a, b]⟩ : Shape).Idx → EReal

/-- A sum over 4096 indices is the sum over the first 2048 plus the sum over the last 2048. -/
theorem sum_halves {M : Type*} [AddCommMonoid M] (g : Fin 4096 → M) :
    ∑ f, g f = (∑ c : Fin 2048, g ⟨c.val, by omega⟩) + ∑ c : Fin 2048, g ⟨2048 + c.val, by omega⟩ :=
  Fin.sum_univ_add (a := 2048) (b := 2048) g

/-- A sum over 4096 indices is the sum, over sixteen blocks, of the sums over each block's 256 indices. -/
theorem sum_blocks {M : Type*} [AddCommMonoid M] (g : Fin 4096 → M) :
    ∑ n, g n = ∑ b : Fin 16, ∑ c : Fin 256, g ⟨256 * b.val + c.val, by omega⟩ := by
  have e := Equiv.sum_comp (finProdFinEquiv (m := 16) (n := 256)) (g : Fin (16 * 256) → M)
  rw [Fintype.sum_prod_type] at e
  refine e.symm.trans ?_
  refine Finset.sum_congr rfl fun b _ => Finset.sum_congr rfl fun c _ => congrArg g (Fin.ext ?_)
  show c.val + 256 * b.val = 256 * b.val + c.val
  omega

/-- Entry `(n, j)` of `x · W`. -/
def xw (x : Mat 4096 4096) (W : Mat 4096 8) (n : Fin 4096) (j : Fin 8) : EReal :=
  ∑ f : Fin 4096, x (ix2 n f) * W (ix2 f j)

/-- Entry `(i, j)` of `adj · (x · W)`. -/
def conv (x adj : Mat 4096 4096) (W : Mat 4096 8) (i : Fin 4096) (j : Fin 8) : EReal :=
  ∑ n : Fin 4096, adj (ix2 i n) * xw x W n j

/-- The largest entry of row `n`, the maximum started at the value of the word `0xFF800000`. -/
def rowMax (E : Mat 4096 8) (n : Fin 4096) : EReal :=
  (Finset.univ : Finset (Fin 8)).fold max (Ideal.ofBits .f32 0xFF800000#32) fun k => E (ix2 n k)

/-- Entry `(n, j)` of the row-wise log-softmax: the entry less the row's largest, less the logarithm of the sum of
    the exponentials of the row's entries so shifted. -/
def logSoftmax (E : Mat 4096 8) (n : Fin 4096) (j : Fin 8) : EReal :=
  (E (ix2 n j) - rowMax E n) - Ideal.log (∑ k : Fin 8, Ideal.exp (E (ix2 n k) - rowMax E n))

/-- Taking the maximum once more against the starting value changes nothing. -/
theorem max_rowMax (E : Mat 4096 8) (n : Fin 4096) :
    max (Ideal.ofBits .f32 0xFF800000#32) (rowMax E n) = rowMax E n :=
  max_eq_right ((Finset.le_fold_max _).mpr (Or.inl le_rfl))

end Cert.MathSpec

end
-- ==== Proof.MathDotK.lean ====
/-
  The three contractions the streaming body performs, each read at one entry of its result as a plain sum over the
  contracted coordinate: a 256 × 2048 block of `x` times 2048 rows of `W`; a 2048 × 256 block of `adj` times a
  256-row block of `x · W`; and the 1 × 4096 row of linear weights times the 4096 × 8 log-softmax.
-/
import proofs.«115268_g73873437491479_cont_9to1_m_435_22_alg».proof.Proof.Spec
import Idealize.ShloMosaic.PureOps.Ideal.Laws

noncomputable section

open scoped BigOperators

namespace Cert.MathDotK

open Idealize.ShloMosaic Idealize.ShloMosaic.ValueIdx Cert.KernelIdeal Cert.KernelIdeal.Gen

theorem xw_half_l0 (i : S256x8.Idx) (q : dot_S256x2048_S2048x8_S256x8_1_0_0_1_n_n.contr.Idx) :
    (dot_S256x2048_S2048x8_S256x8_1_0_0_1_n_n.lhsIdx i q 0).val = (i 0).val := by
  unfold DotDims.lhsIdx
  rw [dif_neg (show ¬(0 : Fin S256x2048.rank) ∈ dot_S256x2048_S2048x8_S256x8_1_0_0_1_n_n.lhsBatch by decide), dif_pos (show (0 : Fin S256x2048.rank) ∈ dot_S256x2048_S2048x8_S256x8_1_0_0_1_n_n.lhsNonContracting by decide)]
  rfl
theorem xw_half_r1 (i : S256x8.Idx) (q : dot_S256x2048_S2048x8_S256x8_1_0_0_1_n_n.contr.Idx) :
    (dot_S256x2048_S2048x8_S256x8_1_0_0_1_n_n.rhsIdx i q 1).val = (i 1).val := by
  unfold DotDims.rhsIdx
  rw [dif_neg (show ¬(1 : Fin S2048x8.rank) ∈ dot_S256x2048_S2048x8_S256x8_1_0_0_1_n_n.rhsBatch by decide), dif_pos (show (1 : Fin S2048x8.rank) ∈ dot_S256x2048_S2048x8_S256x8_1_0_0_1_n_n.rhsNonContracting by decide)]
  rfl
/-- The sum over the contraction index of an `256 × 2048` by `2048 × 8` product, at entry `(i, j)`, re-indexed by the
    contracted coordinate `k`: the terms are `L (i, k) * R (k, j)`. -/
theorem xw_half_sum (L : S256x2048.Idx → EReal) (R : S2048x8.Idx → EReal) (i : Fin 256) (j : Fin 8) :
    ∑ q : dot_S256x2048_S2048x8_S256x8_1_0_0_1_n_n.contr.Idx, L (dot_S256x2048_S2048x8_S256x8_1_0_0_1_n_n.lhsIdx (ix2 i j) q) * R (dot_S256x2048_S2048x8_S256x8_1_0_0_1_n_n.rhsIdx (ix2 i j) q)
      = ∑ k : Fin 2048, L (ix2 i k) * R (ix2 k j) := by
  rw [← Equiv.sum_comp (contrEquiv1 dot_S256x2048_S2048x8_S256x8_1_0_0_1_n_n 2048 rfl rfl).symm]
  refine Finset.sum_congr rfl fun k _ => ?_
  have hk := contrEquiv1_symm_val dot_S256x2048_S2048x8_S256x8_1_0_0_1_n_n 2048 rfl rfl k
  have el : dot_S256x2048_S2048x8_S256x8_1_0_0_1_n_n.lhsIdx (ix2 i j) ((contrEquiv1 dot_S256x2048_S2048x8_S256x8_1_0_0_1_n_n 2048 rfl rfl).symm k) = ix2 i k := funext fun a => Fin.ext (by
    match a with
    | ⟨0, _⟩ => exact xw_half_l0 _ _
    | ⟨1, _⟩ => exact (dot_S256x2048_S2048x8_S256x8_1_0_0_1_n_n.lhsIdx_val_of_single rfl _ _).trans hk)
  have er : dot_S256x2048_S2048x8_S256x8_1_0_0_1_n_n.rhsIdx (ix2 i j) ((contrEquiv1 dot_S256x2048_S2048x8_S256x8_1_0_0_1_n_n 2048 rfl rfl).symm k) = ix2 k j := funext fun a => Fin.ext (by
    match a with
    | ⟨0, _⟩ => exact (dot_S256x2048_S2048x8_S256x8_1_0_0_1_n_n.rhsIdx_val_of_single rfl _ _).trans hk
    | ⟨1, _⟩ => exact xw_half_r1 _ _)
  rw [el, er]
/-- The product into a zero accumulator, at entry `(i, j)`. -/
theorem xw_half {φ₁ φ₂ : FTy} (L : FVec Ideal S256x2048 φ₁) (R : FVec Ideal S2048x8 φ₂) (i : Fin 256) (j : Fin 8) :
    matmul dot_S256x2048_S2048x8_S256x8_1_0_0_1_n_n none L R (constant (F := Ideal) S256x8 .f32 0x00000000#32) (ix2 i j)
      = ∑ k : Fin 2048, L (ix2 i k) * R (ix2 k j) :=
  (Ideal.matmul_constant_zero_apply dot_S256x2048_S2048x8_S256x8_1_0_0_1_n_n none L R (ix2 i j)).trans (xw_half_sum L R i j)

theorem adj_block_l0 (i : S2048x8.Idx) (q : dot_S2048x256_S256x8_S2048x8_1_0_0_1_n_n.contr.Idx) :
    (dot_S2048x256_S256x8_S2048x8_1_0_0_1_n_n.lhsIdx i q 0).val = (i 0).val := by
  unfold DotDims.lhsIdx
  rw [dif_neg (show ¬(0 : Fin S2048x256.rank) ∈ dot_S2048x256_S256x8_S2048x8_1_0_0_1_n_n.lhsBatch by decide), dif_pos (show (0 : Fin S2048x256.rank) ∈ dot_S2048x256_S256x8_S2048x8_1_0_0_1_n_n.lhsNonContracting by decide)]
  rfl
theorem adj_block_r1 (i : S2048x8.Idx) (q : dot_S2048x256_S256x8_S2048x8_1_0_0_1_n_n.contr.Idx) :
    (dot_S2048x256_S256x8_S2048x8_1_0_0_1_n_n.rhsIdx i q 1).val = (i 1).val := by
  unfold DotDims.rhsIdx
  rw [dif_neg (show ¬(1 : Fin S256x8.rank) ∈ dot_S2048x256_S256x8_S2048x8_1_0_0_1_n_n.rhsBatch by decide), dif_pos (show (1 : Fin S256x8.rank) ∈ dot_S2048x256_S256x8_S2048x8_1_0_0_1_n_n.rhsNonContracting by decide)]
  rfl
/-- The sum over the contraction index of an `2048 × 256` by `256 × 8` product, at entry `(i, j)`, re-indexed by the
    contracted coordinate `k`: the terms are `L (i, k) * R (k, j)`. -/
theorem adj_block_sum (L : S2048x256.Idx → EReal) (R : S256x8.Idx → EReal) (i : Fin 2048) (j : Fin 8) :
    ∑ q : dot_S2048x256_S256x8_S2048x8_1_0_0_1_n_n.contr.Idx, L (dot_S2048x256_S256x8_S2048x8_1_0_0_1_n_n.lhsIdx (ix2 i j) q) * R (dot_S2048x256_S256x8_S2048x8_1_0_0_1_n_n.rhsIdx (ix2 i j) q)
      = ∑ k : Fin 256, L (ix2 i k) * R (ix2 k j) := by
  rw [← Equiv.sum_comp (contrEquiv1 dot_S2048x256_S256x8_S2048x8_1_0_0_1_n_n 256 rfl rfl).symm]
  refine Finset.sum_congr rfl fun k _ => ?_
  have hk := contrEquiv1_symm_val dot_S2048x256_S256x8_S2048x8_1_0_0_1_n_n 256 rfl rfl k
  have el : dot_S2048x256_S256x8_S2048x8_1_0_0_1_n_n.lhsIdx (ix2 i j) ((contrEquiv1 dot_S2048x256_S256x8_S2048x8_1_0_0_1_n_n 256 rfl rfl).symm k) = ix2 i k := funext fun a => Fin.ext (by
    match a with
    | ⟨0, _⟩ => exact adj_block_l0 _ _
    | ⟨1, _⟩ => exact (dot_S2048x256_S256x8_S2048x8_1_0_0_1_n_n.lhsIdx_val_of_single rfl _ _).trans hk)
  have er : dot_S2048x256_S256x8_S2048x8_1_0_0_1_n_n.rhsIdx (ix2 i j) ((contrEquiv1 dot_S2048x256_S256x8_S2048x8_1_0_0_1_n_n 256 rfl rfl).symm k) = ix2 k j := funext fun a => Fin.ext (by
    match a with
    | ⟨0, _⟩ => exact (dot_S2048x256_S256x8_S2048x8_1_0_0_1_n_n.rhsIdx_val_of_single rfl _ _).trans hk
    | ⟨1, _⟩ => exact adj_block_r1 _ _)
  rw [el, er]
/-- The product into a zero accumulator, at entry `(i, j)`. -/
theorem adj_block {φ₁ φ₂ : FTy} (L : FVec Ideal S2048x256 φ₁) (R : FVec Ideal S256x8 φ₂) (i : Fin 2048) (j : Fin 8) :
    matmul dot_S2048x256_S256x8_S2048x8_1_0_0_1_n_n none L R (constant (F := Ideal) S2048x8 .f32 0x00000000#32) (ix2 i j)
      = ∑ k : Fin 256, L (ix2 i k) * R (ix2 k j) :=
  (Ideal.matmul_constant_zero_apply dot_S2048x256_S256x8_S2048x8_1_0_0_1_n_n none L R (ix2 i j)).trans (adj_block_sum L R i j)

theorem lin_row_l0 (i : S1x8.Idx) (q : dot_S1x4096_S4096x8_S1x8_1_0_0_1_n_n.contr.Idx) :
    (dot_S1x4096_S4096x8_S1x8_1_0_0_1_n_n.lhsIdx i q 0).val = (i 0).val := by
  unfold DotDims.lhsIdx
  rw [dif_neg (show ¬(0 : Fin S1x4096.rank) ∈ dot_S1x4096_S4096x8_S1x8_1_0_0_1_n_n.lhsBatch by decide), dif_pos (show (0 : Fin S1x4096.rank) ∈ dot_S1x4096_S4096x8_S1x8_1_0_0_1_n_n.lhsNonContracting by decide)]
  rfl
theorem lin_row_r1 (i : S1x8.Idx) (q : dot_S1x4096_S4096x8_S1x8_1_0_0_1_n_n.contr.Idx) :
    (dot_S1x4096_S4096x8_S1x8_1_0_0_1_n_n.rhsIdx i q 1).val = (i 1).val := by
  unfold DotDims.rhsIdx
  rw [dif_neg (show ¬(1 : Fin S4096x8.rank) ∈ dot_S1x4096_S4096x8_S1x8_1_0_0_1_n_n.rhsBatch by decide), dif_pos (show (1 : Fin S4096x8.rank) ∈ dot_S1x4096_S4096x8_S1x8_1_0_0_1_n_n.rhsNonContracting by decide)]
  rfl
/-- The sum over the contraction index of an `1 × 4096` by `4096 × 8` product, at entry `(i, j)`, re-indexed by the
    contracted coordinate `k`: the terms are `L (i, k) * R (k, j)`. -/
theorem lin_row_sum (L : S1x4096.Idx → EReal) (R : S4096x8.Idx → EReal) (i : Fin 1) (j : Fin 8) :
    ∑ q : dot_S1x4096_S4096x8_S1x8_1_0_0_1_n_n.contr.Idx, L (dot_S1x4096_S4096x8_S1x8_1_0_0_1_n_n.lhsIdx (ix2 i j) q) * R (dot_S1x4096_S4096x8_S1x8_1_0_0_1_n_n.rhsIdx (ix2 i j) q)
      = ∑ k : Fin 4096, L (ix2 i k) * R (ix2 k j) := by
  rw [← Equiv.sum_comp (contrEquiv1 dot_S1x4096_S4096x8_S1x8_1_0_0_1_n_n 4096 rfl rfl).symm]
  refine Finset.sum_congr rfl fun k _ => ?_
  have hk := contrEquiv1_symm_val dot_S1x4096_S4096x8_S1x8_1_0_0_1_n_n 4096 rfl rfl k
  have el : dot_S1x4096_S4096x8_S1x8_1_0_0_1_n_n.lhsIdx (ix2 i j) ((contrEquiv1 dot_S1x4096_S4096x8_S1x8_1_0_0_1_n_n 4096 rfl rfl).symm k) = ix2 i k := funext fun a => Fin.ext (by
    match a with
    | ⟨0, _⟩ => exact lin_row_l0 _ _
    | ⟨1, _⟩ => exact (dot_S1x4096_S4096x8_S1x8_1_0_0_1_n_n.lhsIdx_val_of_single rfl _ _).trans hk)
  have er : dot_S1x4096_S4096x8_S1x8_1_0_0_1_n_n.rhsIdx (ix2 i j) ((contrEquiv1 dot_S1x4096_S4096x8_S1x8_1_0_0_1_n_n 4096 rfl rfl).symm k) = ix2 k j := funext fun a => Fin.ext (by
    match a with
    | ⟨0, _⟩ => exact (dot_S1x4096_S4096x8_S1x8_1_0_0_1_n_n.rhsIdx_val_of_single rfl _ _).trans hk
    | ⟨1, _⟩ => exact lin_row_r1 _ _)
  rw [el, er]
/-- The product into a zero accumulator, at entry `(i, j)`. -/
theorem lin_row {φ₁ φ₂ : FTy} (L : FVec Ideal S1x4096 φ₁) (R : FVec Ideal S4096x8 φ₂) (i : Fin 1) (j : Fin 8) :
    matmul dot_S1x4096_S4096x8_S1x8_1_0_0_1_n_n none L R (constant (F := Ideal) S1x8 .f32 0x00000000#32) (ix2 i j)
      = ∑ k : Fin 4096, L (ix2 i k) * R (ix2 k j) :=
  (Ideal.matmul_constant_zero_apply dot_S1x4096_S4096x8_S1x8_1_0_0_1_n_n none L R (ix2 i j)).trans (lin_row_sum L R i j)

end Cert.MathDotK

end
-- ==== Proof.MathSupport.lean ====
/-
  A block of 256 rows of `x · W`, as the body forms it: the 4096 feature columns are contracted in two halves of
  2048 (the upper and the lower 2048 rows of `W`) and the two partial products added. Entry `(r, j)` of block `k` is
  therefore the full sum over the 4096 features, i.e. entry `(256 k + r, j)` of `x · W`.
-/
import proofs.«115268_g73873437491479_cont_9to1_m_435_22_alg».proof.Proof.Spec
import proofs.«115268_g73873437491479_cont_9to1_m_435_22_alg».proof.Proof.MathSpec
import proofs.«115268_g73873437491479_cont_9to1_m_435_22_alg».proof.Proof.MathDotK
import Idealize.ShloMosaic.Lib.Pipeline.Value

noncomputable section

open scoped BigOperators

namespace Cert.MathSupport

open Idealize.ShloMosaic Idealize.ShloMosaic.ValueIdx Cert.KernelIdeal Cert.KernelIdeal.Gen Cert.KernelIdeal.Spec Cert.MathSpec

variable {F : FTy → Type} [FloatOps F]

/-- A row block of `x` at `(r, c)` is `x` at the row and column the block's position gives. -/
theorem rowBlk_apply (x : Vec F S4096x4096 .f32) (k : Fin 16) (h : Fin 2) (r : Fin 256) (c : Fin 2048) (R C : Fin 4096)
    (hR : R.val = 256 * k.val + r.val) (hC : C.val = 2048 * h.val + c.val) : rowBlk x k h (ix2 r c) = x (ix2 R C) :=
  congrArg x (funext fun a => Fin.ext (by
    match a with
    | ⟨0, _⟩ => exact hR.symm
    | ⟨1, _⟩ => exact hC.symm))

/-- A column block of `adj` at `(i, c)` is `adj` at the row and column the block's position gives. -/
theorem colBlk_apply (a : Vec F S4096x4096 .f32) (h : Fin 2) (k : Fin 16) (i : Fin 2048) (c : Fin 256) (R C : Fin 4096)
    (hR : R.val = 2048 * h.val + i.val) (hC : C.val = 256 * k.val + c.val) : colBlk a h k (ix2 i c) = a (ix2 R C) :=
  congrArg a (funext fun d => Fin.ext (by
    match d with
    | ⟨0, _⟩ => exact hR.symm
    | ⟨1, _⟩ => exact hC.symm))

/-- 2048 rows of `W` from row `o` on, at `(c, j)`: `W` at `(o + c, j)`. -/
theorem rows_apply {α : Type} (W : S4096x8.Idx → α) (o : Nat) (hs : S4096x8.Slices ![o, 0] S2048x8) (c : Fin 2048) (j : Fin 8)
    (R : Fin 4096) (hR : R.val = o + c.val) : extractStridedSlice S2048x8 ![o, 0] W hs (ix2 c j) = W (ix2 R j) :=
  extractStridedSlice_apply _ W hs (ix2 c j) (ix2 R j) (fun a => match a with
    | ⟨0, _⟩ => hR
    | ⟨1, _⟩ => by show j.val = 0 + j.val; omega)

/-- Entry `(r, j)` of block `k` of `x · W` as the body forms it is entry `(256 k + r, j)` of `x · W`. -/
theorem support_apply (x : Vec Ideal S4096x4096 .f32) (W : Vec Ideal S4096x8 .f32) (k : Fin 16) (r : Fin 256) (j : Fin 8) :
    support x W k (ix2 r j) = xw x W ⟨256 * k.val + r.val, by omega⟩ j := by
  unfold support k0_pay1
  refine (congrFun (shapeCast_self _ _) _).trans ?_
  refine (congrArg₂ (· + ·) (MathDotK.xw_half _ _ r j) (MathDotK.xw_half _ _ r j)).trans ?_
  unfold xw
  rw [sum_halves]
  refine congrArg₂ (· + ·) (Finset.sum_congr rfl fun c _ => ?_) (Finset.sum_congr rfl fun c _ => ?_)
  · exact congrArg₂ (· * ·) (rowBlk_apply x k 0 r c _ _ rfl (by show c.val = 2048 * 0 + c.val; omega))
      (rows_apply _ 0 _ c j _ (by show c.val = 0 + c.val; omega))
  · exact congrArg₂ (· * ·) (rowBlk_apply x k 1 r c _ _ rfl (by show 2048 + c.val = 2048 * 1 + c.val; omega))
      (rows_apply _ 2048 _ c j _ rfl)

end Cert.MathSupport

end
-- ==== Proof.MathAcc.lean ====
/-
  The accumulator. Each grid point adds, to every entry `(i, j)`, the product of one block of 256 columns of row `i`
  of `adj` with the matching 256 rows of `x · W`; the upper and the lower 2048 rows are handled by two separate
  products of the same shape. After the sixteenth block the entry is the sum over sixteen blocks of sums over 256
  columns, which regroups to the sum over all 4096 columns: entry `(i, j)` of `adj · (x · W)`.
-/
import proofs.«115268_g73873437491479_cont_9to1_m_435_22_alg».proof.Proof.Spec
import proofs.«115268_g73873437491479_cont_9to1_m_435_22_alg».proof.Proof.MathSpec
import proofs.«115268_g73873437491479_cont_9to1_m_435_22_alg».proof.Proof.MathDotK
import proofs.«115268_g73873437491479_cont_9to1_m_435_22_alg».proof.Proof.MathSupport

noncomputable section

open scoped BigOperators

namespace Cert.MathAcc

open Idealize.ShloMosaic Idealize.ShloMosaic.ValueIdx Cert.KernelIdeal Cert.KernelIdeal.Gen Cert.KernelIdeal.Spec Cert.MathSpec
  Cert.MathSupport

/-- What column block `b` of `adj` contributes to entry `(i, j)`; nothing beyond the sixteenth block. -/
def blockTerm (x adj : Vec Ideal S4096x4096 .f32) (W : Vec Ideal S4096x8 .f32) (i : Fin 4096) (j : Fin 8) (b : Nat) : EReal :=
  if h : b < 16 then ∑ c : Fin 256, adj (ix2 i ⟨256 * b + c.val, by omega⟩) * xw x W ⟨256 * b + c.val, by omega⟩ j else 0

variable {F : FTy → Type} [FloatOps F]

theorem stack_upper (top bot : Vec F S2048x8 .f32) (i : Fin 4096) (j : Fin 8) (h : i.val < 2048) :
    stack top bot (ix2 i j) = top (ix2 ⟨i.val, h⟩ j) := dif_pos h

theorem stack_lower (top bot : Vec F S2048x8 .f32) (i : Fin 4096) (j : Fin 8) (h : ¬ i.val < 2048) :
    stack top bot (ix2 i j) = bot (ix2 ⟨i.val - 2048, by omega⟩ j) := dif_neg h

theorem upper_apply (a : Vec F S4096x8 .f32) (i' : Fin 2048) (j : Fin 8) (I : Fin 4096) (hI : I.val = i'.val) :
    upper a (ix2 i' j) = a (ix2 I j) :=
  congrArg a (funext fun d => Fin.ext (by
    match d with
    | ⟨0, _⟩ => exact hI.symm
    | ⟨1, _⟩ => rfl))

theorem lower_apply (a : Vec F S4096x8 .f32) (i' : Fin 2048) (j : Fin 8) (I : Fin 4096) (hI : I.val = 2048 + i'.val) :
    lower a (ix2 i' j) = a (ix2 I j) :=
  congrArg a (funext fun d => Fin.ext (by
    match d with
    | ⟨0, _⟩ => exact hI.symm
    | ⟨1, _⟩ => rfl))

/-- One product of a 2048 × 256 block of `adj` with block `k` of `x · W`, at `(i', j)`: block `k`'s contribution to the
    entry of the whole array that lies under `(i', j)`. -/
theorem prod_block (x adj : Vec Ideal S4096x4096 .f32) (W : Vec Ideal S4096x8 .f32) (h : Fin 2) (k : Fin 16) (i' : Fin 2048)
    (j : Fin 8) (I : Fin 4096) (hI : I.val = 2048 * h.val + i'.val) (hb : FTy.bits .bf16 < FTy.bits .f32) :
    matmul (φ₁ := .bf16) (φ₂ := .bf16) dot_S2048x256_S256x8_S2048x8_1_0_0_1_n_n none (truncf .bf16 (colBlk adj h k) hb) (support x W k)
        (constant (F := Ideal) S2048x8 .f32 0x00000000#32) (ix2 i' j)
      = blockTerm x adj W I j k.val := by
  refine (MathDotK.adj_block (φ₁ := .bf16) (φ₂ := .bf16) _ _ i' j).trans ?_
  unfold blockTerm
  rw [dif_pos k.isLt]
  exact Finset.sum_congr rfl fun c _ =>
    congrArg₂ (· * ·) (colBlk_apply adj h k i' c _ _ hI rfl) (support_apply x W k c j)

theorem pay2_apply (x adj : Vec Ideal S4096x4096 .f32) (W : Vec Ideal S4096x8 .f32) (k : Fin 16) (i' : Fin 2048) (j : Fin 8)
    (I : Fin 4096) (hI : I.val = i'.val) :
    k0_pay2 (support x W k) (colBlk adj 0 k) (ix2 i' j) = blockTerm x adj W I j k.val := by
  unfold k0_pay2
  refine (congrFun (shapeCast_self _ _) _).trans ?_
  exact prod_block x adj W 0 k i' j I (by show I.val = 2048 * 0 + i'.val; omega) _

theorem pay3_apply (x adj : Vec Ideal S4096x4096 .f32) (W : Vec Ideal S4096x8 .f32) (k : Fin 16) (i' : Fin 2048) (j : Fin 8)
    (I : Fin 4096) (hI : I.val = 2048 + i'.val) :
    k0_pay3 (support x W k) (colBlk adj 1 k) (ix2 i' j) = blockTerm x adj W I j k.val := by
  unfold k0_pay3
  refine (congrFun (shapeCast_self _ _) _).trans ?_
  exact prod_block x adj W 1 k i' j I (by show I.val = 2048 * 1 + i'.val; omega) _

theorem pay4_apply (x adj : Vec Ideal S4096x4096 .f32) (W : Vec Ideal S4096x8 .f32) (k : Fin 16) (A : Vec Ideal S2048x8 .f32)
    (i' : Fin 2048) (j : Fin 8) (I : Fin 4096) (hI : I.val = i'.val) :
    k0_pay4 (support x W k) A (colBlk adj 0 k) (ix2 i' j) = A (ix2 i' j) + blockTerm x adj W I j k.val := by
  unfold k0_pay4
  refine (congrFun (shapeCast_self _ _) _).trans ?_
  exact congrArg (A (ix2 i' j) + ·) (prod_block x adj W 0 k i' j I (by show I.val = 2048 * 0 + i'.val; omega) _)

theorem pay5_apply (x adj : Vec Ideal S4096x4096 .f32) (W : Vec Ideal S4096x8 .f32) (k : Fin 16) (A : Vec Ideal S2048x8 .f32)
    (i' : Fin 2048) (j : Fin 8) (I : Fin 4096) (hI : I.val = 2048 + i'.val) :
    k0_pay5 (support x W k) A (colBlk adj 1 k) (ix2 i' j) = A (ix2 i' j) + blockTerm x adj W I j k.val := by
  unfold k0_pay5
  refine (congrFun (shapeCast_self _ _) _).trans ?_
  exact congrArg (A (ix2 i' j) + ·) (prod_block x adj W 1 k i' j I (by show I.val = 2048 * 1 + i'.val; omega) _)

/-- After point `n + 1` the accumulator's entry `(i, j)` is the sum of the first `n + 1` blocks' contributions. -/
theorem acc_apply (x adj : Vec Ideal S4096x4096 .f32) (W : Vec Ideal S4096x8 .f32) (n : Nat) (i : Fin 4096) (j : Fin 8) :
    acc x adj W n (ix2 i j) = ∑ b ∈ Finset.range (n + 1), blockTerm x adj W i j b := by
  induction n generalizing i with
  | zero =>
    rw [Finset.sum_range_one]
    show stack (k0_pay2 (support x W 0) (colBlk adj 0 0)) (k0_pay3 (support x W 0) (colBlk adj 1 0)) (ix2 i j) = _
    by_cases h : i.val < 2048
    · rw [stack_upper _ _ i j h]
      exact pay2_apply x adj W 0 ⟨i.val, h⟩ j i rfl
    · rw [stack_lower _ _ i j h]
      exact pay3_apply x adj W 0 ⟨i.val - 2048, by omega⟩ j i (by show i.val = 2048 + (i.val - 2048); omega)
  | succ n ih =>
    rw [Finset.sum_range_succ]
    show (if h : n + 1 < 16 then
        stack (k0_pay4 (support x W ⟨n + 1, h⟩) (upper (acc x adj W n)) (colBlk adj 0 ⟨n + 1, h⟩))
              (k0_pay5 (support x W ⟨n + 1, h⟩) (lower (acc x adj W n)) (colBlk adj 1 ⟨n + 1, h⟩))
      else acc x adj W n) (ix2 i j) = _
    by_cases hn : n + 1 < 16
    · rw [dif_pos hn]
      by_cases h : i.val < 2048
      · rw [stack_upper _ _ i j h, pay4_apply x adj W ⟨n + 1, hn⟩ _ ⟨i.val, h⟩ j i rfl,
          upper_apply _ ⟨i.val, h⟩ j i rfl, ih i]
      · rw [stack_lower _ _ i j h,
          pay5_apply x adj W ⟨n + 1, hn⟩ _ ⟨i.val - 2048, by omega⟩ j i (by show i.val = 2048 + (i.val - 2048); omega),
          lower_apply _ ⟨i.val - 2048, by omega⟩ j i (by show i.val = 2048 + (i.val - 2048); omega), ih i]
    · rw [dif_neg hn, ih i]
      have hz : blockTerm x adj W i j (n + 1) = 0 := dif_neg hn
      rw [hz, add_zero]

/-- After the last point the accumulator is `adj · (x · W)`. -/
theorem acc_final (x adj : Vec Ideal S4096x4096 .f32) (W : Vec Ideal S4096x8 .f32) (i : Fin 4096) (j : Fin 8) :
    acc x adj W 15 (ix2 i j) = conv x adj W i j := by
  refine (acc_apply x adj W 15 i j).trans ?_
  show ∑ b ∈ Finset.range 16, blockTerm x adj W i j b = _
  rw [Finset.sum_range]
  unfold conv
  rw [sum_blocks]
  refine Finset.sum_congr rfl fun b _ => ?_
  exact dif_pos b.isLt

end Cert.MathAcc

end
-- ==== Proof.MathOut.lean ====
/-
  The two results as functions of the accumulated array: the first adds the bias row and clamps at the value of the
  zero word; the second contracts the row-wise log-softmax of the first with the linear weights and adds the bias.
  Also the three ways an array with a unit axis is read through a re-layout: a vector of 4096 viewed as a column, a
  column repeated along eight lanes, and a row repeated along the rows.
-/
import proofs.«115268_g73873437491479_cont_9to1_m_435_22_alg».proof.Proof.MathSpec
import Idealize.ShloMosaic.Lib.Pipeline.Value

noncomputable section

open scoped BigOperators

namespace Cert.MathSpec

open Idealize.ShloMosaic Idealize.ShloMosaic.ValueIdx

/-- Entry `(i, j)` of the first result, from the array `A` and the bias row `b`. -/
def clampBias (A : Mat 4096 8) (b : Fin 8 → EReal) (i : Fin 4096) (j : Fin 8) : EReal :=
  max (A (ix2 i j) + b j) (Ideal.ofBits .f32 0x00000000#32)

/-- Entry `j` of the second result, from the first result `E`, the linear weights `w` and the bias `c`. -/
def lin (E : Mat 4096 8) (w : Fin 4096 → EReal) (c : EReal) (j : Fin 8) : EReal :=
  (∑ n : Fin 4096, w n * logSoftmax E n j) + c

variable {α : Type}

/-- A vector of 4096 viewed as a 4096 × 1 column: entry `(n, 0)` is entry `n`. -/
theorem col_of_vec (v : (⟨1, ![4096]⟩ : Shape).Idx → α) (h : (⟨1, ![4096]⟩ : Shape).ShapeCasts ⟨2, ![4096, 1]⟩) (n : Fin 4096) :
    shapeCast ⟨2, ![4096, 1]⟩ v h (ix2 n (0 : Fin 1)) = v (ix1 n) :=
  shapeCast_apply v h (ix2 n (0 : Fin 1)) (ix1 n) (by
    rw [Shape.rowMajor_val_one, Shape.rowMajor_val_two]
    show n.val = n.val * 1 + 0
    omega)

/-- A 4096 × 1 column repeated along eight lanes: entry `(n, j)` is the column's entry `(n, 0)`. -/
theorem lanes_of_col (c : (⟨2, ![4096, 1]⟩ : Shape).Idx → α) (h : (⟨2, ![4096, 1]⟩ : Shape).Broadcasts ⟨2, ![4096, 8]⟩)
    (n : Fin 4096) (j : Fin 8) : broadcastTo ⟨2, ![4096, 8]⟩ c h (ix2 n j) = c (ix2 n (0 : Fin 1)) :=
  broadcastTo_apply c h (ix2 n j) (ix2 n (0 : Fin 1)) (fun a => match a with
    | ⟨0, _⟩ => by show n.val = if (4096 : Nat) = 1 then 0 else n.val; rw [if_neg (by decide)]
    | ⟨1, _⟩ => by show (0 : Nat) = if (1 : Nat) = 1 then 0 else j.val; rw [if_pos rfl])

/-- A 1 × 8 row repeated along 4096 rows: entry `(i, j)` is the row's entry `(0, j)`. -/
theorem rows_of_row (b : (⟨2, ![1, 8]⟩ : Shape).Idx → α) (h : (⟨2, ![1, 8]⟩ : Shape).Broadcasts ⟨2, ![4096, 8]⟩)
    (i : Fin 4096) (j : Fin 8) : broadcastTo ⟨2, ![4096, 8]⟩ b h (ix2 i j) = b (ix2 (0 : Fin 1) j) :=
  broadcastTo_apply b h (ix2 i j) (ix2 (0 : Fin 1) j) (fun a => match a with
    | ⟨0, _⟩ => by show (0 : Nat) = if (1 : Nat) = 1 then 0 else i.val; rw [if_pos rfl]
    | ⟨1, _⟩ => by show j.val = if (8 : Nat) = 1 then 0 else j.val; rw [if_neg (by decide)])

/-- A 1 × 1 array repeated along eight lanes: every entry is its one entry. -/
theorem lanes_of_one (b : (⟨2, ![1, 1]⟩ : Shape).Idx → α) (h : (⟨2, ![1, 1]⟩ : Shape).Broadcasts ⟨2, ![1, 8]⟩)
    (j : Fin 8) : broadcastTo ⟨2, ![1, 8]⟩ b h (ix2 (0 : Fin 1) j) = b (ix2 (0 : Fin 1) (0 : Fin 1)) :=
  broadcastTo_apply b h (ix2 (0 : Fin 1) j) (ix2 (0 : Fin 1) (0 : Fin 1)) (fun a => match a with
    | ⟨0, _⟩ => by show (0 : Nat) = if (1 : Nat) = 1 then 0 else 0; rw [if_pos rfl]
    | ⟨1, _⟩ => by show (0 : Nat) = if (1 : Nat) = 1 then 0 else j.val; rw [if_pos rfl])

end Cert.MathSpec

end
-- ==== Proof.MathEpiK.lean ====
/-
  The body's epilogue read at an index. The first result adds the bias row to the accumulated array and clamps it at
  zero. The second takes, for every row, the largest entry and the sum of the exponentials of the entries less it,
  forms the log-softmax, and contracts it with the row of linear weights.
-/
import proofs.«115268_g73873437491479_cont_9to1_m_435_22_alg».proof.Proof.Spec
import proofs.«115268_g73873437491479_cont_9to1_m_435_22_alg».proof.Proof.MathOut
import proofs.«115268_g73873437491479_cont_9to1_m_435_22_alg».proof.Proof.MathDotK

noncomputable section

open scoped BigOperators

namespace Cert.MathEpiK

open Idealize.ShloMosaic Idealize.ShloMosaic.ValueIdx Cert.KernelIdeal Cert.KernelIdeal.Gen Cert.MathSpec

/-- Entry `(i, j)` of the first result: the accumulated entry plus the bias of column `j`, clamped at zero. -/
theorem pay6_apply (A : Vec Ideal S4096x8 .f32) (b2 : Vec Ideal S1x8 .f32) (i : Fin 4096) (j : Fin 8) :
    k0_pay6 A b2 (ix2 i j) = clampBias A (fun j => b2 (ix2 (0 : Fin 1) j)) i j := by
  unfold k0_pay6 clampBias
  refine congrArg₂ max (congrArg (A (ix2 i j) + ·) ?_) rfl
  refine (rows_of_row _ _ i j).trans ?_
  exact congrFun (shapeCast_self _ _) _

/-- The row maximum the body takes: the fold of `max` over the row's eight entries. -/
theorem rowMax_apply (E : Vec Ideal S4096x8 .f32) (hr : S4096x8.Reduces [1] S4096) (hφ : FKind.Formats .f32)
    (hm : (0xFF800000#32 : BitVec 32) = FKind.maximumf.neutral .f32 hφ) (n : Fin 4096) :
    multiReduction (F := Ideal) .maximumf [1] S4096 E 0xFF800000#32 hr hφ hm (ix1 n) = rowMax E n := by
  refine (Ideal.multiReduction_maximumf_single E _ hr hφ hm (ix1 n)).trans ?_
  exact congrArg (fun f => Finset.fold max (Ideal.ofBits .f32 0xFF800000#32) f (Finset.univ : Finset (Fin 8)))
    (funext fun k => congrArg E (funext fun a => Fin.ext (by
      match a with
      | ⟨0, _⟩ => rfl
      | ⟨1, _⟩ => rfl)))

/-- Entry `(n, j)` of the log-softmax as the body forms it. -/
theorem ls_apply (E : Vec Ideal S4096x8 .f32) (hr : S4096x8.Reduces [1] S4096) (hc : S4096.ShapeCasts S4096x1)
    (hb : S4096x1.Broadcasts S4096x8) (hφ : FKind.Formats .f32)
    (hm : (0xFF800000#32 : BitVec 32) = FKind.maximumf.neutral .f32 hφ)
    (ha : (0x00000000#32 : BitVec 32) = FKind.add.neutral .f32 hφ) (n : Fin 4096) (j : Fin 8) :
    subf (subf E (broadcastTo S4096x8 (shapeCast S4096x1 (multiReduction (F := Ideal) .maximumf [1] S4096 E 0xFF800000#32 hr hφ hm) hc) hb))
      (broadcastTo S4096x8 (log (shapeCast S4096x1 (multiReduction (F := Ideal) .add [1] S4096
        (exp (subf E (broadcastTo S4096x8 (shapeCast S4096x1 (multiReduction (F := Ideal) .maximumf [1] S4096 E 0xFF800000#32 hr hφ hm) hc) hb)))
        0x00000000#32 hr hφ ha) hc)) hb) (ix2 n j)
      = logSoftmax E n j := by
  have hM : ∀ (n : Fin 4096) (j : Fin 8),
      broadcastTo S4096x8 (shapeCast S4096x1 (multiReduction (F := Ideal) .maximumf [1] S4096 E 0xFF800000#32 hr hφ hm) hc) hb (ix2 n j)
        = rowMax E n :=
    fun n j => (lanes_of_col _ hb n j).trans ((col_of_vec _ hc n).trans (rowMax_apply E hr hφ hm n))
  unfold logSoftmax
  refine congrArg₂ (· - ·) (congrArg (E (ix2 n j) - ·) (hM n j)) ?_
  refine (lanes_of_col _ hb n j).trans ?_
  refine congrArg Ideal.log ?_
  refine (col_of_vec _ hc n).trans ?_
  refine (Ideal.multiReduction_add_single _ _ hr hφ ha (ix1 n)).trans ?_
  refine Finset.sum_congr rfl fun k _ => ?_
  have hl : hr.lift (ix1 n) k = ix2 n k := funext fun a => Fin.ext (by
    match a with
    | ⟨0, _⟩ => rfl
    | ⟨1, _⟩ => rfl)
  rw [hl]
  exact congrArg Ideal.exp (congrArg (E (ix2 n k) - ·) (hM n k))

/-- Entry `j` of the second result: the linear weights contracted with column `j` of the log-softmax of the first
    result, plus the bias. -/
theorem pay7_apply (A : Vec Ideal S4096x8 .f32) (b2 : Vec Ideal S1x8 .f32) (wlin : Vec Ideal S1x4096 .f32)
    (bl2 : Vec Ideal S1x1 .f32) (j : Fin 8) :
    k0_pay7 A b2 wlin bl2 (ix2 (0 : Fin 1) j)
      = lin (k0_pay6 A b2) (fun n => wlin (ix2 (0 : Fin 1) n)) (bl2 (ix2 (0 : Fin 1) (0 : Fin 1))) j := by
  unfold k0_pay7 lin
  refine congrArg₂ (· + ·) ?_ ?_
  · refine (MathDotK.lin_row (φ₁ := .f32) (φ₂ := .f32) _ _ 0 j).trans ?_
    exact Finset.sum_congr rfl fun n _ => congrArg (wlin (ix2 (0 : Fin 1) n) * ·) (ls_apply (k0_pay6 A b2) _ _ _ _ _ _ n j)
  · refine (lanes_of_one _ _ j).trans ?_
    exact congrFun (shapeCast_self _ _) _

end Cert.MathEpiK

end
-- ==== Proof.MathDotR.lean ====
/-
  The two contractions of the reference, each read at one entry of its result as a plain sum over the contracted
  coordinate: a 4096 × 4096 array times a 4096 × 8 array, and the 8 × 4096 transposed log-softmax times the 4096 × 1
  transposed linear weights.
-/
import proofs.«115268_g73873437491479_cont_9to1_m_435_22_alg».proof.Proof.RefRun
import Idealize.ShloMosaic.PureOps.Ideal.Laws
import Idealize.ShloMosaic.Lib.ValueIdx

noncomputable section

open scoped BigOperators

namespace Cert.MathDotR

open Idealize.ShloMosaic Idealize.ShloMosaic.ValueIdx Cert.ReferenceIdeal Cert.ReferenceIdeal.Gen

theorem big_l0 (i : S4096x8.Idx) (q : dot_S4096x4096_S4096x8_S4096x8_1_0_0_1_n_n.contr.Idx) :
    (dot_S4096x4096_S4096x8_S4096x8_1_0_0_1_n_n.lhsIdx i q 0).val = (i 0).val := by
  unfold DotDims.lhsIdx
  rw [dif_neg (show ¬(0 : Fin S4096x4096.rank) ∈ dot_S4096x4096_S4096x8_S4096x8_1_0_0_1_n_n.lhsBatch by decide), dif_pos (show (0 : Fin S4096x4096.rank) ∈ dot_S4096x4096_S4096x8_S4096x8_1_0_0_1_n_n.lhsNonContracting by decide)]
  rfl
theorem big_r1 (i : S4096x8.Idx) (q : dot_S4096x4096_S4096x8_S4096x8_1_0_0_1_n_n.contr.Idx) :
    (dot_S4096x4096_S4096x8_S4096x8_1_0_0_1_n_n.rhsIdx i q 1).val = (i 1).val := by
  unfold DotDims.rhsIdx
  rw [dif_neg (show ¬(1 : Fin S4096x8.rank) ∈ dot_S4096x4096_S4096x8_S4096x8_1_0_0_1_n_n.rhsBatch by decide), dif_pos (show (1 : Fin S4096x8.rank) ∈ dot_S4096x4096_S4096x8_S4096x8_1_0_0_1_n_n.rhsNonContracting by decide)]
  rfl
/-- The sum over the contraction index of an `4096 × 4096` by `4096 × 8` product, at entry `(i, j)`, re-indexed by the
    contracted coordinate `k`: the terms are `L (i, k) * R (k, j)`. -/
theorem big_sum (L : S4096x4096.Idx → EReal) (R : S4096x8.Idx → EReal) (i : Fin 4096) (j : Fin 8) :
    ∑ q : dot_S4096x4096_S4096x8_S4096x8_1_0_0_1_n_n.contr.Idx, L (dot_S4096x4096_S4096x8_S4096x8_1_0_0_1_n_n.lhsIdx (ix2 i j) q) * R (dot_S4096x4096_S4096x8_S4096x8_1_0_0_1_n_n.rhsIdx (ix2 i j) q)
      = ∑ k : Fin 4096, L (ix2 i k) * R (ix2 k j) := by
  rw [← Equiv.sum_comp (contrEquiv1 dot_S4096x4096_S4096x8_S4096x8_1_0_0_1_n_n 4096 rfl rfl).symm]
  refine Finset.sum_congr rfl fun k _ => ?_
  have hk := contrEquiv1_symm_val dot_S4096x4096_S4096x8_S4096x8_1_0_0_1_n_n 4096 rfl rfl k
  have el : dot_S4096x4096_S4096x8_S4096x8_1_0_0_1_n_n.lhsIdx (ix2 i j) ((contrEquiv1 dot_S4096x4096_S4096x8_S4096x8_1_0_0_1_n_n 4096 rfl rfl).symm k) = ix2 i k := funext fun a => Fin.ext (by
    match a with
    | ⟨0, _⟩ => exact big_l0 _ _
    | ⟨1, _⟩ => exact (dot_S4096x4096_S4096x8_S4096x8_1_0_0_1_n_n.lhsIdx_val_of_single rfl _ _).trans hk)
  have er : dot_S4096x4096_S4096x8_S4096x8_1_0_0_1_n_n.rhsIdx (ix2 i j) ((contrEquiv1 dot_S4096x4096_S4096x8_S4096x8_1_0_0_1_n_n 4096 rfl rfl).symm k) = ix2 k j := funext fun a => Fin.ext (by
    match a with
    | ⟨0, _⟩ => exact (dot_S4096x4096_S4096x8_S4096x8_1_0_0_1_n_n.rhsIdx_val_of_single rfl _ _).trans hk
    | ⟨1, _⟩ => exact big_r1 _ _)
  rw [el, er]
/-- The product, at entry `(i, j)`. -/
theorem big {φ₁ φ₂ : FTy} (L : FVec Ideal S4096x4096 φ₁) (R : FVec Ideal S4096x8 φ₂) (i : Fin 4096) (j : Fin 8) :
    Host.dotGeneral (F := Ideal) dot_S4096x4096_S4096x8_S4096x8_1_0_0_1_n_n none L R (ix2 i j) = ∑ k : Fin 4096, L (ix2 i k) * R (ix2 k j) :=
  (Ideal.dotGeneral_apply dot_S4096x4096_S4096x8_S4096x8_1_0_0_1_n_n none .single L R (ix2 i j)).trans (big_sum L R i j)

theorem lin_col_l0 (i : S8x1.Idx) (q : dot_S8x4096_S4096x1_S8x1_1_0_0_1_n_n.contr.Idx) :
    (dot_S8x4096_S4096x1_S8x1_1_0_0_1_n_n.lhsIdx i q 0).val = (i 0).val := by
  unfold DotDims.lhsIdx
  rw [dif_neg (show ¬(0 : Fin S8x4096.rank) ∈ dot_S8x4096_S4096x1_S8x1_1_0_0_1_n_n.lhsBatch by decide), dif_pos (show (0 : Fin S8x4096.rank) ∈ dot_S8x4096_S4096x1_S8x1_1_0_0_1_n_n.lhsNonContracting by decide)]
  rfl
theorem lin_col_r1 (i : S8x1.Idx) (q : dot_S8x4096_S4096x1_S8x1_1_0_0_1_n_n.contr.Idx) :
    (dot_S8x4096_S4096x1_S8x1_1_0_0_1_n_n.rhsIdx i q 1).val = (i 1).val := by
  unfold DotDims.rhsIdx
  rw [dif_neg (show ¬(1 : Fin S4096x1.rank) ∈ dot_S8x4096_S4096x1_S8x1_1_0_0_1_n_n.rhsBatch by decide), dif_pos (show (1 : Fin S4096x1.rank) ∈ dot_S8x4096_S4096x1_S8x1_1_0_0_1_n_n.rhsNonContracting by decide)]
  rfl
/-- The sum over the contraction index of an `8 × 4096` by `4096 × 1` product, at entry `(i, j)`, re-indexed by the
    contracted coordinate `k`: the terms are `L (i, k) * R (k, j)`. -/
theorem lin_col_sum (L : S8x4096.Idx → EReal) (R : S4096x1.Idx → EReal) (i : Fin 8) (j : Fin 1) :
    ∑ q : dot_S8x4096_S4096x1_S8x1_1_0_0_1_n_n.contr.Idx, L (dot_S8x4096_S4096x1_S8x1_1_0_0_1_n_n.lhsIdx (ix2 i j) q) * R (dot_S8x4096_S4096x1_S8x1_1_0_0_1_n_n.rhsIdx (ix2 i j) q)
      = ∑ k : Fin 4096, L (ix2 i k) * R (ix2 k j) := by
  rw [← Equiv.sum_comp (contrEquiv1 dot_S8x4096_S4096x1_S8x1_1_0_0_1_n_n 4096 rfl rfl).symm]
  refine Finset.sum_congr rfl fun k _ => ?_
  have hk := contrEquiv1_symm_val dot_S8x4096_S4096x1_S8x1_1_0_0_1_n_n 4096 rfl rfl k
  have el : dot_S8x4096_S4096x1_S8x1_1_0_0_1_n_n.lhsIdx (ix2 i j) ((contrEquiv1 dot_S8x4096_S4096x1_S8x1_1_0_0_1_n_n 4096 rfl rfl).symm k) = ix2 i k := funext fun a => Fin.ext (by
    match a with
    | ⟨0, _⟩ => exact lin_col_l0 _ _
    | ⟨1, _⟩ => exact (dot_S8x4096_S4096x1_S8x1_1_0_0_1_n_n.lhsIdx_val_of_single rfl _ _).trans hk)
  have er : dot_S8x4096_S4096x1_S8x1_1_0_0_1_n_n.rhsIdx (ix2 i j) ((contrEquiv1 dot_S8x4096_S4096x1_S8x1_1_0_0_1_n_n 4096 rfl rfl).symm k) = ix2 k j := funext fun a => Fin.ext (by
    match a with
    | ⟨0, _⟩ => exact (dot_S8x4096_S4096x1_S8x1_1_0_0_1_n_n.rhsIdx_val_of_single rfl _ _).trans hk
    | ⟨1, _⟩ => exact lin_col_r1 _ _)
  rw [el, er]
/-- The product, at entry `(i, j)`. -/
theorem lin_col {φ₁ φ₂ : FTy} (L : FVec Ideal S8x4096 φ₁) (R : FVec Ideal S4096x1 φ₂) (i : Fin 8) (j : Fin 1) :
    Host.dotGeneral (F := Ideal) dot_S8x4096_S4096x1_S8x1_1_0_0_1_n_n none L R (ix2 i j) = ∑ k : Fin 4096, L (ix2 i k) * R (ix2 k j) :=
  (Ideal.dotGeneral_apply dot_S8x4096_S4096x1_S8x1_1_0_0_1_n_n none .single L R (ix2 i j)).trans (lin_col_sum L R i j)

end Cert.MathDotR

end
-- ==== Proof.MathRef.lean ====
/-
  The reference read at an index. Its first result is the clamped, biased double contraction
  `adj · (x · W)`; its second is the log-softmax of the first, transposed, contracted with the transposed linear
  weights, biased and transposed back, which at entry `j` is the sum over the 4096 rows of the log-softmax's entry
  `(n, j)` times the weight of row `n`, plus the bias.
-/
import proofs.«115268_g73873437491479_cont_9to1_m_435_22_alg».proof.Proof.RefRun
import proofs.«115268_g73873437491479_cont_9to1_m_435_22_alg».proof.Proof.MathOut
import proofs.«115268_g73873437491479_cont_9to1_m_435_22_alg».proof.Proof.MathDotR

noncomputable section

open scoped BigOperators

namespace Cert.MathRef

open Idealize.ShloMosaic Idealize.ShloMosaic.ValueIdx Cert.ReferenceIdeal Cert.ReferenceIdeal.Gen Cert.ReferenceIdeal.RefRun
  Cert.MathSpec

section Layout
variable {α : Type}

/-- A 4096 × 1 column repeated along eight lanes. -/
theorem lanes (c : S4096x1.Idx → α) (h : S4096x1.BroadcastsInDim S4096x8 ![0, 1]) (n : Fin 4096) (j : Fin 8) :
    broadcastInDim S4096x8 ![0, 1] h c (ix2 n j) = c (ix2 n (0 : Fin 1)) :=
  broadcastInDim_apply _ h c (ix2 n j) (ix2 n (0 : Fin 1)) (fun a => match a with
    | ⟨0, _⟩ => by show n.val = if (4096 : Nat) = 1 then 0 else n.val; rw [if_neg (by decide)]
    | ⟨1, _⟩ => by show (0 : Nat) = if (1 : Nat) = 1 then 0 else j.val; rw [if_pos rfl])

/-- A vector of 4096 as a column. -/
theorem col (v : S4096.Idx → α) (h : S4096.BroadcastsInDim S4096x1 ![0]) (n : Fin 4096) :
    broadcastInDim S4096x1 ![0] h v (ix2 n (0 : Fin 1)) = v (ix1 n) :=
  broadcastInDim_apply _ h v (ix2 n (0 : Fin 1)) (ix1 n) (fun a => match a with
    | ⟨0, _⟩ => by show n.val = if (4096 : Nat) = 1 then 0 else n.val; rw [if_neg (by decide)])

/-- A scalar repeated everywhere. -/
theorem splat {t : Shape} (v : S_.Idx → α) (h : S_.BroadcastsInDim t ![]) (i : t.Idx) :
    broadcastInDim t ![] h v i = v ix0 :=
  broadcastInDim_apply _ h v i ix0 (fun a => a.elim0)

/-- The bias of eight entries as a row repeated along the 4096 rows. -/
theorem bias_rows (b : S8.Idx → α) (h1 : S8.BroadcastsInDim S1x8 ![1]) (h2 : S1x8.BroadcastsInDim S4096x8 ![0, 1])
    (i : Fin 4096) (j : Fin 8) :
    broadcastInDim S4096x8 ![0, 1] h2 (broadcastInDim S1x8 ![1] h1 b) (ix2 i j) = b (ix1 j) :=
  (broadcastInDim_apply _ h2 _ (ix2 i j) (ix2 (0 : Fin 1) j) (fun a => match a with
    | ⟨0, _⟩ => by show (0 : Nat) = if (1 : Nat) = 1 then 0 else i.val; rw [if_pos rfl]
    | ⟨1, _⟩ => by show j.val = if (8 : Nat) = 1 then 0 else j.val; rw [if_neg (by decide)])).trans
  (broadcastInDim_apply _ h1 b (ix2 (0 : Fin 1) j) (ix1 j) (fun a => match a with
    | ⟨0, _⟩ => by show j.val = if (8 : Nat) = 1 then 0 else j.val; rw [if_neg (by decide)]))

/-- The linear bias, one entry, repeated along the eight rows of an 8 × 1 column. -/
theorem bias_one (b : S1.Idx → α) (h1 : S1.BroadcastsInDim S1x1 ![1]) (h2 : S1x1.BroadcastsInDim S8x1 ![0, 1]) (j : Fin 8) :
    broadcastInDim S8x1 ![0, 1] h2 (broadcastInDim S1x1 ![1] h1 b) (ix2 j (0 : Fin 1)) = b (ix1 (0 : Fin 1)) :=
  (broadcastInDim_apply _ h2 _ (ix2 j (0 : Fin 1)) (ix2 (0 : Fin 1) (0 : Fin 1)) (fun a => match a with
    | ⟨0, _⟩ => by show (0 : Nat) = if (1 : Nat) = 1 then 0 else j.val; rw [if_pos rfl]
    | ⟨1, _⟩ => by show (0 : Nat) = if (1 : Nat) = 1 then 0 else 0; rw [if_pos rfl])).trans
  (broadcastInDim_apply _ h1 b (ix2 (0 : Fin 1) (0 : Fin 1)) (ix1 (0 : Fin 1)) (fun a => match a with
    | ⟨0, _⟩ => by show (0 : Nat) = if (1 : Nat) = 1 then 0 else 0; rw [if_pos rfl]))

end Layout

/-- Entry `(i, j)` of the reference's first result. -/
theorem refEmb_apply (x adj : Vec Ideal S4096x4096 .f32) (W : Vec Ideal S4096x8 .f32) (b : Vec Ideal S8 .f32)
    (i : Fin 4096) (j : Fin 8) :
    refEmb x adj W b (ix2 i j) = max (conv x adj W i j + b (ix1 j)) (Ideal.ofBits .f32 0x00000000#32) := by
  unfold refEmb
  refine congrArg₂ max (congrArg₂ (· + ·) ?_ (bias_rows b _ _ i j)) ?_
  · refine (MathDotR.big (φ₁ := .f32) (φ₂ := .f32) _ _ i j).trans ?_
    unfold conv xw
    exact Finset.sum_congr rfl fun n _ =>
      congrArg (adj (ix2 i n) * ·) (MathDotR.big (φ₁ := .f32) (φ₂ := .f32) x W n j)
  · exact splat _ _ (ix2 i j)

/-- Entry `(n, j)` of a row less its largest entry. -/
theorem refShift_apply (E : Vec Ideal S4096x8 .f32) (n : Fin 4096) (j : Fin 8) :
    refShift E (ix2 n j) = E (ix2 n j) - rowMax E n := by
  unfold refShift
  refine congrArg (E (ix2 n j) - ·) ?_
  refine (lanes _ _ n j).trans ((col _ _ n).trans ?_)
  refine Eq.trans (congrArg₂ max ?_ ?_) (max_rowMax E n)
  · exact splat _ _ (ix1 n)
  · refine (Host.reduce_eq_fold_single (FloatOps.maximumf (F := Ideal) (φ := .f32)) E _ reducesTo_S4096x8_S4096_d1 (by decide) h_S_ (ix1 n)).trans ?_
    exact congrArg (fun f => Finset.fold max (Ideal.ofBits .f32 0xFF800000#32) f (Finset.univ : Finset (Fin 8)))
      (funext fun k => congrArg E (funext fun a => Fin.ext (by
        match a with
        | ⟨0, _⟩ => rfl
        | ⟨1, _⟩ => rfl)))

/-- Entry `(n, j)` of the reference's log-softmax. -/
theorem refLogSoftmax_apply (E : Vec Ideal S4096x8 .f32) (n : Fin 4096) (j : Fin 8) :
    refLogSoftmax E (ix2 n j) = logSoftmax E n j := by
  unfold refLogSoftmax logSoftmax
  refine congrArg₂ (· - ·) (refShift_apply E n j) ?_
  refine (lanes _ _ n j).trans ?_
  refine congrArg Ideal.log ?_
  refine (col _ _ n).trans ?_
  refine (Ideal.hostReduceAdd_single reducesTo_S4096x8_S4096_d1 (by decide) _ _ (ix1 n)).trans ?_
  refine Eq.trans (congrArg₂ (· + ·) Ideal.ofBits_zero_f32 (Finset.sum_congr rfl fun k _ => ?_)) (zero_add _)
  have hl : Shape.Reduces.lift (s := S4096x8) (t := S4096) (a := 1) (by decide) (ix1 n) k = ix2 n k :=
    funext fun a => Fin.ext (by
      match a with
      | ⟨0, _⟩ => rfl
      | ⟨1, _⟩ => rfl)
  rw [hl]
  exact congrArg Ideal.exp (refShift_apply E n k)

/-- Entry `j` of the reference's second result. -/
theorem refOut_apply (x adj : Vec Ideal S4096x4096 .f32) (W : Vec Ideal S4096x8 .f32) (b : Vec Ideal S8 .f32)
    (wlin : Vec Ideal S1x4096 .f32) (bl : Vec Ideal S1 .f32) (j : Fin 8) :
    refOut x adj W b wlin bl (ix2 (0 : Fin 1) j)
      = lin (refEmb x adj W b) (fun n => wlin (ix2 (0 : Fin 1) n)) (bl (ix1 (0 : Fin 1))) j := by
  unfold refOut lin
  refine (transpose_apply [1, 0] _ transposes_S8x1_S1x8_1_0 (ix2 (0 : Fin 1) j) (ix2 j (0 : Fin 1)) (fun b => match b with
    | ⟨0, _⟩ => rfl
    | ⟨1, _⟩ => rfl)).trans ?_
  refine congrArg₂ (· + ·) ?_ (bias_one bl _ _ j)
  refine (MathDotR.lin_col (φ₁ := .f32) (φ₂ := .f32) _ _ j 0).trans ?_
  refine Finset.sum_congr rfl fun n _ => ?_
  rw [mul_comm]
  refine congrArg₂ (· * ·) ?_ ?_
  · exact transpose_apply [1, 0] wlin transposes_S1x4096_S4096x1_1_0 (ix2 n (0 : Fin 1)) (ix2 (0 : Fin 1) n) (fun b => match b with
      | ⟨0, _⟩ => rfl
      | ⟨1, _⟩ => rfl)
  · exact (transpose_apply [1, 0] _ transposes_S4096x8_S8x4096_1_0 (ix2 j n) (ix2 n j) (fun b => match b with
      | ⟨0, _⟩ => rfl
      | ⟨1, _⟩ => rfl)).trans (refLogSoftmax_apply _ n j)

end Cert.MathRef

end
-- ==== Proof.RefValue.lean ====
/-
  The bridge: the streaming kernel's two results, as the recursion over its body's arithmetic states them, are the
  reference's two results. Both sides compute `adj · (x · W)` in the same association; the kernel sums the 4096
  features in two halves and the 4096 columns of `adj` in sixteen blocks, which is a regrouping of the same finite
  sums, and multiplies the linear weights on the other side of the log-softmax, which is commutativity of the product.
  No entry is asked to be finite.
-/
import proofs.«115268_g73873437491479_cont_9to1_m_435_22_alg».proof.Proof.Spec
import proofs.«115268_g73873437491479_cont_9to1_m_435_22_alg».proof.Proof.RefRun
import proofs.«115268_g73873437491479_cont_9to1_m_435_22_alg».proof.Proof.MathAcc
import proofs.«115268_g73873437491479_cont_9to1_m_435_22_alg».proof.Proof.MathEpiK
import proofs.«115268_g73873437491479_cont_9to1_m_435_22_alg».proof.Proof.MathRef

noncomputable section

open scoped BigOperators

namespace Cert.RefValue

open Idealize.ShloMosaic Idealize.ShloMosaic.ValueIdx Cert.MathSpec

/-- The first result: the kernel's clamped, biased accumulator is the reference's, when the kernel's 1 × 8 bias row
    holds the reference's eight bias entries. -/
theorem embeddings_eq (x adj : Vec Ideal Cert.KernelIdeal.S4096x4096 .f32) (W : Vec Ideal Cert.KernelIdeal.S4096x8 .f32)
    (b : Vec Ideal Cert.ReferenceIdeal.S8 .f32) (b2 : Vec Ideal Cert.KernelIdeal.S1x8 .f32)
    (hb : ∀ j : Fin 8, b2 (ix2 (0 : Fin 1) j) = b (ix1 j)) :
    Cert.KernelIdeal.Spec.embeddings x adj W b2 = Cert.ReferenceIdeal.RefRun.refEmb x adj W b := by
  funext ij
  obtain ⟨i, j, rfl⟩ : ∃ (i : Fin 4096) (j : Fin 8), ij = ix2 i j := ⟨ij 0, ij 1, eq_ix2 ij⟩
  rw [MathRef.refEmb_apply]
  unfold Cert.KernelIdeal.Spec.embeddings
  rw [MathEpiK.pay6_apply]
  unfold clampBias
  rw [MathAcc.acc_final]
  exact congrArg (fun t => max (conv x adj W i j + t) (Ideal.ofBits .f32 0x00000000#32)) (hb j)

/-- The second result: the kernel's readout is the reference's, when moreover the kernel's 1 × 1 linear bias holds the
    reference's one bias entry. -/
theorem readout_eq (x adj : Vec Ideal Cert.KernelIdeal.S4096x4096 .f32) (W : Vec Ideal Cert.KernelIdeal.S4096x8 .f32)
    (b : Vec Ideal Cert.ReferenceIdeal.S8 .f32) (b2 : Vec Ideal Cert.KernelIdeal.S1x8 .f32)
    (hb : ∀ j : Fin 8, b2 (ix2 (0 : Fin 1) j) = b (ix1 j))
    (wlin : Vec Ideal Cert.KernelIdeal.S1x4096 .f32) (bl : Vec Ideal Cert.ReferenceIdeal.S1 .f32)
    (bl2 : Vec Ideal Cert.KernelIdeal.S1x1 .f32) (hl : bl2 (ix2 (0 : Fin 1) (0 : Fin 1)) = bl (ix1 (0 : Fin 1))) :
    Cert.KernelIdeal.Spec.readout x adj W b2 wlin bl2 = Cert.ReferenceIdeal.RefRun.refOut x adj W b wlin bl := by
  funext ij
  obtain ⟨i, j, rfl⟩ : ∃ (i : Fin 1) (j : Fin 8), ij = ix2 i j := ⟨ij 0, ij 1, eq_ix2 ij⟩
  obtain rfl : i = 0 := Subsingleton.elim _ _
  rw [MathRef.refOut_apply]
  unfold Cert.KernelIdeal.Spec.readout
  rw [MathEpiK.pay7_apply, hl]
  have e : Cert.KernelIdeal.Gen.k0_pay6 (Cert.KernelIdeal.Spec.acc x adj W 15) b2
      = Cert.ReferenceIdeal.RefRun.refEmb x adj W b := embeddings_eq x adj W b b2 hb
  rw [e]

end Cert.RefValue

end
-- ==== Proof.lean ====
/-
  A graph-convolution layer followed by a row-wise log-softmax read out through one linear map:

      embeddings = max(adj · (x · W_gc) + b_gc, 0),    readout = W_lin · log_softmax_rows(embeddings) + b_lin.

  The kernel streams x and adj once, in 17 grid points: at point k < 16 it forms rows 256 k … of x · W_gc (the 4096 feature
  columns in two halves, the two products added), at point k ≥ 1 it multiplies columns 256 (k - 1) … of adj by the block
  formed one point earlier and accumulates, and at the last point it forms both results from the accumulator. The
  reference forms the two matrix products whole. On the extended reals the two agree: the kernel's sums are the
  reference's sums regrouped (16 blocks of 256 terms; 2048 + 2048 terms), which needs only that addition is
  commutative and associative, and the readout's products commuted; no finiteness of the inputs is used.

  The kernel's run is proved once, for any float instance, with the accumulator and the two slots of blocks of x · W_gc
  tracked from point to point through the body's own arithmetic; it is read at the word-level program and at the
  idealized one. The reference's run is its host operations composed. `preserves` has no conjunct: the idealized
  program is the kernel's own text.
-/
import proofs.«115268_g73873437491479_cont_9to1_m_435_22_alg».proof.Defs
import proofs.«115268_g73873437491479_cont_9to1_m_435_22_alg».proof.Proof.Gen.Kernel
import proofs.«115268_g73873437491479_cont_9to1_m_435_22_alg».proof.Proof.Gen.KernelIdeal
import proofs.«115268_g73873437491479_cont_9to1_m_435_22_alg».proof.Proof.Gen.ReferenceIdeal
import proofs.«115268_g73873437491479_cont_9to1_m_435_22_alg».proof.Proof.Gen.Pre_finite_inputs
import proofs.«115268_g73873437491479_cont_9to1_m_435_22_alg».proof.Proof.KernClaim
import proofs.«115268_g73873437491479_cont_9to1_m_435_22_alg».proof.Proof.WKernClaim
import proofs.«115268_g73873437491479_cont_9to1_m_435_22_alg».proof.Proof.RefValue

noncomputable section

namespace Cert.Proof

open Idealize.ShloMosaic Idealize.ShloMosaic.TcCoe Idealize.SL.Sem

/-! ## The three frames -/

theorem frame_k : Cert.frame_Kernel := fun m ρ _ => Cert.Kernel.Run.frame (F := Bits) m ρ
theorem frame_ki : Cert.frame_KernelIdeal := fun m ρ _ => Cert.KernelIdeal.Run.frame (F := Ideal) m ρ
theorem frame_ri : Cert.frame_ReferenceIdeal := fun m ρ _ =>
  (θ_run Cert.ReferenceIdeal.defs _ _).mono (fun _ h c => (h c).2.2) (Cert.ReferenceIdeal.RefRun.run (F := Ideal) m ρ)

/-! ## The two results are the reference's -/

section Value

open Cert.KernelIdeal Cert.KernelIdeal.Run

variable (m : (ℓ : Loc Cert.KernelIdeal.nD Cert.KernelIdeal.τ Cert.KernelIdeal.sig) → Buf (Elt Ideal) ℓ) (c : Dev Cert.KernelIdeal.nD)

/-- The specification's first result of the entry arrays is the reference's first result of the arguments. -/
theorem value_emb :
    Spec.embeddings (aX m c) (aAdj m c) (aW m c) (aB m c)
      = Cert.ReferenceIdeal.RefRun.refEmb (m ((c.tc : Thread nD τ).loc main_arg0)) (m ((c.tc : Thread nD τ).loc main_arg1))
          (m ((c.tc : Thread nD τ).loc main_arg2)) (m ((c.tc : Thread nD τ).loc main_arg3)) := by
  have e0 : aX m c = m ((c.tc : Thread nD τ).loc main_arg0) := V_main_arg0 m c
  have e1 : aAdj m c = m ((c.tc : Thread nD τ).loc main_arg1) := V_main_arg1 m c
  have e2 : aW m c = m ((c.tc : Thread nD τ).loc main_arg2) := V_main_arg2 m c
  rw [e0, e1, e2]
  exact Cert.RefValue.embeddings_eq _ _ _ _ (aB m c) (aB_apply m c)

/-- The same for the second result. -/
theorem value_out :
    Spec.readout (aX m c) (aAdj m c) (aW m c) (aB m c) (aWl m c) (aBl m c)
      = Cert.ReferenceIdeal.RefRun.refOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  have e0 : aX m c = m ((c.tc : Thread nD τ).loc main_arg0) := V_main_arg0 m c
  have e1 : aAdj m c = m ((c.tc : Thread nD τ).loc main_arg1) := V_main_arg1 m c
  have e2 : aW m c = m ((c.tc : Thread nD τ).loc main_arg2) := V_main_arg2 m c
  have e4 : aWl m c = m ((c.tc : Thread nD τ).loc main_arg4) := V_main_arg4 m c
  rw [e0, e1, e2, e4]
  exact Cert.RefValue.readout_eq _ _ _ _ (aB m c) (aB_apply m c) _ _ (aBl m c) (aBl_apply m c)

end Value

/-- From memories agreeing on the arguments both idealized programs run, end with equal results, and leave the
    arguments unchanged. -/
theorem algebraic : Cert.algebraic_KernelIdeal_ReferenceIdeal := by
  intro m ρ m' ρ' _ hagree
  refine ⟨fun c => Cert.KernelIdeal.Spec.readout (Cert.KernelIdeal.Run.aX m c) (Cert.KernelIdeal.Run.aAdj m c) (Cert.KernelIdeal.Run.aW m c)
              (Cert.KernelIdeal.Run.aB m c) (Cert.KernelIdeal.Run.aWl m c) (Cert.KernelIdeal.Run.aBl m c),
          fun c => Cert.KernelIdeal.Spec.embeddings (Cert.KernelIdeal.Run.aX m c) (Cert.KernelIdeal.Run.aAdj m c) (Cert.KernelIdeal.Run.aW m c)
              (Cert.KernelIdeal.Run.aB m c),
          Cert.KernelIdeal.Run.run_value (F := Ideal) m ρ, ?_⟩
  refine (θ_run Cert.ReferenceIdeal.defs _ _).mono (fun _ h c => ⟨(h c).1.trans ?_, (h c).2.1.trans ?_, (h c).2.2⟩)
    (Cert.ReferenceIdeal.RefRun.run (F := Ideal) m' ρ')
  · rw [(hagree c).1, (hagree c).2.1, (hagree c).2.2.1, (hagree c).2.2.2.1, (hagree c).2.2.2.2.1, (hagree c).2.2.2.2.2]
    exact (value_out m c).symm
  · rw [(hagree c).1, (hagree c).2.1, (hagree c).2.2.1, (hagree c).2.2.2.1]
    exact (value_emb m c).symm

/-! ## The claim -/

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
